-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x640000 : Shape := ⟨2, ![2, 640000]⟩
abbrev S640000 : Shape := ⟨1, ![640000]⟩
abbrev S50000x128 : Shape := ⟨2, ![50000, 128]⟩
abbrev S500x128 : Shape := ⟨2, ![500, 128]⟩
abbrev S640000x128 : Shape := ⟨2, ![640000, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S640000x128 : S_.BroadcastsInDim S640000x128 (![] : Fin 0 → Fin S640000x128.rank)
  reducesTo_S640000x128_S_d0_1 : S640000x128.ReducesTo [0, 1] S_

variable [Facts]

def fn {F : FTy → Type} [FloatOps F] (main_arg0 : IVec S2x640000 32) (main_arg1 : IVec S640000 32) (main_arg2 : IVec S640000 32) (main_arg3 : FVec F S50000x128 .f32) (main_arg4 : FVec F S500x128 .f32) (main_arg5 : FVec F S640000x128 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500x128 .f32 := Host.absf main_arg4
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S640000x128 .f32 := Host.absf main_arg5
  let main_cst_2 : FVec F S_ .f32 := constant S_ .f32 0x7F800000#32
  let main_v10 : FVec F S640000x128 .f32 := broadcastInDim S640000x128 ![] bcast_S_S640000x128 main_cst_2
  let main_v11 : IVec S640000x128 1 := cmpf .olt main_v9 main_v10
  let main_c_3 : IVec S_ 1 := constantI S_ 1 1#1
  let main_v12 : IVec S_ 1 := (fun x v => Host.reduce IntOp.andi x v reducesTo_S640000x128_S_d0_1 h_S_) main_v11 main_c_3
  let main_v13 : IVec S_ 1 := andi main_v8 main_v12
  main_v13
-- ==== Kernel.lean ====
abbrev S2x640000 : Shape := ⟨2, ![2, 640000]⟩
abbrev S640000 : Shape := ⟨1, ![640000]⟩
abbrev S50000x128 : Shape := ⟨2, ![50000, 128]⟩
abbrev S500x128 : Shape := ⟨2, ![500, 128]⟩
abbrev S640000x128 : Shape := ⟨2, ![640000, 128]⟩
abbrev S1x640000 : Shape := ⟨2, ![1, 640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S8000x128 : Shape := ⟨2, ![8000, 128]⟩
abbrev S8000x1 : Shape := ⟨2, ![8000, 1]⟩
abbrev S5000x128 : Shape := ⟨2, ![5000, 128]⟩
abbrev S5000x1 : Shape := ⟨2, ![5000, 1]⟩

abbrev nBuf : Space → Nat
  | .hbm => 116
  | .vmem => 56
  | .smem => 0
  | _ => 0

abbrev bufTy : (tb : Table) → Fin (tcTables nBuf tb) → BufTy
  | .hbm, ⟨0, _⟩ => ⟨S2x640000, .i32⟩
  | .hbm, ⟨1, _⟩ => ⟨S640000, .i32⟩
  | .hbm, ⟨2, _⟩ => ⟨S640000, .i32⟩
  | .hbm, ⟨3, _⟩ => ⟨S50000x128, .f32⟩
  | .hbm, ⟨4, _⟩ => ⟨S500x128, .f32⟩
  | .hbm, ⟨5, _⟩ => ⟨S640000x128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S50000, .f32⟩
  | .hbm, ⟨14, _⟩ => ⟨S640000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S640000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000, .f32⟩
  | .hbm, ⟨47, _⟩ => ⟨S640000, .f32⟩
  | .hbm, ⟨48, _⟩ => ⟨S640000x1, .f32⟩
  | .hbm, ⟨49, _⟩ => ⟨S50000, .f32⟩
  | .hbm, ⟨50, _⟩ => ⟨S50000x1, .f32⟩
  | .hbm, ⟨51, _⟩ => ⟨S50000x1, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x128, .f32⟩
  | .hbm, ⟨70, _⟩ => ⟨S640000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S640000x128, .f32⟩
  | .hbm, ⟨81, _⟩ => ⟨S_, .f32⟩
  | .hbm, ⟨82, _⟩ => ⟨S50000x128, .f32⟩
  | .hbm, ⟨83, _⟩ => ⟨S640000x1, .i32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S640000, .i32⟩
  | .hbm, ⟨88, _⟩ => ⟨S640000, .i1⟩
  | .hbm, ⟨89, _⟩ => ⟨S_, .i32⟩
  | .hbm, ⟨90, _⟩ => ⟨S640000, .i32⟩
  | .hbm, ⟨91, _⟩ => ⟨S640000, .i32⟩
  | .hbm, ⟨92, _⟩ => ⟨S640000, .i32⟩
  | .hbm, ⟨93, _⟩ => ⟨S640000x1, .i32⟩
  | .hbm, ⟨94, _⟩ => ⟨S640000x128, .f32⟩
  | .hbm, ⟨95, _⟩ => ⟨S640000x128, .f32⟩
  | .hbm, ⟨96, _⟩ => ⟨S_, .f32⟩
  | .hbm, ⟨97, _⟩ => ⟨S50000x128, .f32⟩
  | .hbm, ⟨98, _⟩ => ⟨S640000x1, .i32⟩
  | .hbm, ⟨99, _⟩ => ⟨S50000x128, .f32⟩
  | .hbm, ⟨100, _⟩ => ⟨S50000x128, .f32⟩
  | .hbm, ⟨101, _⟩ => ⟨S_, .i32⟩
  | .hbm, ⟨102, _⟩ => ⟨S640000, .i32⟩
  | .hbm, ⟨103, _⟩ => ⟨S640000, .i1⟩
  | .hbm, ⟨104, _⟩ => ⟨S_, .i32⟩
  | .hbm, ⟨105, _⟩ => ⟨S640000, .i32⟩
  | .hbm, ⟨106, _⟩ => ⟨S640000, .i32⟩
  | .hbm, ⟨107, _⟩ => ⟨S640000, .i32⟩
  | .hbm, ⟨108, _⟩ => ⟨S640000x1, .i32⟩
  | .hbm, ⟨109, _⟩ => ⟨S640000x128, .f32⟩
  | .hbm, ⟨110, _⟩ => ⟨S640000x128, .f32⟩
  | .hbm, ⟨111, _⟩ => ⟨S_, .f32⟩
  | .hbm, ⟨112, _⟩ => ⟨S50000x128, .f32⟩
  | .hbm, ⟨113, _⟩ => ⟨S640000x1, .i32⟩
  | .hbm, ⟨114, _⟩ => ⟨S50000x128, .f32⟩
  | .hbm, ⟨115, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x1, .f32⟩
  | .local _ .vmem, ⟨5, _⟩ => ⟨S8000x1, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S8000x128, .f32⟩
  | .local _ .vmem, ⟨25, _⟩ => ⟨S8000x128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S8000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S8000x128, .f32⟩
  | .local _ .vmem, ⟨41, _⟩ => ⟨S8000x128, .f32⟩
  | .local _ .vmem, ⟨42, _⟩ => ⟨S8000x128, .f32⟩
  | .local _ .vmem, ⟨43, _⟩ => ⟨S8000x128, .f32⟩
  | .local _ .vmem, ⟨44, _⟩ => ⟨S8000x128, .f32⟩
  | .local _ .vmem, ⟨45, _⟩ => ⟨S8000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S5000x1, .f32⟩
  | .local _ .vmem, ⟨53, _⟩ => ⟨S5000x1, .f32⟩
  | .local _ .vmem, ⟨54, _⟩ => ⟨S5000x128, .f32⟩
  | .local _ .vmem, ⟨55, _⟩ => ⟨S5000x128, .f32⟩
  | _, _ => ⟨S2x640000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_c_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_15 : Ref sig .tc := ⟨.hbm, 86, rfl⟩
abbrev main_v63 : Ref sig .tc := ⟨.hbm, 87, rfl⟩
abbrev main_v64 : Ref sig .tc := ⟨.hbm, 88, rfl⟩
abbrev main_c_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_18 : Ref sig .tc := ⟨.hbm, 101, rfl⟩
abbrev main_v75 : Ref sig .tc := ⟨.hbm, 102, rfl⟩
abbrev main_v76 : Ref sig .tc := ⟨.hbm, 103, rfl⟩
abbrev main_c_19 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_20 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem3_1 : DmaSem sig := 53
abbrev cc6_sem4_0 : DmaSem sig := 54
abbrev cc6_sem4_1 : DmaSem sig := 55

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S500x128_S640000x1_S640000x128_1_0_n_n_0_1_1128_wf : GatherDims.WF S500x128 S640000x1 S640000x128 [1] [0] [] [0] [] 1 ![1, 128]
  gather_S640000x128_S640000x1_S640000x128_1_0_n_n_0_1_1128_wf : GatherDims.WF S640000x128 S640000x1 S640000x128 [1] [0] [] [0] [] 1 ![1, 128]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S640000x1.size a
  hwx0_2 : ∀ i : grid0.Coords, EltTy.bits .f32 = 32 ∨ (Rect.block (s := S640000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S640000x128.size a
  hwx0_3 : ∀ i : grid0.Coords, EltTy.bits .f32 = 32 ∨ (Rect.block (s := S640000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S640000x128.size a
  hwx1_1 : ∀ i : grid1.Coords, EltTy.bits .f32 = 32 ∨ (Rect.block (s := S640000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S640000x128.size a
  hwx1_2 : ∀ i : grid1.Coords, EltTy.bits .f32 = 32 ∨ (Rect.block (s := S640000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S640000x128.size a
  hwx3_0 : ∀ i : grid3.Coords, EltTy.bits .f32 = 32 ∨ (Rect.block (s := S640000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S640000x128.size a
  hwx3_1 : ∀ i : grid3.Coords, EltTy.bits .f32 = 32 ∨ (Rect.block (s := S640000x128) S8000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S640000x128.size a
  hwx3_2 : ∀ i : grid3.Coords, EltTy.bits .f32 = 32 ∨ (Rect.block (s := S640000x128) S8000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S640000x128.size a
  hwx5_0 : ∀ i : grid5.Coords, EltTy.bits .f32 = 32 ∨ (Rect.block (s := S640000x128) S8000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S640000x128.size a
  hwx5_1 : ∀ i : grid5.Coords, EltTy.bits .f32 = 32 ∨ (Rect.block (s := S640000x128) S8000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x128.size a ≤ S640000x128.size a
  hwx5_2 : ∀ i : grid5.Coords, EltTy.bits .f32 = 32 ∨ (Rect.block (s := S640000x128) S8000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S500x128_S640000x1_S640000x128_1_0_n_n_0_1_1128 : GatherDims S500x128 S640000x1 S640000x128 where
  offsetDims := [1]
  collapsedSliceDims := [0]
  operandBatchingDims := []
  startIndicesBatchingDims := []
  startIndexMap := [0]
  indexVectorDim := 1
  sliceSizes := ![1, 128]
  wf := gather_S500x128_S640000x1_S640000x128_1_0_n_n_0_1_1128_wf
def gather_S640000x128_S640000x1_S640000x128_1_0_n_n_0_1_1128 : GatherDims S640000x128 S640000x1 S640000x128 where
  offsetDims := [1]
  collapsedSliceDims := [0]
  operandBatchingDims := []
  startIndicesBatchingDims := []
  startIndexMap := [0]
  indexVectorDim := 1
  sliceSizes := ![1, 128]
  wf := gather_S640000x128_S640000x1_S640000x128_1_0_n_n_0_1_1128_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_v42) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v69) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S8000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v34) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v35) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v74) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v81) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S8000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v34) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v35) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v86) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S2x640000 : Shape := ⟨2, ![2, 640000]⟩
abbrev S640000 : Shape := ⟨1, ![640000]⟩
abbrev S50000x128 : Shape := ⟨2, ![50000, 128]⟩
abbrev S500x128 : Shape := ⟨2, ![500, 128]⟩
abbrev S640000x128 : Shape := ⟨2, ![640000, 128]⟩
abbrev S_ : Shape := ⟨0, ![]⟩
abbrev S640000x1 : Shape := ⟨2, ![640000, 1]⟩
abbrev S50000 : Shape := ⟨1, ![50000]⟩
abbrev S1x640000 : Shape := ⟨2, ![1, 640000]⟩
abbrev S690000 : Shape := ⟨1, ![690000]⟩
abbrev S690000x128 : Shape := ⟨2, ![690000, 128]⟩
abbrev S690000x1 : Shape := ⟨2, ![690000, 1]⟩
abbrev S50000x1 : Shape := ⟨2, ![50000, 1]⟩

abbrev nBuf : Space → Nat
  | .hbm => 224
  | .vmem => 0
  | .smem => 0
  | _ => 0

abbrev hbmTy0_0 (i : Nat) : BufTy := match i % 128 with
  | 0 => ⟨S2x640000, .i32⟩
  | 1 => ⟨S640000, .i32⟩
  | 2 => ⟨S640000, .i32⟩
  | 3 => ⟨S50000x128, .f32⟩
  | 4 => ⟨S500x128, .f32⟩
  | 5 => ⟨S640000x128, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x128, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S640000x128, .f32⟩
  | 25 => ⟨S50000, .i32⟩
  | 26 => ⟨S1x640000, .i32⟩
  | 27 => ⟨S640000, .i32⟩
  | 28 => ⟨S690000, .i32⟩
  | 29 => ⟨S1x640000, .i32⟩
  | 30 => ⟨S640000, .i32⟩
  | 31 => ⟨S690000, .i32⟩
  | 32 => ⟨S_, .f32⟩
  | 33 => ⟨S50000x128, .f32⟩
  | 34 => ⟨S690000x128, .f32⟩
  | 35 => ⟨S_, .f32⟩
  | 36 => ⟨S690000, .f32⟩
  | 37 => ⟨S_, .f32⟩
  | 38 => ⟨S50000, .f32⟩
  | 39 => ⟨S690000x1, .i32⟩
  | 40 => ⟨S50000, .f32⟩
  | 41 => ⟨S_, .f32⟩
  | 42 => ⟨S50000, .f32⟩
  | 43 => ⟨S50000, .i1⟩
  | 44 => ⟨S_, .f32⟩
  | 45 => ⟨S50000, .f32⟩
  | 46 => ⟨S50000, .f32⟩
  | 47 => ⟨S_, .f32⟩
  | 48 => ⟨S_, .f32⟩
  | 49 => ⟨S50000, .f32⟩
  | 50 => ⟨S50000, .f32⟩
  | 51 => ⟨S_, .i32⟩
  | 52 => ⟨S690000, .i32⟩
  | 53 => ⟨S690000, .i1⟩
  | 54 => ⟨S_, .i32⟩
  | 55 => ⟨S690000, .i32⟩
  | 56 => ⟨S690000, .i32⟩
  | 57 => ⟨S690000, .i32⟩
  | 58 => ⟨S690000x1, .i32⟩
  | 59 => ⟨S690000, .f32⟩
  | 60 => ⟨S_, .i32⟩
  | 61 => ⟨S690000, .i32⟩
  | 62 => ⟨S690000, .i1⟩
  | 63 => ⟨S_, .i32⟩
  | 64 => ⟨S690000, .i32⟩
  | 65 => ⟨S690000, .i32⟩
  | 66 => ⟨S690000, .i32⟩
  | 67 => ⟨S690000x1, .i32⟩
  | 68 => ⟨S690000, .f32⟩
  | 69 => ⟨S690000, .f32⟩
  | 70 => ⟨S690000x1, .f32⟩
  | 71 => ⟨S_, .i32⟩
  | 72 => ⟨S690000, .i32⟩
  | 73 => ⟨S690000, .i1⟩
  | 74 => ⟨S_, .i32⟩
  | 75 => ⟨S690000, .i32⟩
  | 76 => ⟨S690000, .i32⟩
  | 77 => ⟨S690000, .i32⟩
  | 78 => ⟨S690000x1, .i32⟩
  | 79 => ⟨S690000x128, .f32⟩
  | 80 => ⟨S690000x128, .f32⟩
  | 81 => ⟨S690000x128, .f32⟩
  | 82 => ⟨S690000x128, .f32⟩
  | 83 => ⟨S_, .f32⟩
  | 84 => ⟨S50000x128, .f32⟩
  | 85 => ⟨S690000x1, .i32⟩
  | 86 => ⟨S50000x128, .f32⟩
  | 87 => ⟨S_, .f32⟩
  | 88 => ⟨S50000, .f32⟩
  | 89 => ⟨S690000x1, .i32⟩
  | 90 => ⟨S50000, .f32⟩
  | 91 => ⟨S_, .f32⟩
  | 92 => ⟨S50000, .f32⟩
  | 93 => ⟨S50000, .f32⟩
  | 94 => ⟨S50000x1, .f32⟩
  | 95 => ⟨S50000x128, .f32⟩
  | 96 => ⟨S50000x128, .f32⟩
  | 97 => ⟨S_, .f32⟩
  | 98 => ⟨S690000, .f32⟩
  | 99 => ⟨S_, .f32⟩
  | 100 => ⟨S50000, .f32⟩
  | 101 => ⟨S690000x1, .i32⟩
  | 102 => ⟨S50000, .f32⟩
  | 103 => ⟨S_, .f32⟩
  | 104 => ⟨S50000, .f32⟩
  | 105 => ⟨S50000, .i1⟩
  | 106 => ⟨S_, .f32⟩
  | 107 => ⟨S50000, .f32⟩
  | 108 => ⟨S50000, .f32⟩
  | 109 => ⟨S_, .f32⟩
  | 110 => ⟨S_, .f32⟩
  | 111 => ⟨S50000, .f32⟩
  | 112 => ⟨S50000, .f32⟩
  | 113 => ⟨S_, .i32⟩
  | 114 => ⟨S690000, .i32⟩
  | 115 => ⟨S690000, .i1⟩
  | 116 => ⟨S_, .i32⟩
  | 117 => ⟨S690000, .i32⟩
  | 118 => ⟨S690000, .i32⟩
  | 119 => ⟨S690000, .i32⟩
  | 120 => ⟨S690000x1, .i32⟩
  | 121 => ⟨S690000, .f32⟩
  | 122 => ⟨S_, .i32⟩
  | 123 => ⟨S690000, .i32⟩
  | 124 => ⟨S690000, .i1⟩
  | 125 => ⟨S_, .i32⟩
  | 126 => ⟨S690000, .i32⟩
  | 127 => ⟨S690000, .i32⟩
  | _ => ⟨S2x640000, .i32⟩

abbrev hbmTy0_1 (i : Nat) : BufTy := match i % 128 with
  | 0 => ⟨S690000, .i32⟩
  | 1 => ⟨S690000x1, .i32⟩
  | 2 => ⟨S690000, .f32⟩
  | 3 => ⟨S690000, .f32⟩
  | 4 => ⟨S690000x1, .f32⟩
  | 5 => ⟨S_, .i32⟩
  | 6 => ⟨S690000, .i32⟩
  | 7 => ⟨S690000, .i1⟩
  | 8 => ⟨S_, .i32⟩
  | 9 => ⟨S690000, .i32⟩
  | 10 => ⟨S690000, .i32⟩
  | 11 => ⟨S690000, .i32⟩
  | 12 => ⟨S690000x1, .i32⟩
  | 13 => ⟨S690000x128, .f32⟩
  | 14 => ⟨S690000x128, .f32⟩
  | 15 => ⟨S690000x128, .f32⟩
  | 16 => ⟨S690000x128, .f32⟩
  | 17 => ⟨S_, .f32⟩
  | 18 => ⟨S50000x128, .f32⟩
  | 19 => ⟨S690000x1, .i32⟩
  | 20 => ⟨S50000x128, .f32⟩
  | 21 => ⟨S_, .f32⟩
  | 22 => ⟨S50000, .f32⟩
  | 23 => ⟨S690000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S_, .f32⟩
  | 35 => ⟨S690000, .f32⟩
  | 36 => ⟨S_, .f32⟩
  | 37 => ⟨S50000, .f32⟩
  | 38 => ⟨S690000x1, .i32⟩
  | 39 => ⟨S50000, .f32⟩
  | 40 => ⟨S_, .f32⟩
  | 41 => ⟨S50000, .f32⟩
  | 42 => ⟨S50000, .i1⟩
  | 43 => ⟨S_, .f32⟩
  | 44 => ⟨S50000, .f32⟩
  | 45 => ⟨S50000, .f32⟩
  | 46 => ⟨S_, .f32⟩
  | 47 => ⟨S_, .f32⟩
  | 48 => ⟨S50000, .f32⟩
  | 49 => ⟨S50000, .f32⟩
  | 50 => ⟨S_, .i32⟩
  | 51 => ⟨S690000, .i32⟩
  | 52 => ⟨S690000, .i1⟩
  | 53 => ⟨S_, .i32⟩
  | 54 => ⟨S690000, .i32⟩
  | 55 => ⟨S690000, .i32⟩
  | 56 => ⟨S690000, .i32⟩
  | 57 => ⟨S690000x1, .i32⟩
  | 58 => ⟨S690000, .f32⟩
  | 59 => ⟨S_, .i32⟩
  | 60 => ⟨S690000, .i32⟩
  | 61 => ⟨S690000, .i1⟩
  | 62 => ⟨S_, .i32⟩
  | 63 => ⟨S690000, .i32⟩
  | 64 => ⟨S690000, .i32⟩
  | 65 => ⟨S690000, .i32⟩
  | 66 => ⟨S690000x1, .i32⟩
  | 67 => ⟨S690000, .f32⟩
  | 68 => ⟨S690000, .f32⟩
  | 69 => ⟨S690000x1, .f32⟩
  | 70 => ⟨S_, .i32⟩
  | 71 => ⟨S690000, .i32⟩
  | 72 => ⟨S690000, .i1⟩
  | 73 => ⟨S_, .i32⟩
  | 74 => ⟨S690000, .i32⟩
  | 75 => ⟨S690000, .i32⟩
  | 76 => ⟨S690000, .i32⟩
  | 77 => ⟨S690000x1, .i32⟩
  | 78 => ⟨S690000x128, .f32⟩
  | 79 => ⟨S690000x128, .f32⟩
  | 80 => ⟨S690000x128, .f32⟩
  | 81 => ⟨S690000x128, .f32⟩
  | 82 => ⟨S_, .f32⟩
  | 83 => ⟨S50000x128, .f32⟩
  | 84 => ⟨S690000x1, .i32⟩
  | 85 => ⟨S50000x128, .f32⟩
  | 86 => ⟨S_, .f32⟩
  | 87 => ⟨S50000, .f32⟩
  | 88 => ⟨S690000x1, .i32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x128, .f32⟩
  | 95 => ⟨S50000x128, .f32⟩
  | _ => ⟨S2x640000, .i32⟩

abbrev hbmTy (i : Nat) : BufTy := match i / 128 with
  | 0 => hbmTy0_0 i
  | 1 => hbmTy0_1 i
  | _ => ⟨S2x640000, .i32⟩

abbrev bufTy : (tb : Table) → Fin (tcTables nBuf tb) → BufTy
  | .hbm, ⟨i, _⟩ => hbmTy i
  | _, _ => ⟨S2x640000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_call0_v0 : Ref sig .tc := ⟨.hbm, 48, rfl⟩
abbrev main_call0_v1 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_c_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_cst_18 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_cst_20 : Ref sig .tc := ⟨.hbm, 106, rfl⟩
abbrev main_v76 : Ref sig .tc := ⟨.hbm, 107, rfl⟩
abbrev main_v77 : Ref sig .tc := ⟨.hbm, 108, rfl⟩
abbrev main_cst_21 : Ref sig .tc := ⟨.hbm, 109, rfl⟩
abbrev main_call1_v0 : Ref sig .tc := ⟨.hbm, 110, rfl⟩
abbrev main_call1_v1 : Ref sig .tc := ⟨.hbm, 111, rfl⟩
abbrev main_v78 : Ref sig .tc := ⟨.hbm, 112, rfl⟩
abbrev main_c_22 : Ref sig .tc := ⟨.hbm, 113, rfl⟩
abbrev main_v79 : Ref sig .tc := ⟨.hbm, 114, rfl⟩
abbrev main_v80 : Ref sig .tc := ⟨.hbm, 115, rfl⟩
abbrev main_c_23 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_24 : Ref sig .tc := ⟨.hbm, 122, rfl⟩
abbrev main_v86 : Ref sig .tc := ⟨.hbm, 123, rfl⟩
abbrev main_v87 : Ref sig .tc := ⟨.hbm, 124, rfl⟩
abbrev main_c_25 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_26 : Ref sig .tc := ⟨.hbm, 133, rfl⟩
abbrev main_v95 : Ref sig .tc := ⟨.hbm, 134, rfl⟩
abbrev main_v96 : Ref sig .tc := ⟨.hbm, 135, rfl⟩
abbrev main_c_27 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_28 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_29 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_30 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_call2_cst : Ref sig .tc := ⟨.hbm, 159, rfl⟩
abbrev main_call2_v0 : Ref sig .tc := ⟨.hbm, 160, rfl⟩
abbrev main_v116 : Ref sig .tc := ⟨.hbm, 161, rfl⟩
abbrev main_cst_31 : Ref sig .tc := ⟨.hbm, 162, rfl⟩
abbrev main_v117 : Ref sig .tc := ⟨.hbm, 163, rfl⟩
abbrev main_cst_32 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_33 : Ref sig .tc := ⟨.hbm, 168, rfl⟩
abbrev main_v121 : Ref sig .tc := ⟨.hbm, 169, rfl⟩
abbrev main_v122 : Ref sig .tc := ⟨.hbm, 170, rfl⟩
abbrev main_cst_34 : Ref sig .tc := ⟨.hbm, 171, rfl⟩
abbrev main_v123 : Ref sig .tc := ⟨.hbm, 172, rfl⟩
abbrev main_v124 : Ref sig .tc := ⟨.hbm, 173, rfl⟩
abbrev main_cst_35 : Ref sig .tc := ⟨.hbm, 174, rfl⟩
abbrev main_call3_v0 : Ref sig .tc := ⟨.hbm, 175, rfl⟩
abbrev main_call3_v1 : Ref sig .tc := ⟨.hbm, 176, rfl⟩
abbrev main_v125 : Ref sig .tc := ⟨.hbm, 177, rfl⟩
abbrev main_c_36 : Ref sig .tc := ⟨.hbm, 178, rfl⟩
abbrev main_v126 : Ref sig .tc := ⟨.hbm, 179, rfl⟩
abbrev main_v127 : Ref sig .tc := ⟨.hbm, 180, rfl⟩
abbrev main_c_37 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_38 : Ref sig .tc := ⟨.hbm, 187, rfl⟩
abbrev main_v133 : Ref sig .tc := ⟨.hbm, 188, rfl⟩
abbrev main_v134 : Ref sig .tc := ⟨.hbm, 189, rfl⟩
abbrev main_c_39 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_40 : Ref sig .tc := ⟨.hbm, 198, rfl⟩
abbrev main_v142 : Ref sig .tc := ⟨.hbm, 199, rfl⟩
abbrev main_v143 : Ref sig .tc := ⟨.hbm, 200, rfl⟩
abbrev main_c_41 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_42 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_43 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_44 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S50000x128 : S_.BroadcastsInDim S50000x128 (![] : Fin 0 → Fin S50000x128.rank)
  concatenates_S640000x128_S50000x128_S690000x128_d0 : Shape.Concatenates [S640000x128, S50000x128] S690000x128 0
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S500x128_S640000x1_S640000x128_1_0_n_n_0_1_1128_wf : GatherDims.WF S500x128 S640000x1 S640000x128 [1] [0] [] [0] [] 1 ![1, 128]
  gather_S640000x128_S640000x1_S640000x128_1_0_n_n_0_1_1128_wf : GatherDims.WF S640000x128 S640000x1 S640000x128 [1] [0] [] [0] [] 1 ![1, 128]
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1

variable [Facts₀]

def gather_S500x128_S640000x1_S640000x128_1_0_n_n_0_1_1128 : GatherDims S500x128 S640000x1 S640000x128 where
  offsetDims := [1]
  collapsedSliceDims := [0]
  operandBatchingDims := []
  startIndicesBatchingDims := []
  startIndexMap := [0]
  indexVectorDim := 1
  sliceSizes := ![1, 128]
  wf := gather_S500x128_S640000x1_S640000x128_1_0_n_n_0_1_1128_wf
def gather_S640000x128_S640000x1_S640000x128_1_0_n_n_0_1_1128 : GatherDims S640000x128 S640000x1 S640000x128 where
  offsetDims := [1]
  collapsedSliceDims := [0]
  operandBatchingDims := []
  startIndicesBatchingDims := []
  startIndexMap := [0]
  indexVectorDim := 1
  sliceSizes := ![1, 128]
  wf := gather_S640000x128_S640000x1_S640000x128_1_0_n_n_0_1_1128_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

class Facts : Prop extends Facts₀ where

variable [Facts]
-- ==== Proof.KRun.lean ====
/-
  The idealized kernel program's run, with its RESULT read: from any memory with zero counters every weakly fair
  execution of the program terminates without a fault, the six argument arrays end as launched, and the result
  buffer ends at the contents the last of the fourteen segment boundaries gives it — the fold of the host stretches
  and of the seven regions' write-backs over the launch memory.  The derivation is the frame's own (the launch over
  the fourteen segments, the last thread state read against the final state); the one addition is the clause for the
  result buffer, read off the same final thread state.
-/
import proofs.«155152_j37271726194960_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments as launched. -/
theorem run_result : θ_run defs (onTc (τ := τ) (main (F := F))) ⟨m, fun _ => 0, ρ⟩ (fun r => ∀ c : Dev nD,
      r.2.mem ((c.tc : Thread nD τ).loc main_v86) = W14 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v86 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.KRun

end
-- ==== Proof.KSpec.lean ====
/-
  The kernel's result as ONE function of the six argument arrays, at the exact-real instance.

  The graph has n = 50000 nodes and E = 640000 edges e : src e → dst e, each with a relation row and an edge row of
  128 features.  With deg i = 1 + #{e | src e = i} and cnt i = 1 + #{e | dst e = i} (the "1 +" is the node's
  self loop), dinv = deg^(-1/2), the edge weight is
      w (e, k) = rel (e, k) · edge (e, k) · (dinv (src e) · dinv (dst e)),
  and one layer sends x : n × 128 to
      layer x (i, k) = ( Σ_{e : dst e = i} x (src e, k) · w (e, k)  +  x (i, k) · (dinv i · dinv i) ) / cnt i.
  The result is layer (max 0 (layer (layer ent))) — the middle layer clipped below at zero.

  Every definition below is spelt with the very operations the program's host stretches apply (gathers, accumulating
  scatters, broadcasts), so that a stretch read back IS the definition; the three launched bodies enter as the
  pointwise functions mul3, mul2, fin / finRelu.
-/
import proofs.«155152_j37271726194960_1_alg».proof.KernelIdeal
import Idealize.ShloMosaic.PureOps.Ideal
import Idealize.ShloMosaic.Lib.ValueIdx

noncomputable section

namespace Cert.KernelIdeal.KSpec

open Cert.KernelIdeal Idealize.ShloMosaic Idealize.ShloMosaic.ValueIdx

variable [Facts]
open Facts₀ Facts

/-- A float array and an index array at the exact-real instance. -/
abbrev FA (s : Shape) := FVec Ideal s .f32
abbrev IA (s : Shape) := IVec s 32

/-- Row 0 of the edge list: each edge's source node. -/
def src (a0 : IA S2x640000) : IA S640000 :=
  shapeCast S640000 (extractStridedSlice S1x640000 ![0, 0] a0 slices_S2x640000_S1x640000_0_0) shapeCasts_S1x640000_S640000
/-- Row 1 of the edge list: each edge's target node. -/
def dst (a0 : IA S2x640000) : IA S640000 :=
  shapeCast S640000 (extractStridedSlice S1x640000 ![1, 0] a0 slices_S2x640000_S1x640000_1_0) shapeCasts_S1x640000_S640000

/-- A vector of per-edge indices as the one-column index array a gather or scatter reads. -/
def col (v : IA S640000) : IA S640000x1 := broadcastInDim S640000x1 ![0] bcast_S640000_S640000x1_0 v

def zerosV : FA S50000 := broadcastInDim S50000 ![] bcast_S_S50000 (constant (F := Ideal) S_ .f32 0x00000000#32)
def onesV : FA S50000 := broadcastInDim S50000 ![] bcast_S_S50000 (constant (F := Ideal) S_ .f32 0x3F800000#32)
def onesE : FA S640000 := broadcastInDim S640000 ![] bcast_S_S640000 (constant (F := Ideal) S_ .f32 0x3F800000#32)
def zerosM : FA S50000x128 := broadcastInDim S50000x128 ![] bcast_S_S50000x128 (constant (F := Ideal) S_ .f32 0x00000000#32)

/-- How many of the given per-edge nodes are node `i`, plus one for the self loop. -/
def count1 (v : IA S640000) : FA S50000 :=
  addf (Host.scatterAdd scatter_S50000_S640000x1_S640000_n_0_0_1 zerosV (col v) onesE) onesV
def deg (a0 : IA S2x640000) : FA S50000 := count1 (src a0)
def cnt (a0 : IA S2x640000) : FA S50000 := count1 (dst a0)
/-- deg^(-1/2). -/
def dinv (a0 : IA S2x640000) : FA S50000 :=
  Host.powf (deg a0) (broadcastInDim S50000 ![] bcast_S_S50000 (constant (F := Ideal) S_ .f32 0xBF000000#32))

/-- An index vector with its negative entries wrapped by the table's length `n` (what `table[idx]` does first). -/
def wrap (n : BitVec 32) (v : IA S640000) : IA S640000 :=
  select (cmpi .slt v (broadcastInDim S640000 ![] bcast_S_S640000 (constantI S_ 32 0#32)))
    (addi v (broadcastInDim S640000 ![] bcast_S_S640000 (constantI S_ 32 n))) v

/-- A per-node vector read at each edge's (wrapped) node. -/
def atNode (d : FA S50000) (v : IA S640000) : FA S640000 :=
  Host.gather gather_S50000_S640000x1_S640000_n_0_n_n_0_1_1 d (col (wrap 50000#32 v))

/-- dinv (src e) · dinv (dst e), as a column. -/
def normcol (a0 : IA S2x640000) : FA S640000x1 :=
  broadcastInDim S640000x1 ![0] bcast_S640000_S640000x1_0 (mulf (atNode (dinv a0) (src a0)) (atNode (dinv a0) (dst a0)))
/-- dinv i · dinv i, as a column. -/
def nlcol (a0 : IA S2x640000) : FA S50000x1 :=
  broadcastInDim S50000x1 ![0] bcast_S50000_S50000x1_0 (mulf (dinv a0) (dinv a0))
/-- cnt, as a column. -/
def cntcol (a0 : IA S2x640000) : FA S50000x1 :=
  broadcastInDim S50000x1 ![0] bcast_S50000_S50000x1_0 (cnt a0)

/-- Each edge's relation row. -/
def relg (a1 : IA S640000) (a4 : FA S500x128) : FA S640000x128 :=
  Host.gather gather_S500x128_S640000x1_S640000x128_1_0_n_n_0_1_1128 a4 (col (wrap 500#32 a1))
/-- Each edge's edge-embedding row. -/
def edgeg (a2 : IA S640000) (a5 : FA S640000x128) : FA S640000x128 :=
  Host.gather gather_S640000x128_S640000x1_S640000x128_1_0_n_n_0_1_1128 a5 (col (wrap 640000#32 a2))

/-- The first launched body over whole arrays: a · b · c, `c` a column. -/
def mul3 (a b : FA S640000x128) (c : FA S640000x1) : FA S640000x128 :=
  fun j => a j * b j * c (ix2 (j 0) 0)
/-- The second launched body over whole arrays: a · b. -/
def mul2 (a b : FA S640000x128) : FA S640000x128 := fun j => a j * b j
/-- The third launched body over whole arrays: (agg + x · nl) / cnt, `nl` and `cnt` columns. -/
def fin (agg x : FA S50000x128) (nl cnt : FA S50000x1) : FA S50000x128 :=
  fun j => Ideal.div (agg j + x j * nl (ix2 (j 0) 0)) (cnt (ix2 (j 0) 0))
/-- The same clipped below at zero. -/
def finRelu (agg x : FA S50000x128) (nl cnt : FA S50000x1) : FA S50000x128 :=
  fun j => max (fin agg x nl cnt j) (Ideal.ofBits .f32 0x00000000#32)

/-- The edge weight, computed once. -/
def w (a0 : IA S2x640000) (a1 a2 : IA S640000) (a4 : FA S500x128) (a5 : FA S640000x128) : FA S640000x128 :=
  mul3 (relg a1 a4) (edgeg a2 a5) (normcol a0)

/-- Each edge's source-node row of `x`. -/
def xsrc (a0 : IA S2x640000) (x : FA S50000x128) : FA S640000x128 :=
  Host.gather gather_S50000x128_S640000x1_S640000x128_1_0_n_n_0_1_1128 x (col (wrap 50000#32 (src a0)))
/-- The messages added up at their target nodes. -/
def agg (a0 : IA S2x640000) (msg : FA S640000x128) : FA S50000x128 :=
  Host.scatterAdd scatter_S50000x128_S640000x1_S640000x128_1_0_0_1 zerosM (col (dst a0)) msg

def layer (a0 : IA S2x640000) (W : FA S640000x128) (x : FA S50000x128) : FA S50000x128 :=
  fin (agg a0 (mul2 (xsrc a0 x) W)) x (nlcol a0) (cntcol a0)
def layerRelu (a0 : IA S2x640000) (W : FA S640000x128) (x : FA S50000x128) : FA S50000x128 :=
  finRelu (agg a0 (mul2 (xsrc a0 x) W)) x (nlcol a0) (cntcol a0)

/-- The kernel's result. -/
def out (a0 : IA S2x640000) (a1 a2 : IA S640000) (a3 : FA S50000x128) (a4 : FA S500x128) (a5 : FA S640000x128) :
    FA S50000x128 :=
  layer a0 (w a0 a1 a2 a4 a5) (layerRelu a0 (w a0 a1 a2 a4 a5) (layer a0 (w a0 a1 a2 a4 a5) a3))

end Cert.KernelIdeal.KSpec

end
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.KReg0.lean ====
/-
  Region 0 of the program (the three-factor product a · b · c over 640000 × 128, c a 640000 × 1 column repeated
  along each row, in 80 row blocks of 8000 rows): the output array after all 80 grid points is the pointwise
  product a (r, k) · b (r, k) · c (r, 0) of the three input arrays as the region finds them.

  The steps: the body's payload at (p, q) is x0 (p, q) · x1 (p, q) · x2 (p, 0) of its three loaded blocks; at grid
  point t every window's block is rows 8000·t … 8000·t + 7999 (block index (t, 0)), so what point t writes back is
  block t of the whole-array product; every row r lies in the block of point r / 8000; hence the array ends holding it.
-/
import proofs.«155152_j37271726194960_1_alg».proof.Proof.Gen.KernelIdeal.Frame
import proofs.«155152_j37271726194960_1_alg».proof.Proof.KSpec
import proofs.«155152_j37271726194960_1_alg».proof.Proof.LibColumnBroadcast
import Idealize.ShloMosaic.Lib.Pipeline.Value

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem zeroOff0 : (![0, 0] : Fin 2 → Nat) = fun _ => 0 := funext fun a => by fin_cases a <;> rfl

/-- The body's payload at (p, q): the product of the two full blocks there and of the column block at (p, 0). -/
theorem pay0_apply (x0 x1 : Vec Ideal S8000x128 .f32) (x2 : Vec Ideal S8000x1 .f32) (p : Fin 8000) (q : Fin 128) :
    k0_pay1 x0 x1 x2 (ix2 p q) = x0 (ix2 p q) * x1 (ix2 p q) * x2 (ix2 p (0 : Fin 1)) := by
  unfold k0_pay1
  simp only [shapeCast_self]
  exact congrArg (fun z => x0 (ix2 p q) * x1 (ix2 p q) * z)
    (ColumnBroadcast.broadcastTo_a1_ab_apply x2 broadcasts_S8000x1_S8000x128 p q)

/-- The payload at an index of the block, where each block reads its array at the matching index, is the
    whole-array product there. -/
theorem point0 (A B : KSpec.FA S640000x128) (C : KSpec.FA S640000x1)
    (x0 x1 : Vec Ideal S8000x128 .f32) (x2 : Vec Ideal S8000x1 .f32) (j : S8000x128.Idx) (k : S640000x128.Idx)
    (h0 : x0 j = A k) (h1 : x1 j = B k) (h2 : x2 (ix2 (j 0) (0 : Fin 1)) = C (ix2 (k 0) (0 : Fin 1))) :
    k0_pay1 x0 x1 x2 j = KSpec.mul3 A B C k := by
  obtain ⟨p, q, rfl⟩ : ∃ (p : Fin 8000) (q : Fin 128), j = ix2 p q := ⟨j 0, j 1, eq_ix2 j⟩
  have h2' : x2 (ix2 p (0 : Fin 1)) = C (ix2 (k 0) (0 : Fin 1)) := h2
  refine (pay0_apply x0 x1 x2 p q).trans ?_
  show x0 (ix2 p q) * x1 (ix2 p q) * x2 (ix2 p (0 : Fin 1)) = A k * B k * C (ix2 (k 0) (0 : Fin 1))
  rw [h0, h1, h2']

/-- At grid point t each of the four windows sits at block index (t, 0). -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array product. -/
theorem flushed0_eq (c : Dev nD) (t : Fin cfg0.N) :
    (dat0 (F := Ideal) V c).flushed 3 t
      = ((cfg0.win 3).blk t).view.read (Elt Ideal) (KSpec.mul3 (V c main_v42) (V c main_v49) (V c main_v32)) := by
  show (cfg0.win 3).cut (grid0.coords t) ((dat0 V c).after 3 t) = _
  rw [after0_3]
  unfold out0_3
  rw [View.canon_unit_zero zeroOff0]
  simp only [View.ld_unit_zero (S := S8000x128) zeroOff0, View.ld_unit_zero (S := S8000x1) zeroOff0]
  obtain ⟨e0, e1, e2, e3, e4, e5, e6, e7⟩ := blockIdx0 t
  funext j
  refine point0 (V c main_v42) (V c main_v49) (V c main_v32) (iblk0 V c 0 t) (iblk0 V c 1 t) (iblk0 V c 2 t) j
    (((cfg0.win 3).blk t).view.emb j) ?_ ?_ ?_
  · show V c main_v42 (((cfg0.win 0).blk t).view.emb j) = V c main_v42 (((cfg0.win 3).blk t).view.emb j)
    refine congrArg (V c main_v42) ?_
    funext a; apply Fin.ext
    match a with
    | ⟨0, _⟩ => show win0_0.index t (0 : Fin 2) * 8000 + 1 * (j 0).val = win0_3.index t (0 : Fin 2) * 8000 + 1 * (j 0).val; rw [e0, e6]
    | ⟨1, _⟩ => show win0_0.index t (1 : Fin 2) * 128 + 1 * (j 1).val = win0_3.index t (1 : Fin 2) * 128 + 1 * (j 1).val; rw [e1, e7]
  · show V c main_v49 (((cfg0.win 1).blk t).view.emb j) = V c main_v49 (((cfg0.win 3).blk t).view.emb j)
    refine congrArg (V c main_v49) ?_
    funext a; apply Fin.ext
    match a with
    | ⟨0, _⟩ => show win0_1.index t (0 : Fin 2) * 8000 + 1 * (j 0).val = win0_3.index t (0 : Fin 2) * 8000 + 1 * (j 0).val; rw [e2, e6]
    | ⟨1, _⟩ => show win0_1.index t (1 : Fin 2) * 128 + 1 * (j 1).val = win0_3.index t (1 : Fin 2) * 128 + 1 * (j 1).val; rw [e3, e7]
  · show V c main_v32 (((cfg0.win 2).blk t).view.emb (ix2 (j 0) (0 : Fin 1)))
      = V c main_v32 (ix2 ((((cfg0.win 3).blk t).view.emb j) 0) (0 : Fin 1))
    refine congrArg (V c main_v32) ?_
    funext a; apply Fin.ext
    match a with
    | ⟨0, _⟩ => show win0_2.index t (0 : Fin 2) * 8000 + 1 * (j 0).val = win0_3.index t (0 : Fin 2) * 8000 + 1 * (j 0).val; rw [e4, e6]
    | ⟨1, _⟩ => show win0_2.index t (1 : Fin 2) * 1 + 1 * 0 = 0; rw [e5]

/-- An index of the array is in point t's block iff each coordinate is in the block's range on its axis. -/
theorem mem_block0 (t : Fin cfg0.N) (i : S640000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v50).slice (win0_3.rect t)).set ↔ _
  rw [View.set_slice_whole, Rect.mem_set_unit]
  exact Iff.rfl

/-- Every index of the array lies in the block of the point its row selects: row r is in block r / 8000. -/
theorem cover0 (i : S640000x128.Idx) :
    ∃ t : Fin cfg0.N, (cfg0.win 3).flush t = true ∧ i ∈ ((cfg0.win 3).blk t).view.set := by
  have hi0 : (i 0).val < 640000 := (i 0).isLt
  have hi1 : (i 1).val < 128 := (i 1).isLt
  have hN : cfg0.N = 80 := N_0
  let t : Fin cfg0.N := ⟨(i 0).val / 8000, by rw [hN]; omega⟩
  obtain ⟨-, -, -, -, -, -, e6, e7⟩ := blockIdx0 t
  have ht : t.val = (i 0).val / 8000 := rfl
  refine ⟨t, flush0_3 t, ?_⟩
  rw [mem_block0]
  intro a
  match a with
  | ⟨0, _⟩ => show win0_3.index t (0 : Fin 2) * 8000 ≤ (i 0).val ∧ (i 0).val < win0_3.index t (0 : Fin 2) * 8000 + 8000; rw [e6, ht]; omega
  | ⟨1, _⟩ => show win0_3.index t (1 : Fin 2) * 128 ≤ (i 1).val ∧ (i 1).val < win0_3.index t (1 : Fin 2) * 128 + 128; rw [e7]; omega

/-- The array after the region: the pointwise product of the three input arrays as the region finds them. -/
theorem final0 (c : Dev nD) :
    (dat0 (F := Ideal) V c).arrAt 3 cfg0.N = KSpec.mul3 (V c main_v42) (V c main_v49) (V c main_v32) :=
  (dat0 (F := Ideal) V c).arrAt_eq_of_cover 3 (KSpec.mul3 (V c main_v42) (V c main_v49) (V c main_v32))
    (fun t _ => flushed0_eq V c t) (cover0)

end Cert.KernelIdeal.KReg

end
-- ==== Proof.KReg1.lean ====
/-
  Region 1 of the program (the two-factor product a · b over 640000 × 128, in 80 row blocks of 8000 rows):
  the output array after all 80 grid points is the pointwise product of the two input arrays as the region finds them.

  The steps: the body's payload is the pointwise product of its two loaded blocks; at grid point t every window's
  block is rows 8000·t … 8000·t + 7999 (block index (t, 0)), so what point t writes back is block t of the
  whole-array product; every row r lies in the block of point r / 8000; hence the array ends holding the product.
-/
import proofs.«155152_j37271726194960_1_alg».proof.Proof.Gen.KernelIdeal.Frame
import proofs.«155152_j37271726194960_1_alg».proof.Proof.KSpec
import Idealize.ShloMosaic.Lib.Pipeline.Value

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem zeroOff1 : (![0, 0] : Fin 2 → Nat) = fun _ => 0 := funext fun a => by fin_cases a <;> rfl

/-- The body's payload is the pointwise product of its two loaded blocks. -/
theorem pay1_eq (x0 x1 : Vec Ideal S8000x128 .f32) : k1_pay1 x0 x1 = mulf x0 x1 := by
  unfold k1_pay1
  simp only [shapeCast_self]

/-- The product of two blocks at an index of the block, where each block reads its array at one and the same index. -/
theorem point1 (A B : KSpec.FA S640000x128) (x0 x1 : Vec Ideal S8000x128 .f32) (j : S8000x128.Idx) (k : S640000x128.Idx)
    (h0 : x0 j = A k) (h1 : x1 j = B k) : mulf x0 x1 j = KSpec.mul2 A B k := by
  show x0 j * x1 j = A k * B k
  rw [h0, h1]

/-- At grid point t each of the three windows sits at block index (t, 0). -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array product. -/
theorem flushed1_eq (c : Dev nD) (t : Fin cfg1.N) :
    (dat1 (F := Ideal) V c).flushed 2 t
      = ((cfg1.win 2).blk t).view.read (Elt Ideal) (KSpec.mul2 (V c main_v57) (V c main_v50)) := by
  show (cfg1.win 2).cut (grid1.coords t) ((dat1 V c).after 2 t) = _
  rw [after1_2]
  unfold out1_2
  rw [View.canon_unit_zero zeroOff1]
  simp only [View.ld_unit_zero (S := S8000x128) zeroOff1]
  rw [pay1_eq]
  obtain ⟨e0, e1, e2, e3, e4, e5⟩ := blockIdx1 t
  funext j
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; rw [e0, e4]
    | ⟨1, _⟩ => show win1_0.index t (1 : Fin 2) * 128 + 1 * (j 1).val = win1_2.index t (1 : Fin 2) * 128 + 1 * (j 1).val; rw [e1, e5]
  have h1 : ((cfg1.win 1).blk t).view.emb j = ((cfg1.win 2).blk t).view.emb j := by
    funext a; apply Fin.ext
    match a with
    | ⟨0, _⟩ => show win1_1.index t (0 : Fin 2) * 8000 + 1 * (j 0).val = win1_2.index t (0 : Fin 2) * 8000 + 1 * (j 0).val; rw [e2, e4]
    | ⟨1, _⟩ => show win1_1.index t (1 : Fin 2) * 128 + 1 * (j 1).val = win1_2.index t (1 : Fin 2) * 128 + 1 * (j 1).val; rw [e3, e5]
  refine point1 (V c main_v57) (V c main_v50) (iblk1 V c 0 t) (iblk1 V c 1 t) j (((cfg1.win 2).blk t).view.emb j) ?_ ?_
  · show V c main_v57 (((cfg1.win 0).blk t).view.emb j) = V c main_v57 (((cfg1.win 2).blk t).view.emb j)
    rw [h0]
  · show V c main_v50 (((cfg1.win 1).blk t).view.emb j) = V c main_v50 (((cfg1.win 2).blk t).view.emb j)
    rw [h1]

/-- An index of the array is in point t's block iff each coordinate is in the block's range on its axis. -/
theorem mem_block1 (t : Fin cfg1.N) (i : S640000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v58).slice (win1_2.rect t)).set ↔ _
  rw [View.set_slice_whole, Rect.mem_set_unit]
  exact Iff.rfl

/-- Every index of the array lies in the block of the point its row selects: row r is in block r / 8000. -/
theorem cover1 (i : S640000x128.Idx) :
    ∃ t : Fin cfg1.N, (cfg1.win 2).flush t = true ∧ i ∈ ((cfg1.win 2).blk t).view.set := by
  have hi0 : (i 0).val < 640000 := (i 0).isLt
  have hi1 : (i 1).val < 128 := (i 1).isLt
  have hN : cfg1.N = 80 := N_1
  let t : Fin cfg1.N := ⟨(i 0).val / 8000, by rw [hN]; omega⟩
  obtain ⟨-, -, -, -, e4, e5⟩ := blockIdx1 t
  have ht : t.val = (i 0).val / 8000 := rfl
  refine ⟨t, flush1_2 t, ?_⟩
  rw [mem_block1]
  intro a
  match a with
  | ⟨0, _⟩ => show win1_2.index t (0 : Fin 2) * 8000 ≤ (i 0).val ∧ (i 0).val < win1_2.index t (0 : Fin 2) * 8000 + 8000; rw [e4, ht]; omega
  | ⟨1, _⟩ => show win1_2.index t (1 : Fin 2) * 128 ≤ (i 1).val ∧ (i 1).val < win1_2.index t (1 : Fin 2) * 128 + 128; rw [e5]; omega

/-- The array after the region: the pointwise product of the two input arrays as the region finds them. -/
theorem final1 (c : Dev nD) :
    (dat1 (F := Ideal) V c).arrAt 2 cfg1.N = KSpec.mul2 (V c main_v57) (V c main_v50) :=
  (dat1 (F := Ideal) V c).arrAt_eq_of_cover 2 (KSpec.mul2 (V c main_v57) (V c main_v50))
    (fun t _ => flushed1_eq V c t) (cover1)

end Cert.KernelIdeal.KReg

end
-- ==== Proof.KReg2.lean ====
/-
  Region 2 of the program (the closing step of a layer over 50000 × 128, nl and cnt 50000 × 1 columns repeated
  along each row, in 10 row blocks of 5000 rows): the output array after all 10 grid points is, index by index,
  (agg (r, k) + x (r, k) · nl (r, 0)) / cnt (r, 0) of the four input arrays as the region finds them.

  The steps: the body's payload at (p, q) is that expression of its four loaded blocks at (p, q) and (p, 0); at grid
  point t every window's block is rows 5000·t … 5000·t + 4999 (block index (t, 0)), so what point t writes back is
  block t of the whole-array function; every row r lies in the block of point r / 5000; hence the array ends holding it.
-/
import proofs.«155152_j37271726194960_1_alg».proof.Proof.Gen.KernelIdeal.Frame
import proofs.«155152_j37271726194960_1_alg».proof.Proof.KSpec
import proofs.«155152_j37271726194960_1_alg».proof.Proof.LibColumnBroadcast
import Idealize.ShloMosaic.Lib.Pipeline.Value

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem zeroOff2 : (![0, 0] : Fin 2 → Nat) = fun _ => 0 := funext fun a => by fin_cases a <;> rfl

/-- The body's payload at (p, q), from the two full blocks there and the two column blocks at (p, 0). -/
theorem pay2_apply (x0 x1 : Vec Ideal S5000x128 .f32) (x2 x3 : Vec Ideal S5000x1 .f32) (p : Fin 5000) (q : Fin 128) :
    k2_pay1 x0 x1 x2 x3 (ix2 p q)
      = Ideal.div (x0 (ix2 p q) + x1 (ix2 p q) * x2 (ix2 p (0 : Fin 1))) (x3 (ix2 p (0 : Fin 1))) := by
  unfold k2_pay1
  simp only [shapeCast_self]
  exact congrArg₂ (fun u v => Ideal.div (x0 (ix2 p q) + x1 (ix2 p q) * u) v)
    (ColumnBroadcast.broadcastTo_a1_ab_apply x2 broadcasts_S5000x1_S5000x128 p q)
    (ColumnBroadcast.broadcastTo_a1_ab_apply x3 broadcasts_S5000x1_S5000x128 p q)

/-- The payload at an index of the block, where each block reads its array at the matching index, is the
    whole-array function there. -/
theorem point2 (A X : KSpec.FA S50000x128) (NL CNT : KSpec.FA S50000x1)
    (x0 x1 : Vec Ideal S5000x128 .f32) (x2 x3 : Vec Ideal S5000x1 .f32) (j : S5000x128.Idx) (k : S50000x128.Idx)
    (h0 : x0 j = A k) (h1 : x1 j = X k)
    (h2 : x2 (ix2 (j 0) (0 : Fin 1)) = NL (ix2 (k 0) (0 : Fin 1)))
    (h3 : x3 (ix2 (j 0) (0 : Fin 1)) = CNT (ix2 (k 0) (0 : Fin 1))) :
    k2_pay1 x0 x1 x2 x3 j = KSpec.fin A X NL CNT k := by
  obtain ⟨p, q, rfl⟩ : ∃ (p : Fin 5000) (q : Fin 128), j = ix2 p q := ⟨j 0, j 1, eq_ix2 j⟩
  have h2' : x2 (ix2 p (0 : Fin 1)) = NL (ix2 (k 0) (0 : Fin 1)) := h2
  have h3' : x3 (ix2 p (0 : Fin 1)) = CNT (ix2 (k 0) (0 : Fin 1)) := h3
  refine (pay2_apply x0 x1 x2 x3 p q).trans ?_
  show Ideal.div (x0 (ix2 p q) + x1 (ix2 p q) * x2 (ix2 p (0 : Fin 1))) (x3 (ix2 p (0 : Fin 1)))
      = Ideal.div (A k + X k * NL (ix2 (k 0) (0 : Fin 1))) (CNT (ix2 (k 0) (0 : Fin 1)))
  rw [h0, h1, h2', h3']

/-- At grid point t each of the five windows sits at block index (t, 0). -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t writes back is block t of the whole-array function. -/
theorem flushed2_eq (c : Dev nD) (t : Fin cfg2.N) :
    (dat2 (F := Ideal) V c).flushed 4 t
      = ((cfg2.win 4).blk t).view.read (Elt Ideal) (KSpec.fin (V c main_v61) (V c main_arg3) (V c main_v34) (V c main_v35)) := by
  show (cfg2.win 4).cut (grid2.coords t) ((dat2 V c).after 4 t) = _
  rw [after2_4]
  unfold out2_4
  rw [View.canon_unit_zero zeroOff2]
  simp only [View.ld_unit_zero (S := S5000x128) zeroOff2, View.ld_unit_zero (S := S5000x1) zeroOff2]
  obtain ⟨e0, e1, e2, e3, e4, e5, e6, e7, e8, e9⟩ := blockIdx2 t
  funext j
  refine point2 (V c main_v61) (V c main_arg3) (V c main_v34) (V c main_v35)
    (iblk2 V c 0 t) (iblk2 V c 1 t) (iblk2 V c 2 t) (iblk2 V c 3 t) j
    (((cfg2.win 4).blk t).view.emb j) ?_ ?_ ?_ ?_
  · show V c main_v61 (((cfg2.win 0).blk t).view.emb j) = V c main_v61 (((cfg2.win 4).blk t).view.emb j)
    refine congrArg (V c main_v61) ?_
    funext a; apply Fin.ext
    match a with
    | ⟨0, _⟩ => show win2_0.index t (0 : Fin 2) * 5000 + 1 * (j 0).val = win2_4.index t (0 : Fin 2) * 5000 + 1 * (j 0).val; rw [e0, e8]
    | ⟨1, _⟩ => show win2_0.index t (1 : Fin 2) * 128 + 1 * (j 1).val = win2_4.index t (1 : Fin 2) * 128 + 1 * (j 1).val; rw [e1, e9]
  · show V c main_arg3 (((cfg2.win 1).blk t).view.emb j) = V c main_arg3 (((cfg2.win 4).blk t).view.emb j)
    refine congrArg (V c main_arg3) ?_
    funext a; apply Fin.ext
    match a with
    | ⟨0, _⟩ => show win2_1.index t (0 : Fin 2) * 5000 + 1 * (j 0).val = win2_4.index t (0 : Fin 2) * 5000 + 1 * (j 0).val; rw [e2, e8]
    | ⟨1, _⟩ => show win2_1.index t (1 : Fin 2) * 128 + 1 * (j 1).val = win2_4.index t (1 : Fin 2) * 128 + 1 * (j 1).val; rw [e3, e9]
  · show V c main_v34 (((cfg2.win 2).blk t).view.emb (ix2 (j 0) (0 : Fin 1)))
      = V c main_v34 (ix2 ((((cfg2.win 4).blk t).view.emb j) 0) (0 : Fin 1))
    refine congrArg (V c main_v34) ?_
    funext a; apply Fin.ext
    match a with
    | ⟨0, _⟩ => show win2_2.index t (0 : Fin 2) * 5000 + 1 * (j 0).val = win2_4.index t (0 : Fin 2) * 5000 + 1 * (j 0).val; rw [e4, e8]
    | ⟨1, _⟩ => show win2_2.index t (1 : Fin 2) * 1 + 1 * 0 = 0; rw [e5]
  · show V c main_v35 (((cfg2.win 3).blk t).view.emb (ix2 (j 0) (0 : Fin 1)))
      = V c main_v35 (ix2 ((((cfg2.win 4).blk t).view.emb j) 0) (0 : Fin 1))
    refine congrArg (V c main_v35) ?_
    funext a; apply Fin.ext
    match a with
    | ⟨0, _⟩ => show win2_3.index t (0 : Fin 2) * 5000 + 1 * (j 0).val = win2_4.index t (0 : Fin 2) * 5000 + 1 * (j 0).val; rw [e6, e8]
    | ⟨1, _⟩ => show win2_3.index t (1 : Fin 2) * 1 + 1 * 0 = 0; rw [e7]

/-- An index of the array is in point t's block iff each coordinate is in the block's range on its axis. -/
theorem mem_block2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v62).slice (win2_4.rect t)).set ↔ _
  rw [View.set_slice_whole, Rect.mem_set_unit]
  exact Iff.rfl

/-- Every index of the array lies in the block of the point its row selects: row r is in block r / 5000. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, e8, e9⟩ := blockIdx2 t
  have ht : t.val = (i 0).val / 5000 := rfl
  refine ⟨t, flush2_4 t, ?_⟩
  rw [mem_block2]
  intro a
  match a with
  | ⟨0, _⟩ => show win2_4.index t (0 : Fin 2) * 5000 ≤ (i 0).val ∧ (i 0).val < win2_4.index t (0 : Fin 2) * 5000 + 5000; rw [e8, ht]; omega
  | ⟨1, _⟩ => show win2_4.index t (1 : Fin 2) * 128 ≤ (i 1).val ∧ (i 1).val < win2_4.index t (1 : Fin 2) * 128 + 128; rw [e9]; omega

/-- The array after the region: the whole-array function of the four input arrays as the region finds them. -/
theorem final2 (c : Dev nD) :
    (dat2 (F := Ideal) V c).arrAt 4 cfg2.N = KSpec.fin (V c main_v61) (V c main_arg3) (V c main_v34) (V c main_v35) :=
  (dat2 (F := Ideal) V c).arrAt_eq_of_cover 4 (KSpec.fin (V c main_v61) (V c main_arg3) (V c main_v34) (V c main_v35))
    (fun t _ => flushed2_eq V c t) (cover2)

end Cert.KernelIdeal.KReg

end
-- ==== Proof.KReg3.lean ====
/-
  Region 3 of the program (the two-factor product a · b over 640000 × 128, in 80 row blocks of 8000 rows):
  the output array after all 80 grid points is the pointwise product of the two input arrays as the region finds them.

  The steps: the body's payload is the pointwise product of its two loaded blocks; at grid point t every window's
  block is rows 8000·t … 8000·t + 7999 (block index (t, 0)), so what point t writes back is block t of the
  whole-array product; every row r lies in the block of point r / 8000; hence the array ends holding the product.
-/
import proofs.«155152_j37271726194960_1_alg».proof.Proof.Gen.KernelIdeal.Frame
import proofs.«155152_j37271726194960_1_alg».proof.Proof.KSpec
import Idealize.ShloMosaic.Lib.Pipeline.Value

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem zeroOff3 : (![0, 0] : Fin 2 → Nat) = fun _ => 0 := funext fun a => by fin_cases a <;> rfl

/-- The body's payload is the pointwise product of its two loaded blocks. -/
theorem pay3_eq (x0 x1 : Vec Ideal S8000x128 .f32) : k3_pay1 x0 x1 = mulf x0 x1 := by
  unfold k3_pay1
  simp only [shapeCast_self]

/-- The product of two blocks at an index of the block, where each block reads its array at one and the same index. -/
theorem point3 (A B : KSpec.FA S640000x128) (x0 x1 : Vec Ideal S8000x128 .f32) (j : S8000x128.Idx) (k : S640000x128.Idx)
    (h0 : x0 j = A k) (h1 : x1 j = B k) : mulf x0 x1 j = KSpec.mul2 A B k := by
  show x0 j * x1 j = A k * B k
  rw [h0, h1]

/-- At grid point t each of the three windows sits at block index (t, 0). -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array product. -/
theorem flushed3_eq (c : Dev nD) (t : Fin cfg3.N) :
    (dat3 (F := Ideal) V c).flushed 2 t
      = ((cfg3.win 2).blk t).view.read (Elt Ideal) (KSpec.mul2 (V c main_v69) (V c main_v50)) := by
  show (cfg3.win 2).cut (grid3.coords t) ((dat3 V c).after 2 t) = _
  rw [after3_2]
  unfold out3_2
  rw [View.canon_unit_zero zeroOff3]
  simp only [View.ld_unit_zero (S := S8000x128) zeroOff3]
  rw [pay3_eq]
  obtain ⟨e0, e1, e2, e3, e4, e5⟩ := blockIdx3 t
  funext j
  have h0 : ((cfg3.win 0).blk t).view.emb j = ((cfg3.win 2).blk t).view.emb j := by
    funext a; apply Fin.ext
    match a with
    | ⟨0, _⟩ => show win3_0.index t (0 : Fin 2) * 8000 + 1 * (j 0).val = win3_2.index t (0 : Fin 2) * 8000 + 1 * (j 0).val; rw [e0, e4]
    | ⟨1, _⟩ => show win3_0.index t (1 : Fin 2) * 128 + 1 * (j 1).val = win3_2.index t (1 : Fin 2) * 128 + 1 * (j 1).val; rw [e1, e5]
  have h1 : ((cfg3.win 1).blk t).view.emb j = ((cfg3.win 2).blk t).view.emb j := by
    funext a; apply Fin.ext
    match a with
    | ⟨0, _⟩ => show win3_1.index t (0 : Fin 2) * 8000 + 1 * (j 0).val = win3_2.index t (0 : Fin 2) * 8000 + 1 * (j 0).val; rw [e2, e4]
    | ⟨1, _⟩ => show win3_1.index t (1 : Fin 2) * 128 + 1 * (j 1).val = win3_2.index t (1 : Fin 2) * 128 + 1 * (j 1).val; rw [e3, e5]
  refine point3 (V c main_v69) (V c main_v50) (iblk3 V c 0 t) (iblk3 V c 1 t) j (((cfg3.win 2).blk t).view.emb j) ?_ ?_
  · show V c main_v69 (((cfg3.win 0).blk t).view.emb j) = V c main_v69 (((cfg3.win 2).blk t).view.emb j)
    rw [h0]
  · show V c main_v50 (((cfg3.win 1).blk t).view.emb j) = V c main_v50 (((cfg3.win 2).blk t).view.emb j)
    rw [h1]

/-- An index of the array is in point t's block iff each coordinate is in the block's range on its axis. -/
theorem mem_block3 (t : Fin cfg3.N) (i : S640000x128.Idx) :
    i ∈ ((cfg3.win 2).blk t).view.set ↔ ∀ a : Fin 2, win3_2.index t a * S8000x128.size a ≤ (i a).val ∧ (i a).val < win3_2.index t a * S8000x128.size a + S8000x128.size a := by
  show i ∈ ((View.whole main_v70).slice (win3_2.rect t)).set ↔ _
  rw [View.set_slice_whole, Rect.mem_set_unit]
  exact Iff.rfl

/-- Every index of the array lies in the block of the point its row selects: row r is in block r / 8000. -/
theorem cover3 (i : S640000x128.Idx) :
    ∃ t : Fin cfg3.N, (cfg3.win 2).flush t = true ∧ i ∈ ((cfg3.win 2).blk t).view.set := by
  have hi0 : (i 0).val < 640000 := (i 0).isLt
  have hi1 : (i 1).val < 128 := (i 1).isLt
  have hN : cfg3.N = 80 := N_3
  let t : Fin cfg3.N := ⟨(i 0).val / 8000, by rw [hN]; omega⟩
  obtain ⟨-, -, -, -, e4, e5⟩ := blockIdx3 t
  have ht : t.val = (i 0).val / 8000 := rfl
  refine ⟨t, flush3_2 t, ?_⟩
  rw [mem_block3]
  intro a
  match a with
  | ⟨0, _⟩ => show win3_2.index t (0 : Fin 2) * 8000 ≤ (i 0).val ∧ (i 0).val < win3_2.index t (0 : Fin 2) * 8000 + 8000; rw [e4, ht]; omega
  | ⟨1, _⟩ => show win3_2.index t (1 : Fin 2) * 128 ≤ (i 1).val ∧ (i 1).val < win3_2.index t (1 : Fin 2) * 128 + 128; rw [e5]; omega

/-- The array after the region: the pointwise product of the two input arrays as the region finds them. -/
theorem final3 (c : Dev nD) :
    (dat3 (F := Ideal) V c).arrAt 2 cfg3.N = KSpec.mul2 (V c main_v69) (V c main_v50) :=
  (dat3 (F := Ideal) V c).arrAt_eq_of_cover 2 (KSpec.mul2 (V c main_v69) (V c main_v50))
    (fun t _ => flushed3_eq V c t) (cover3)

end Cert.KernelIdeal.KReg

end
-- ==== Proof.KReg4.lean ====
/-
  Region 4 of the program (the closing step of a layer over 50000 × 128, nl and cnt 50000 × 1 columns repeated
  along each row, in 10 row blocks of 5000 rows): the output array after all 10 grid points is, index by index,
  max 0 ((agg (r, k) + x (r, k) · nl (r, 0)) / cnt (r, 0)) of the four input arrays as the region finds them.

  The steps: the body's payload at (p, q) is that expression of its four loaded blocks at (p, q) and (p, 0); at grid
  point t every window's block is rows 5000·t … 5000·t + 4999 (block index (t, 0)), so what point t writes back is
  block t of the whole-array function; every row r lies in the block of point r / 5000; hence the array ends holding it.
-/
import proofs.«155152_j37271726194960_1_alg».proof.Proof.Gen.KernelIdeal.Frame
import proofs.«155152_j37271726194960_1_alg».proof.Proof.KSpec
import proofs.«155152_j37271726194960_1_alg».proof.Proof.LibColumnBroadcast
import Idealize.ShloMosaic.Lib.Pipeline.Value

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem zeroOff4 : (![0, 0] : Fin 2 → Nat) = fun _ => 0 := funext fun a => by fin_cases a <;> rfl

/-- The body's payload at (p, q), from the two full blocks there and the two column blocks at (p, 0). -/
theorem pay4_apply (x0 x1 : Vec Ideal S5000x128 .f32) (x2 x3 : Vec Ideal S5000x1 .f32) (p : Fin 5000) (q : Fin 128) :
    k4_pay1 x0 x1 x2 x3 (ix2 p q)
      = max (Ideal.div (x0 (ix2 p q) + x1 (ix2 p q) * x2 (ix2 p (0 : Fin 1))) (x3 (ix2 p (0 : Fin 1)))) (Ideal.ofBits .f32 0x00000000#32) := by
  unfold k4_pay1
  simp only [shapeCast_self]
  exact congrArg₂ (fun u v => max (Ideal.div (x0 (ix2 p q) + x1 (ix2 p q) * u) v) (Ideal.ofBits .f32 0x00000000#32))
    (ColumnBroadcast.broadcastTo_a1_ab_apply x2 broadcasts_S5000x1_S5000x128 p q)
    (ColumnBroadcast.broadcastTo_a1_ab_apply x3 broadcasts_S5000x1_S5000x128 p q)

/-- The payload at an index of the block, where each block reads its array at the matching index, is the
    whole-array function there. -/
theorem point4 (A X : KSpec.FA S50000x128) (NL CNT : KSpec.FA S50000x1)
    (x0 x1 : Vec Ideal S5000x128 .f32) (x2 x3 : Vec Ideal S5000x1 .f32) (j : S5000x128.Idx) (k : S50000x128.Idx)
    (h0 : x0 j = A k) (h1 : x1 j = X k)
    (h2 : x2 (ix2 (j 0) (0 : Fin 1)) = NL (ix2 (k 0) (0 : Fin 1)))
    (h3 : x3 (ix2 (j 0) (0 : Fin 1)) = CNT (ix2 (k 0) (0 : Fin 1))) :
    k4_pay1 x0 x1 x2 x3 j = KSpec.finRelu A X NL CNT k := by
  obtain ⟨p, q, rfl⟩ : ∃ (p : Fin 5000) (q : Fin 128), j = ix2 p q := ⟨j 0, j 1, eq_ix2 j⟩
  have h2' : x2 (ix2 p (0 : Fin 1)) = NL (ix2 (k 0) (0 : Fin 1)) := h2
  have h3' : x3 (ix2 p (0 : Fin 1)) = CNT (ix2 (k 0) (0 : Fin 1)) := h3
  refine (pay4_apply x0 x1 x2 x3 p q).trans ?_
  show max (Ideal.div (x0 (ix2 p q) + x1 (ix2 p q) * x2 (ix2 p (0 : Fin 1))) (x3 (ix2 p (0 : Fin 1)))) (Ideal.ofBits .f32 0x00000000#32)
      = max (Ideal.div (A k + X k * NL (ix2 (k 0) (0 : Fin 1))) (CNT (ix2 (k 0) (0 : Fin 1)))) (Ideal.ofBits .f32 0x00000000#32)
  rw [h0, h1, h2', h3']

/-- At grid point t each of the five windows sits at block index (t, 0). -/
theorem blockIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What point t writes back is block t of the whole-array function. -/
theorem flushed4_eq (c : Dev nD) (t : Fin cfg4.N) :
    (dat4 (F := Ideal) V c).flushed 4 t
      = ((cfg4.win 4).blk t).view.read (Elt Ideal) (KSpec.finRelu (V c main_v73) (V c main_v62) (V c main_v34) (V c main_v35)) := by
  show (cfg4.win 4).cut (grid4.coords t) ((dat4 V c).after 4 t) = _
  rw [after4_4]
  unfold out4_4
  rw [View.canon_unit_zero zeroOff4]
  simp only [View.ld_unit_zero (S := S5000x128) zeroOff4, View.ld_unit_zero (S := S5000x1) zeroOff4]
  obtain ⟨e0, e1, e2, e3, e4, e5, e6, e7, e8, e9⟩ := blockIdx4 t
  funext j
  refine point4 (V c main_v73) (V c main_v62) (V c main_v34) (V c main_v35)
    (iblk4 V c 0 t) (iblk4 V c 1 t) (iblk4 V c 2 t) (iblk4 V c 3 t) j
    (((cfg4.win 4).blk t).view.emb j) ?_ ?_ ?_ ?_
  · show V c main_v73 (((cfg4.win 0).blk t).view.emb j) = V c main_v73 (((cfg4.win 4).blk t).view.emb j)
    refine congrArg (V c main_v73) ?_
    funext a; apply Fin.ext
    match a with
    | ⟨0, _⟩ => show win4_0.index t (0 : Fin 2) * 5000 + 1 * (j 0).val = win4_4.index t (0 : Fin 2) * 5000 + 1 * (j 0).val; rw [e0, e8]
    | ⟨1, _⟩ => show win4_0.index t (1 : Fin 2) * 128 + 1 * (j 1).val = win4_4.index t (1 : Fin 2) * 128 + 1 * (j 1).val; rw [e1, e9]
  · show V c main_v62 (((cfg4.win 1).blk t).view.emb j) = V c main_v62 (((cfg4.win 4).blk t).view.emb j)
    refine congrArg (V c main_v62) ?_
    funext a; apply Fin.ext
    match a with
    | ⟨0, _⟩ => show win4_1.index t (0 : Fin 2) * 5000 + 1 * (j 0).val = win4_4.index t (0 : Fin 2) * 5000 + 1 * (j 0).val; rw [e2, e8]
    | ⟨1, _⟩ => show win4_1.index t (1 : Fin 2) * 128 + 1 * (j 1).val = win4_4.index t (1 : Fin 2) * 128 + 1 * (j 1).val; rw [e3, e9]
  · show V c main_v34 (((cfg4.win 2).blk t).view.emb (ix2 (j 0) (0 : Fin 1)))
      = V c main_v34 (ix2 ((((cfg4.win 4).blk t).view.emb j) 0) (0 : Fin 1))
    refine congrArg (V c main_v34) ?_
    funext a; apply Fin.ext
    match a with
    | ⟨0, _⟩ => show win4_2.index t (0 : Fin 2) * 5000 + 1 * (j 0).val = win4_4.index t (0 : Fin 2) * 5000 + 1 * (j 0).val; rw [e4, e8]
    | ⟨1, _⟩ => show win4_2.index t (1 : Fin 2) * 1 + 1 * 0 = 0; rw [e5]
  · show V c main_v35 (((cfg4.win 3).blk t).view.emb (ix2 (j 0) (0 : Fin 1)))
      = V c main_v35 (ix2 ((((cfg4.win 4).blk t).view.emb j) 0) (0 : Fin 1))
    refine congrArg (V c main_v35) ?_
    funext a; apply Fin.ext
    match a with
    | ⟨0, _⟩ => show win4_3.index t (0 : Fin 2) * 5000 + 1 * (j 0).val = win4_4.index t (0 : Fin 2) * 5000 + 1 * (j 0).val; rw [e6, e8]
    | ⟨1, _⟩ => show win4_3.index t (1 : Fin 2) * 1 + 1 * 0 = 0; rw [e7]

/-- An index of the array is in point t's block iff each coordinate is in the block's range on its axis. -/
theorem mem_block4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v74).slice (win4_4.rect t)).set ↔ _
  rw [View.set_slice_whole, Rect.mem_set_unit]
  exact Iff.rfl

/-- Every index of the array lies in the block of the point its row selects: row r is in block r / 5000. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, -, -, e8, e9⟩ := blockIdx4 t
  have ht : t.val = (i 0).val / 5000 := rfl
  refine ⟨t, flush4_4 t, ?_⟩
  rw [mem_block4]
  intro a
  match a with
  | ⟨0, _⟩ => show win4_4.index t (0 : Fin 2) * 5000 ≤ (i 0).val ∧ (i 0).val < win4_4.index t (0 : Fin 2) * 5000 + 5000; rw [e8, ht]; omega
  | ⟨1, _⟩ => show win4_4.index t (1 : Fin 2) * 128 ≤ (i 1).val ∧ (i 1).val < win4_4.index t (1 : Fin 2) * 128 + 128; rw [e9]; omega

/-- The array after the region: the whole-array function of the four input arrays as the region finds them. -/
theorem final4 (c : Dev nD) :
    (dat4 (F := Ideal) V c).arrAt 4 cfg4.N = KSpec.finRelu (V c main_v73) (V c main_v62) (V c main_v34) (V c main_v35) :=
  (dat4 (F := Ideal) V c).arrAt_eq_of_cover 4 (KSpec.finRelu (V c main_v73) (V c main_v62) (V c main_v34) (V c main_v35))
    (fun t _ => flushed4_eq V c t) (cover4)

end Cert.KernelIdeal.KReg

end
-- ==== Proof.KReg5.lean ====
/-
  Region 5 of the program (the two-factor product a · b over 640000 × 128, in 80 row blocks of 8000 rows):
  the output array after all 80 grid points is the pointwise product of the two input arrays as the region finds them.

  The steps: the body's payload is the pointwise product of its two loaded blocks; at grid point t every window's
  block is rows 8000·t … 8000·t + 7999 (block index (t, 0)), so what point t writes back is block t of the
  whole-array product; every row r lies in the block of point r / 8000; hence the array ends holding the product.
-/
import proofs.«155152_j37271726194960_1_alg».proof.Proof.Gen.KernelIdeal.Frame
import proofs.«155152_j37271726194960_1_alg».proof.Proof.KSpec
import Idealize.ShloMosaic.Lib.Pipeline.Value

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem zeroOff5 : (![0, 0] : Fin 2 → Nat) = fun _ => 0 := funext fun a => by fin_cases a <;> rfl

/-- The body's payload is the pointwise product of its two loaded blocks. -/
theorem pay5_eq (x0 x1 : Vec Ideal S8000x128 .f32) : k5_pay1 x0 x1 = mulf x0 x1 := by
  unfold k5_pay1
  simp only [shapeCast_self]

/-- The product of two blocks at an index of the block, where each block reads its array at one and the same index. -/
theorem point5 (A B : KSpec.FA S640000x128) (x0 x1 : Vec Ideal S8000x128 .f32) (j : S8000x128.Idx) (k : S640000x128.Idx)
    (h0 : x0 j = A k) (h1 : x1 j = B k) : mulf x0 x1 j = KSpec.mul2 A B k := by
  show x0 j * x1 j = A k * B k
  rw [h0, h1]

/-- At grid point t each of the three windows sits at block index (t, 0). -/
theorem blockIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array product. -/
theorem flushed5_eq (c : Dev nD) (t : Fin cfg5.N) :
    (dat5 (F := Ideal) V c).flushed 2 t
      = ((cfg5.win 2).blk t).view.read (Elt Ideal) (KSpec.mul2 (V c main_v81) (V c main_v50)) := by
  show (cfg5.win 2).cut (grid5.coords t) ((dat5 V c).after 2 t) = _
  rw [after5_2]
  unfold out5_2
  rw [View.canon_unit_zero zeroOff5]
  simp only [View.ld_unit_zero (S := S8000x128) zeroOff5]
  rw [pay5_eq]
  obtain ⟨e0, e1, e2, e3, e4, e5⟩ := blockIdx5 t
  funext j
  have h0 : ((cfg5.win 0).blk t).view.emb j = ((cfg5.win 2).blk t).view.emb j := by
    funext a; apply Fin.ext
    match a with
    | ⟨0, _⟩ => show win5_0.index t (0 : Fin 2) * 8000 + 1 * (j 0).val = win5_2.index t (0 : Fin 2) * 8000 + 1 * (j 0).val; rw [e0, e4]
    | ⟨1, _⟩ => show win5_0.index t (1 : Fin 2) * 128 + 1 * (j 1).val = win5_2.index t (1 : Fin 2) * 128 + 1 * (j 1).val; rw [e1, e5]
  have h1 : ((cfg5.win 1).blk t).view.emb j = ((cfg5.win 2).blk t).view.emb j := by
    funext a; apply Fin.ext
    match a with
    | ⟨0, _⟩ => show win5_1.index t (0 : Fin 2) * 8000 + 1 * (j 0).val = win5_2.index t (0 : Fin 2) * 8000 + 1 * (j 0).val; rw [e2, e4]
    | ⟨1, _⟩ => show win5_1.index t (1 : Fin 2) * 128 + 1 * (j 1).val = win5_2.index t (1 : Fin 2) * 128 + 1 * (j 1).val; rw [e3, e5]
  refine point5 (V c main_v81) (V c main_v50) (iblk5 V c 0 t) (iblk5 V c 1 t) j (((cfg5.win 2).blk t).view.emb j) ?_ ?_
  · show V c main_v81 (((cfg5.win 0).blk t).view.emb j) = V c main_v81 (((cfg5.win 2).blk t).view.emb j)
    rw [h0]
  · show V c main_v50 (((cfg5.win 1).blk t).view.emb j) = V c main_v50 (((cfg5.win 2).blk t).view.emb j)
    rw [h1]

/-- An index of the array is in point t's block iff each coordinate is in the block's range on its axis. -/
theorem mem_block5 (t : Fin cfg5.N) (i : S640000x128.Idx) :
    i ∈ ((cfg5.win 2).blk t).view.set ↔ ∀ a : Fin 2, win5_2.index t a * S8000x128.size a ≤ (i a).val ∧ (i a).val < win5_2.index t a * S8000x128.size a + S8000x128.size a := by
  show i ∈ ((View.whole main_v82).slice (win5_2.rect t)).set ↔ _
  rw [View.set_slice_whole, Rect.mem_set_unit]
  exact Iff.rfl

/-- Every index of the array lies in the block of the point its row selects: row r is in block r / 8000. -/
theorem cover5 (i : S640000x128.Idx) :
    ∃ t : Fin cfg5.N, (cfg5.win 2).flush t = true ∧ i ∈ ((cfg5.win 2).blk t).view.set := by
  have hi0 : (i 0).val < 640000 := (i 0).isLt
  have hi1 : (i 1).val < 128 := (i 1).isLt
  have hN : cfg5.N = 80 := N_5
  let t : Fin cfg5.N := ⟨(i 0).val / 8000, by rw [hN]; omega⟩
  obtain ⟨-, -, -, -, e4, e5⟩ := blockIdx5 t
  have ht : t.val = (i 0).val / 8000 := rfl
  refine ⟨t, flush5_2 t, ?_⟩
  rw [mem_block5]
  intro a
  match a with
  | ⟨0, _⟩ => show win5_2.index t (0 : Fin 2) * 8000 ≤ (i 0).val ∧ (i 0).val < win5_2.index t (0 : Fin 2) * 8000 + 8000; rw [e4, ht]; omega
  | ⟨1, _⟩ => show win5_2.index t (1 : Fin 2) * 128 ≤ (i 1).val ∧ (i 1).val < win5_2.index t (1 : Fin 2) * 128 + 128; rw [e5]; omega

/-- The array after the region: the pointwise product of the two input arrays as the region finds them. -/
theorem final5 (c : Dev nD) :
    (dat5 (F := Ideal) V c).arrAt 2 cfg5.N = KSpec.mul2 (V c main_v81) (V c main_v50) :=
  (dat5 (F := Ideal) V c).arrAt_eq_of_cover 2 (KSpec.mul2 (V c main_v81) (V c main_v50))
    (fun t _ => flushed5_eq V c t) (cover5)

end Cert.KernelIdeal.KReg

end
-- ==== Proof.KReg6.lean ====
/-
  Region 6 of the program (the closing step of a layer over 50000 × 128, nl and cnt 50000 × 1 columns repeated
  along each row, in 10 row blocks of 5000 rows): the output array after all 10 grid points is, index by index,
  (agg (r, k) + x (r, k) · nl (r, 0)) / cnt (r, 0) of the four input arrays as the region finds them.

  The steps: the body's payload at (p, q) is that expression of its four loaded blocks at (p, q) and (p, 0); at grid
  point t every window's block is rows 5000·t … 5000·t + 4999 (block index (t, 0)), so what point t writes back is
  block t of the whole-array function; every row r lies in the block of point r / 5000; hence the array ends holding it.
-/
import proofs.«155152_j37271726194960_1_alg».proof.Proof.Gen.KernelIdeal.Frame
import proofs.«155152_j37271726194960_1_alg».proof.Proof.KSpec
import proofs.«155152_j37271726194960_1_alg».proof.Proof.LibColumnBroadcast
import Idealize.ShloMosaic.Lib.Pipeline.Value

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem zeroOff6 : (![0, 0] : Fin 2 → Nat) = fun _ => 0 := funext fun a => by fin_cases a <;> rfl

/-- The body's payload at (p, q), from the two full blocks there and the two column blocks at (p, 0). -/
theorem pay6_apply (x0 x1 : Vec Ideal S5000x128 .f32) (x2 x3 : Vec Ideal S5000x1 .f32) (p : Fin 5000) (q : Fin 128) :
    k6_pay1 x0 x1 x2 x3 (ix2 p q)
      = Ideal.div (x0 (ix2 p q) + x1 (ix2 p q) * x2 (ix2 p (0 : Fin 1))) (x3 (ix2 p (0 : Fin 1))) := by
  unfold k6_pay1
  simp only [shapeCast_self]
  exact congrArg₂ (fun u v => Ideal.div (x0 (ix2 p q) + x1 (ix2 p q) * u) v)
    (ColumnBroadcast.broadcastTo_a1_ab_apply x2 broadcasts_S5000x1_S5000x128 p q)
    (ColumnBroadcast.broadcastTo_a1_ab_apply x3 broadcasts_S5000x1_S5000x128 p q)

/-- The payload at an index of the block, where each block reads its array at the matching index, is the
    whole-array function there. -/
theorem point6 (A X : KSpec.FA S50000x128) (NL CNT : KSpec.FA S50000x1)
    (x0 x1 : Vec Ideal S5000x128 .f32) (x2 x3 : Vec Ideal S5000x1 .f32) (j : S5000x128.Idx) (k : S50000x128.Idx)
    (h0 : x0 j = A k) (h1 : x1 j = X k)
    (h2 : x2 (ix2 (j 0) (0 : Fin 1)) = NL (ix2 (k 0) (0 : Fin 1)))
    (h3 : x3 (ix2 (j 0) (0 : Fin 1)) = CNT (ix2 (k 0) (0 : Fin 1))) :
    k6_pay1 x0 x1 x2 x3 j = KSpec.fin A X NL CNT k := by
  obtain ⟨p, q, rfl⟩ : ∃ (p : Fin 5000) (q : Fin 128), j = ix2 p q := ⟨j 0, j 1, eq_ix2 j⟩
  have h2' : x2 (ix2 p (0 : Fin 1)) = NL (ix2 (k 0) (0 : Fin 1)) := h2
  have h3' : x3 (ix2 p (0 : Fin 1)) = CNT (ix2 (k 0) (0 : Fin 1)) := h3
  refine (pay6_apply x0 x1 x2 x3 p q).trans ?_
  show Ideal.div (x0 (ix2 p q) + x1 (ix2 p q) * x2 (ix2 p (0 : Fin 1))) (x3 (ix2 p (0 : Fin 1)))
      = Ideal.div (A k + X k * NL (ix2 (k 0) (0 : Fin 1))) (CNT (ix2 (k 0) (0 : Fin 1)))
  rw [h0, h1, h2', h3']

/-- At grid point t each of the five windows sits at block index (t, 0). -/
theorem blockIdx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- What point t writes back is block t of the whole-array function. -/
theorem flushed6_eq (c : Dev nD) (t : Fin cfg6.N) :
    (dat6 (F := Ideal) V c).flushed 4 t
      = ((cfg6.win 4).blk t).view.read (Elt Ideal) (KSpec.fin (V c main_v85) (V c main_v74) (V c main_v34) (V c main_v35)) := by
  show (cfg6.win 4).cut (grid6.coords t) ((dat6 V c).after 4 t) = _
  rw [after6_4]
  unfold out6_4
  rw [View.canon_unit_zero zeroOff6]
  simp only [View.ld_unit_zero (S := S5000x128) zeroOff6, View.ld_unit_zero (S := S5000x1) zeroOff6]
  obtain ⟨e0, e1, e2, e3, e4, e5, e6, e7, e8, e9⟩ := blockIdx6 t
  funext j
  refine point6 (V c main_v85) (V c main_v74) (V c main_v34) (V c main_v35)
    (iblk6 V c 0 t) (iblk6 V c 1 t) (iblk6 V c 2 t) (iblk6 V c 3 t) j
    (((cfg6.win 4).blk t).view.emb j) ?_ ?_ ?_ ?_
  · show V c main_v85 (((cfg6.win 0).blk t).view.emb j) = V c main_v85 (((cfg6.win 4).blk t).view.emb j)
    refine congrArg (V c main_v85) ?_
    funext a; apply Fin.ext
    match a with
    | ⟨0, _⟩ => show win6_0.index t (0 : Fin 2) * 5000 + 1 * (j 0).val = win6_4.index t (0 : Fin 2) * 5000 + 1 * (j 0).val; rw [e0, e8]
    | ⟨1, _⟩ => show win6_0.index t (1 : Fin 2) * 128 + 1 * (j 1).val = win6_4.index t (1 : Fin 2) * 128 + 1 * (j 1).val; rw [e1, e9]
  · show V c main_v74 (((cfg6.win 1).blk t).view.emb j) = V c main_v74 (((cfg6.win 4).blk t).view.emb j)
    refine congrArg (V c main_v74) ?_
    funext a; apply Fin.ext
    match a with
    | ⟨0, _⟩ => show win6_1.index t (0 : Fin 2) * 5000 + 1 * (j 0).val = win6_4.index t (0 : Fin 2) * 5000 + 1 * (j 0).val; rw [e2, e8]
    | ⟨1, _⟩ => show win6_1.index t (1 : Fin 2) * 128 + 1 * (j 1).val = win6_4.index t (1 : Fin 2) * 128 + 1 * (j 1).val; rw [e3, e9]
  · show V c main_v34 (((cfg6.win 2).blk t).view.emb (ix2 (j 0) (0 : Fin 1)))
      = V c main_v34 (ix2 ((((cfg6.win 4).blk t).view.emb j) 0) (0 : Fin 1))
    refine congrArg (V c main_v34) ?_
    funext a; apply Fin.ext
    match a with
    | ⟨0, _⟩ => show win6_2.index t (0 : Fin 2) * 5000 + 1 * (j 0).val = win6_4.index t (0 : Fin 2) * 5000 + 1 * (j 0).val; rw [e4, e8]
    | ⟨1, _⟩ => show win6_2.index t (1 : Fin 2) * 1 + 1 * 0 = 0; rw [e5]
  · show V c main_v35 (((cfg6.win 3).blk t).view.emb (ix2 (j 0) (0 : Fin 1)))
      = V c main_v35 (ix2 ((((cfg6.win 4).blk t).view.emb j) 0) (0 : Fin 1))
    refine congrArg (V c main_v35) ?_
    funext a; apply Fin.ext
    match a with
    | ⟨0, _⟩ => show win6_3.index t (0 : Fin 2) * 5000 + 1 * (j 0).val = win6_4.index t (0 : Fin 2) * 5000 + 1 * (j 0).val; rw [e6, e8]
    | ⟨1, _⟩ => show win6_3.index t (1 : Fin 2) * 1 + 1 * 0 = 0; rw [e7]

/-- An index of the array is in point t's block iff each coordinate is in the block's range on its axis. -/
theorem mem_block6 (t : Fin cfg6.N) (i : S50000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v86).slice (win6_4.rect t)).set ↔ _
  rw [View.set_slice_whole, Rect.mem_set_unit]
  exact Iff.rfl

/-- Every index of the array lies in the block of the point its row selects: row r is in block r / 5000. -/
theorem cover6 (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨-, -, -, -, -, -, -, -, e8, e9⟩ := blockIdx6 t
  have ht : t.val = (i 0).val / 5000 := rfl
  refine ⟨t, flush6_4 t, ?_⟩
  rw [mem_block6]
  intro a
  match a with
  | ⟨0, _⟩ => show win6_4.index t (0 : Fin 2) * 5000 ≤ (i 0).val ∧ (i 0).val < win6_4.index t (0 : Fin 2) * 5000 + 5000; rw [e8, ht]; omega
  | ⟨1, _⟩ => show win6_4.index t (1 : Fin 2) * 128 ≤ (i 1).val ∧ (i 1).val < win6_4.index t (1 : Fin 2) * 128 + 128; rw [e9]; omega

/-- The array after the region: the whole-array function of the four input arrays as the region finds them. -/
theorem final6 (c : Dev nD) :
    (dat6 (F := Ideal) V c).arrAt 4 cfg6.N = KSpec.fin (V c main_v85) (V c main_v74) (V c main_v34) (V c main_v35) :=
  (dat6 (F := Ideal) V c).arrAt_eq_of_cover 4 (KSpec.fin (V c main_v85) (V c main_v74) (V c main_v34) (V c main_v35))
    (fun t _ => flushed6_eq V c t) (cover6)

end Cert.KernelIdeal.KReg

end
-- ==== Proof.KChain.lean ====
/-
  The kernel program's result buffer, at the last of its fourteen segment boundaries, is the kernel's function of
  the six argument arrays as launched.

  The program alternates host stretches and launched regions.  Read backwards from the result: the last region
  leaves its output array at (agg + x · nl) / cnt of the arrays it finds; the stretch before it leaves agg at the
  sum of the previous region's products at their target nodes; that region leaves the products x(src) · w; the
  stretch before leaves x(src) at the rows of the previous layer's result; and so on through three layers down to
  the first stretch, which computes the node vectors, the degree columns and the gathered rows from the arguments,
  and the first region, which leaves the edge weight w.  Between a buffer's writer and its readers every stretch
  and every region leaves it as found — a stretch because none of its operations writes it, a region because it is
  either not one of the region's arrays or one of its input arrays.
-/
import proofs.«155152_j37271726194960_1_alg».proof.Proof.Gen.KernelIdeal.Frame
import proofs.«155152_j37271726194960_1_alg».proof.Proof.KSpec
import proofs.«155152_j37271726194960_1_alg».proof.Proof.KReg0
import proofs.«155152_j37271726194960_1_alg».proof.Proof.KReg1
import proofs.«155152_j37271726194960_1_alg».proof.Proof.KReg2
import proofs.«155152_j37271726194960_1_alg».proof.Proof.KReg3
import proofs.«155152_j37271726194960_1_alg».proof.Proof.KReg4
import proofs.«155152_j37271726194960_1_alg».proof.Proof.KReg5
import proofs.«155152_j37271726194960_1_alg».proof.Proof.KReg6
import Idealize.ShloMosaic.Lib.StableHlo.Run

set_option maxRecDepth 16384

noncomputable section

namespace Cert.KernelIdeal.KChain

open Cert.KernelIdeal Cert.KernelIdeal.Gen Cert.KernelIdeal.KSpec Cert.KernelIdeal.KReg
open Idealize.ShloMosaic Idealize.ShloMosaic.TcCoe Idealize.ShloMosaic.Tactic Idealize.ShloMosaic.StableHlo

open Facts₀ Facts

/-! ## Each host stretch read back, over ANY contents `W` of the buffers when the stretch begins

What a stretch leaves in the buffer a later region or stretch reads, as the operations' term of what it found; and the
buffers it does not write, which it leaves as found. -/

section Stretches
variable (W : Valuation τ sig (Elt Ideal))

theorem h0_v1 : StableHlo.after (hostOps0 (F := Ideal)) W (Proc.devRef .tc main_v1) = src (W (Proc.devRef .tc main_arg0)) := by
  after_results_simp; rfl
theorem h0_v3 : StableHlo.after (hostOps0 (F := Ideal)) W (Proc.devRef .tc main_v3) = dst (W (Proc.devRef .tc main_arg0)) := by
  after_results_simp; rfl
theorem h0_v32 : StableHlo.after (hostOps0 (F := Ideal)) W (Proc.devRef .tc main_v32) = normcol (W (Proc.devRef .tc main_arg0)) := by
  after_results_simp; rfl
theorem h0_v34 : StableHlo.after (hostOps0 (F := Ideal)) W (Proc.devRef .tc main_v34) = nlcol (W (Proc.devRef .tc main_arg0)) := by
  after_results_simp; rfl
theorem h0_v35 : StableHlo.after (hostOps0 (F := Ideal)) W (Proc.devRef .tc main_v35) = cntcol (W (Proc.devRef .tc main_arg0)) := by
  after_results_simp; rfl
theorem h0_v42 : StableHlo.after (hostOps0 (F := Ideal)) W (Proc.devRef .tc main_v42) = relg (W (Proc.devRef .tc main_arg1)) (W (Proc.devRef .tc main_arg4)) := by
  after_results_simp; rfl
theorem h0_v49 : StableHlo.after (hostOps0 (F := Ideal)) W (Proc.devRef .tc main_v49) = edgeg (W (Proc.devRef .tc main_arg2)) (W (Proc.devRef .tc main_arg5)) := by
  after_results_simp; rfl
theorem h0_arg3 : StableHlo.after (hostOps0 (F := Ideal)) W (Proc.devRef .tc main_arg3) = W (Proc.devRef .tc main_arg3) := by
  after_results_simp

/-- Each edge's source-node row of the node array `x`, the source nodes given. -/
def rowsAt (s : IA S640000) (x : FA S50000x128) : FA S640000x128 :=
  Host.gather gather_S50000x128_S640000x1_S640000x128_1_0_n_n_0_1_1128 x (col (wrap 50000#32 s))
/-- The messages added up at the given target nodes. -/
def sumAt (d : IA S640000) (msg : FA S640000x128) : FA S50000x128 :=
  Host.scatterAdd scatter_S50000x128_S640000x1_S640000x128_1_0_0_1 zerosM (col d) msg

theorem h1_v57 : StableHlo.after (hostOps1 (F := Ideal)) W (Proc.devRef .tc main_v57) = rowsAt (W (Proc.devRef .tc main_v1)) (W (Proc.devRef .tc main_arg3)) := by
  after_results_simp; rfl
theorem h3_v69 : StableHlo.after (hostOps3 (F := Ideal)) W (Proc.devRef .tc main_v69) = rowsAt (W (Proc.devRef .tc main_v1)) (W (Proc.devRef .tc main_v62)) := by
  after_results_simp; rfl
theorem h5_v81 : StableHlo.after (hostOps5 (F := Ideal)) W (Proc.devRef .tc main_v81) = rowsAt (W (Proc.devRef .tc main_v1)) (W (Proc.devRef .tc main_v74)) := by
  after_results_simp; rfl
theorem h2_v61 : StableHlo.after (hostOps2 (F := Ideal)) W (Proc.devRef .tc main_v61) = sumAt (W (Proc.devRef .tc main_v3)) (W (Proc.devRef .tc main_v58)) := by
  after_results_simp; rfl
theorem h4_v73 : StableHlo.after (hostOps4 (F := Ideal)) W (Proc.devRef .tc main_v73) = sumAt (W (Proc.devRef .tc main_v3)) (W (Proc.devRef .tc main_v70)) := by
  after_results_simp; rfl
theorem h6_v85 : StableHlo.after (hostOps6 (F := Ideal)) W (Proc.devRef .tc main_v85) = sumAt (W (Proc.devRef .tc main_v3)) (W (Proc.devRef .tc main_v82)) := by
  after_results_simp; rfl

theorem keep1 {b : Ref sig .tc} (hb : b ∈ [main_v1, main_v3, main_v34, main_v35, main_v50, main_arg3]) :
    StableHlo.after (hostOps1 (F := Ideal)) W (Proc.devRef .tc b) = W (Proc.devRef .tc b) := by
  simp only [List.mem_cons, List.not_mem_nil, or_false] at hb
  rcases hb with rfl | rfl | rfl | rfl | rfl | rfl <;> after_results_simp
theorem keep2 {b : Ref sig .tc} (hb : b ∈ [main_v1, main_v3, main_v34, main_v35, main_v50, main_arg3]) :
    StableHlo.after (hostOps2 (F := Ideal)) W (Proc.devRef .tc b) = W (Proc.devRef .tc b) := by
  simp only [List.mem_cons, List.not_mem_nil, or_false] at hb
  rcases hb with rfl | rfl | rfl | rfl | rfl | rfl <;> after_results_simp
theorem keep3 {b : Ref sig .tc} (hb : b ∈ [main_v1, main_v3, main_v34, main_v35, main_v50, main_v62]) :
    StableHlo.after (hostOps3 (F := Ideal)) W (Proc.devRef .tc b) = W (Proc.devRef .tc b) := by
  simp only [List.mem_cons, List.not_mem_nil, or_false] at hb
  rcases hb with rfl | rfl | rfl | rfl | rfl | rfl <;> after_results_simp
theorem keep4 {b : Ref sig .tc} (hb : b ∈ [main_v1, main_v3, main_v34, main_v35, main_v50, main_v62]) :
    StableHlo.after (hostOps4 (F := Ideal)) W (Proc.devRef .tc b) = W (Proc.devRef .tc b) := by
  simp only [List.mem_cons, List.not_mem_nil, or_false] at hb
  rcases hb with rfl | rfl | rfl | rfl | rfl | rfl <;> after_results_simp
theorem keep5 {b : Ref sig .tc} (hb : b ∈ [main_v1, main_v3, main_v34, main_v35, main_v50, main_v74]) :
    StableHlo.after (hostOps5 (F := Ideal)) W (Proc.devRef .tc b) = W (Proc.devRef .tc b) := by
  simp only [List.mem_cons, List.not_mem_nil, or_false] at hb
  rcases hb with rfl | rfl | rfl | rfl | rfl | rfl <;> after_results_simp
theorem keep6 {b : Ref sig .tc} (hb : b ∈ [main_v1, main_v3, main_v34, main_v35, main_v50, main_v74]) :
    StableHlo.after (hostOps6 (F := Ideal)) W (Proc.devRef .tc b) = W (Proc.devRef .tc b) := by
  simp only [List.mem_cons, List.not_mem_nil, or_false] at hb
  rcases hb with rfl | rfl | rfl | rfl | rfl | rfl <;> after_results_simp

end Stretches

/-! ## The buffers that stay live across the whole program -/

/-- At some boundary's contents `W`: the source and target node vectors, the self-loop weight column and the count
    column are the functions of the edge list `a0` that the first stretch computed. -/
structure Live (W : Valuation τ sig (Elt Ideal)) (a0 : IA S2x640000) : Prop where
  v1 : W (Proc.devRef .tc main_v1) = src a0
  v3 : W (Proc.devRef .tc main_v3) = dst a0
  v34 : W (Proc.devRef .tc main_v34) = nlcol a0
  v35 : W (Proc.devRef .tc main_v35) = cntcol a0

/-- A stretch (or region) that leaves the four buffers as found keeps them live. -/
theorem Live.step {W W' : Valuation τ sig (Elt Ideal)} {a0 : IA S2x640000} (h : Live W a0)
    (k1 : W' (Proc.devRef .tc main_v1) = W (Proc.devRef .tc main_v1)) (k3 : W' (Proc.devRef .tc main_v3) = W (Proc.devRef .tc main_v3))
    (k34 : W' (Proc.devRef .tc main_v34) = W (Proc.devRef .tc main_v34)) (k35 : W' (Proc.devRef .tc main_v35) = W (Proc.devRef .tc main_v35)) : Live W' a0 :=
  ⟨k1.trans h.v1, k3.trans h.v3, k34.trans h.v34, k35.trans h.v35⟩

/-! ## The boundaries, one after the other -/

section Run
variable (m : (ℓ : Loc nD τ sig) → Buf (Elt Ideal) ℓ) (ρ : Dev nD → PrngReg) (c : Dev nD)

set_option quotPrecheck false
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
/-- The edge weight. -/
local notation "𝕎" => w A0 A1 A2 A4 A5

theorem live1 : Live (W1 m ρ c) A0 := ⟨h0_v1 _, h0_v3 _, h0_v34 _, h0_v35 _⟩
theorem live2 : Live (W2 m ρ c) A0 := (live1 m ρ c).step (W2_of_ne m ρ c main_v1 (by decide)) (W2_of_ne m ρ c main_v3 (by decide)) (W2_of_ne m ρ c main_v34 (by decide)) (W2_of_ne m ρ c main_v35 (by decide))
theorem live3 : Live (W3 m ρ c) A0 := (live2 m ρ c).step (keep1 _ (by decide)) (keep1 _ (by decide)) (keep1 _ (by decide)) (keep1 _ (by decide))
theorem live4 : Live (W4 m ρ c) A0 := (live3 m ρ c).step (W4_of_ne m ρ c main_v1 (by decide)) (W4_of_ne m ρ c main_v3 (by decide)) (W4_of_ne m ρ c main_v34 (by decide)) (W4_of_ne m ρ c main_v35 (by decide))
theorem live5 : Live (W5 m ρ c) A0 := (live4 m ρ c).step (keep2 _ (by decide)) (keep2 _ (by decide)) (keep2 _ (by decide)) (keep2 _ (by decide))
theorem live6 : Live (W6 m ρ c) A0 := (live5 m ρ c).step (W6_of_ne m ρ c main_v1 (by decide)) (W6_of_ne m ρ c main_v3 (by decide)) ((W6_arr m ρ c 2).trans (((dat2 (V5 m ρ) c).arrAt_in 2 rfl _).trans (A_eq2 (V5 m ρ) c 2))) ((W6_arr m ρ c 3).trans (((dat2 (V5 m ρ) c).arrAt_in 3 rfl _).trans (A_eq2 (V5 m ρ) c 3)))
theorem live7 : Live (W7 m ρ c) A0 := (live6 m ρ c).step (keep3 _ (by decide)) (keep3 _ (by decide)) (keep3 _ (by decide)) (keep3 _ (by decide))
theorem live8 : Live (W8 m ρ c) A0 := (live7 m ρ c).step (W8_of_ne m ρ c main_v1 (by decide)) (W8_of_ne m ρ c main_v3 (by decide)) (W8_of_ne m ρ c main_v34 (by decide)) (W8_of_ne m ρ c main_v35 (by decide))
theorem live9 : Live (W9 m ρ c) A0 := (live8 m ρ c).step (keep4 _ (by decide)) (keep4 _ (by decide)) (keep4 _ (by decide)) (keep4 _ (by decide))
theorem live10 : Live (W10 m ρ c) A0 := (live9 m ρ c).step (W10_of_ne m ρ c main_v1 (by decide)) (W10_of_ne m ρ c main_v3 (by decide)) ((W10_arr m ρ c 2).trans (((dat4 (V9 m ρ) c).arrAt_in 2 rfl _).trans (A_eq4 (V9 m ρ) c 2))) ((W10_arr m ρ c 3).trans (((dat4 (V9 m ρ) c).arrAt_in 3 rfl _).trans (A_eq4 (V9 m ρ) c 3)))
theorem live11 : Live (W11 m ρ c) A0 := (live10 m ρ c).step (keep5 _ (by decide)) (keep5 _ (by decide)) (keep5 _ (by decide)) (keep5 _ (by decide))
theorem live12 : Live (W12 m ρ c) A0 := (live11 m ρ c).step (W12_of_ne m ρ c main_v1 (by decide)) (W12_of_ne m ρ c main_v3 (by decide)) (W12_of_ne m ρ c main_v34 (by decide)) (W12_of_ne m ρ c main_v35 (by decide))
theorem live13 : Live (W13 m ρ c) A0 := (live12 m ρ c).step (keep6 _ (by decide)) (keep6 _ (by decide)) (keep6 _ (by decide)) (keep6 _ (by decide))

/-! ### The node array the first layer reads: the argument, still as launched -/
theorem arg3_1 : W1 m ρ c (Proc.devRef .tc main_arg3) = A3 := h0_arg3 _
theorem arg3_2 : W2 m ρ c (Proc.devRef .tc main_arg3) = A3 := (W2_of_ne m ρ c main_arg3 (by decide)).trans (arg3_1 m ρ c)
theorem arg3_3 : W3 m ρ c (Proc.devRef .tc main_arg3) = A3 := (keep1 _ (by decide)).trans (arg3_2 m ρ c)
theorem arg3_4 : W4 m ρ c (Proc.devRef .tc main_arg3) = A3 := (W4_of_ne m ρ c main_arg3 (by decide)).trans (arg3_3 m ρ c)
theorem arg3_5 : W5 m ρ c (Proc.devRef .tc main_arg3) = A3 := (keep2 _ (by decide)).trans (arg3_4 m ρ c)

/-! ### The edge weight: region 0's output, kept to the last multiply -/
theorem w_2 : W2 m ρ c (Proc.devRef .tc main_v50) = 𝕎 := by
  refine (W2_arr m ρ c 3).trans ((final0 (V1 m ρ) c).trans ?_)
  show mul3 (W1 m ρ c (Proc.devRef .tc main_v42)) (W1 m ρ c (Proc.devRef .tc main_v49)) (W1 m ρ c (Proc.devRef .tc main_v32)) = _
  rw [show W1 m ρ c (Proc.devRef .tc main_v42) = relg A1 A4 from h0_v42 _, show W1 m ρ c (Proc.devRef .tc main_v49) = edgeg A2 A5 from h0_v49 _,
    show W1 m ρ c (Proc.devRef .tc main_v32) = normcol A0 from h0_v32 _]
  rfl
theorem w_3 : W3 m ρ c (Proc.devRef .tc main_v50) = 𝕎 := (keep1 _ (by decide)).trans (w_2 m ρ c)
theorem w_4 : W4 m ρ c (Proc.devRef .tc main_v50) = 𝕎 := ((W4_arr m ρ c 1).trans (((dat1 (V3 m ρ) c).arrAt_in 1 rfl _).trans (A_eq1 (V3 m ρ) c 1))).trans (w_3 m ρ c)
theorem w_5 : W5 m ρ c (Proc.devRef .tc main_v50) = 𝕎 := (keep2 _ (by decide)).trans (w_4 m ρ c)
theorem w_6 : W6 m ρ c (Proc.devRef .tc main_v50) = 𝕎 := (W6_of_ne m ρ c main_v50 (by decide)).trans (w_5 m ρ c)
theorem w_7 : W7 m ρ c (Proc.devRef .tc main_v50) = 𝕎 := (keep3 _ (by decide)).trans (w_6 m ρ c)
theorem w_8 : W8 m ρ c (Proc.devRef .tc main_v50) = 𝕎 := ((W8_arr m ρ c 1).trans (((dat3 (V7 m ρ) c).arrAt_in 1 rfl _).trans (A_eq3 (V7 m ρ) c 1))).trans (w_7 m ρ c)
theorem w_9 : W9 m ρ c (Proc.devRef .tc main_v50) = 𝕎 := (keep4 _ (by decide)).trans (w_8 m ρ c)
theorem w_10 : W10 m ρ c (Proc.devRef .tc main_v50) = 𝕎 := (W10_of_ne m ρ c main_v50 (by decide)).trans (w_9 m ρ c)
theorem w_11 : W11 m ρ c (Proc.devRef .tc main_v50) = 𝕎 := (keep5 _ (by decide)).trans (w_10 m ρ c)

/-! ### The first layer -/
theorem x1_6 : W6 m ρ c (Proc.devRef .tc main_v62) = layer A0 𝕎 A3 := by
  refine (W6_arr m ρ c 4).trans ((final2 (V5 m ρ) c).trans ?_)
  show fin (W5 m ρ c (Proc.devRef .tc main_v61)) (W5 m ρ c (Proc.devRef .tc main_arg3)) (W5 m ρ c (Proc.devRef .tc main_v34)) (W5 m ρ c (Proc.devRef .tc main_v35)) = _
  have e58 : W4 m ρ c (Proc.devRef .tc main_v58) = mul2 (xsrc A0 A3) 𝕎 := by
    refine (W4_arr m ρ c 2).trans ((final1 (V3 m ρ) c).trans ?_)
    show mul2 (W3 m ρ c (Proc.devRef .tc main_v57)) (W3 m ρ c (Proc.devRef .tc main_v50)) = _
    rw [show W3 m ρ c (Proc.devRef .tc main_v57) = rowsAt (W2 m ρ c (Proc.devRef .tc main_v1)) (W2 m ρ c (Proc.devRef .tc main_arg3)) from h1_v57 _,
      (live2 m ρ c).v1, arg3_2 m ρ c, w_3 m ρ c]
    rfl
  rw [show W5 m ρ c (Proc.devRef .tc main_v61) = sumAt (W4 m ρ c (Proc.devRef .tc main_v3)) (W4 m ρ c (Proc.devRef .tc main_v58)) from h2_v61 _,
    (live4 m ρ c).v3, e58, arg3_5 m ρ c, (live5 m ρ c).v34, (live5 m ρ c).v35]
  rfl
theorem x1_7 : W7 m ρ c (Proc.devRef .tc main_v62) = layer A0 𝕎 A3 := (keep3 _ (by decide)).trans (x1_6 m ρ c)
theorem x1_8 : W8 m ρ c (Proc.devRef .tc main_v62) = layer A0 𝕎 A3 := (W8_of_ne m ρ c main_v62 (by decide)).trans (x1_7 m ρ c)
theorem x1_9 : W9 m ρ c (Proc.devRef .tc main_v62) = layer A0 𝕎 A3 := (keep4 _ (by decide)).trans (x1_8 m ρ c)

/-! ### The second layer, clipped below at zero -/
theorem x2_10 : W10 m ρ c (Proc.devRef .tc main_v74) = layerRelu A0 𝕎 (layer A0 𝕎 A3) := by
  refine (W10_arr m ρ c 4).trans ((final4 (V9 m ρ) c).trans ?_)
  show finRelu (W9 m ρ c (Proc.devRef .tc main_v73)) (W9 m ρ c (Proc.devRef .tc main_v62)) (W9 m ρ c (Proc.devRef .tc main_v34)) (W9 m ρ c (Proc.devRef .tc main_v35)) = _
  have e70 : W8 m ρ c (Proc.devRef .tc main_v70) = mul2 (xsrc A0 (layer A0 𝕎 A3)) 𝕎 := by
    refine (W8_arr m ρ c 2).trans ((final3 (V7 m ρ) c).trans ?_)
    show mul2 (W7 m ρ c (Proc.devRef .tc main_v69)) (W7 m ρ c (Proc.devRef .tc main_v50)) = _
    rw [show W7 m ρ c (Proc.devRef .tc main_v69) = rowsAt (W6 m ρ c (Proc.devRef .tc main_v1)) (W6 m ρ c (Proc.devRef .tc main_v62)) from h3_v69 _,
      (live6 m ρ c).v1, x1_6 m ρ c, w_7 m ρ c]
    rfl
  rw [show W9 m ρ c (Proc.devRef .tc main_v73) = sumAt (W8 m ρ c (Proc.devRef .tc main_v3)) (W8 m ρ c (Proc.devRef .tc main_v70)) from h4_v73 _,
    (live8 m ρ c).v3, e70, x1_9 m ρ c, (live9 m ρ c).v34, (live9 m ρ c).v35]
  rfl
theorem x2_11 : W11 m ρ c (Proc.devRef .tc main_v74) = layerRelu A0 𝕎 (layer A0 𝕎 A3) := (keep5 _ (by decide)).trans (x2_10 m ρ c)
theorem x2_12 : W12 m ρ c (Proc.devRef .tc main_v74) = layerRelu A0 𝕎 (layer A0 𝕎 A3) := (W12_of_ne m ρ c main_v74 (by decide)).trans (x2_11 m ρ c)
theorem x2_13 : W13 m ρ c (Proc.devRef .tc main_v74) = layerRelu A0 𝕎 (layer A0 𝕎 A3) := (keep6 _ (by decide)).trans (x2_12 m ρ c)

/-! ### The third layer: the result -/
/-- The result buffer at the last boundary is the kernel's function of the six arguments as launched. -/
theorem result_eq : W14 m ρ c (Proc.devRef .tc main_v86) = out A0 A1 A2 A3 A4 A5 := by
  refine (W14_arr m ρ c 4).trans ((final6 (V13 m ρ) c).trans ?_)
  show fin (W13 m ρ c (Proc.devRef .tc main_v85)) (W13 m ρ c (Proc.devRef .tc main_v74)) (W13 m ρ c (Proc.devRef .tc main_v34)) (W13 m ρ c (Proc.devRef .tc main_v35)) = _
  have e82 : W12 m ρ c (Proc.devRef .tc main_v82) = mul2 (xsrc A0 (layerRelu A0 𝕎 (layer A0 𝕎 A3))) 𝕎 := by
    refine (W12_arr m ρ c 2).trans ((final5 (V11 m ρ) c).trans ?_)
    show mul2 (W11 m ρ c (Proc.devRef .tc main_v81)) (W11 m ρ c (Proc.devRef .tc main_v50)) = _
    rw [show W11 m ρ c (Proc.devRef .tc main_v81) = rowsAt (W10 m ρ c (Proc.devRef .tc main_v1)) (W10 m ρ c (Proc.devRef .tc main_v74)) from h5_v81 _,
      (live10 m ρ c).v1, x2_10 m ρ c, w_11 m ρ c]
    rfl
  rw [show W13 m ρ c (Proc.devRef .tc main_v85) = sumAt (W12 m ρ c (Proc.devRef .tc main_v3)) (W12 m ρ c (Proc.devRef .tc main_v82)) from h6_v85 _,
    (live12 m ρ c).v3, e82, x2_13 m ρ c, (live13 m ρ c).v34, (live13 m ρ c).v35]
  rfl

end Run

end Cert.KernelIdeal.KChain

end
-- ==== Proof.RSpec.lean ====
/-
  The reference program's result as ONE function of its six argument arrays, over the extended reals.

  The reference (a three-layer graph convolution with self loops, symmetric degree normalisation and mean
  aggregation) is a straight line of host operations. Here the same operations are composed as functions: every
  definition below is spelt with the very operations the program applies, in the program's operand order, so that the
  program's operation list read back at its result buffer IS `out` of the argument buffers' contents.

  The data: `a0 : 2 × 640000` holds the edges' source row and destination row; `a1`, `a2` index, per edge, a row of the
  relation table `a4 : 500 × 128` and of the edge table `a5 : 640000 × 128`; `a3 : 50000 × 128` is the node features.
  * `srcR`, `dstR` — the 640000 edge endpoints followed by the 50000 self loops `0 … 49999` (an iota);
  * `ea` — the edge attribute: the product of the two gathered table rows on an edge, the constant 1 on a self loop;
  * `countR v` — how many of the 690000 entries of `v` name each node (a scatter-add of ones into zeros);
  * `dinvR` — the source degree to the power −1/2 where the degree is positive, else 0;
  * `normR` — per edge, the product of `dinvR` at its source and at its destination, spread along the 128 features;
  * `conv x` — gather `x` at the sources, multiply by `ea` and by `normR`, scatter-add at the destinations, divide by
    the destination count clamped below by 1;
  * `out` — `conv` of `relu` of `conv` of `conv` of the node features.
  The program recomputes the degree, its inverse root, the normalisation and the count inside each of its three
  convolutions from the same two index arrays: the three copies are the same term, so one definition serves.
-/
import proofs.«155152_j37271726194960_1_alg».proof.ReferenceIdeal
import Idealize.ShloMosaic.PureOps.Ideal

noncomputable section

namespace Cert.ReferenceIdeal.RSpec

open Cert.ReferenceIdeal Idealize.ShloMosaic

variable [Facts]
open Facts₀ Facts

/-- An array of extended reals / of 32-bit integers of a shape. -/
abbrev FA (s : Shape) := FVec Ideal s .f32
abbrev IA (s : Shape) := IVec s 32

/-- The edges' source row (`%17`) and destination row (`%20`): a row of the `2 × 640000` index array, flattened. -/
def src0 (a0 : IA S2x640000) : IA S640000 :=
  shapeCast S640000 (extractStridedSlice S1x640000 ![0, 0] a0 slices_S2x640000_S1x640000_0_0) shapeCasts_S1x640000_S640000
def dst0 (a0 : IA S2x640000) : IA S640000 :=
  shapeCast S640000 (extractStridedSlice S1x640000 ![1, 0] a0 slices_S2x640000_S1x640000_1_0) shapeCasts_S1x640000_S640000

/-- An edge index array followed by the self loops `0 … 49999` (`%18`, `%21`). -/
def withLoops (v : IA S640000) : IA S690000 :=
  concatenate S690000 0 [⟨S640000, v⟩, ⟨S50000, iotaInDim S50000 32 0⟩] concatenates_S640000_S50000_S690000_d0
def srcR (a0 : IA S2x640000) : IA S690000 := withLoops (src0 a0)
def dstR (a0 : IA S2x640000) : IA S690000 := withLoops (dst0 a0)

/-- A negative index wraps once by the table's length `n` (`%4`, `%11`). -/
def wrapE (n : BitVec 32) (v : IA S640000) : IA S640000 :=
  select (cmpi .slt v (broadcastInDim S640000 ![] bcast_S_S640000 (constantI S_ 32 0#32)))
    (addi v (broadcastInDim S640000 ![] bcast_S_S640000 (constantI S_ 32 n))) v
/-- An index array as a column of index vectors of length 1 (`%5`, `%12`). -/
def colE (v : IA S640000) : IA S640000x1 := broadcastInDim S640000x1 ![0] bcast_S640000_S640000x1_0 v

/-- Per edge, its row of the relation table (`%6`) and of the edge table (`%13`). -/
def relg (a1 : IA S640000) (a4 : FA S500x128) : FA S640000x128 :=
  Host.gather gather_S500x128_S640000x1_S640000x128_1_0_n_n_0_1_1128 a4 (colE (wrapE 500#32 a1))
def edgeg (a2 : IA S640000) (a5 : FA S640000x128) : FA S640000x128 :=
  Host.gather gather_S640000x128_S640000x1_S640000x128_1_0_n_n_0_1_1128 a5 (colE (wrapE 640000#32 a2))

/-- The constant 1 over the self loops' rows (`%22`). -/
def onesM : FA S50000x128 := broadcastInDim S50000x128 ![] bcast_S_S50000x128 (constant S_ .f32 0x3F800000#32)
/-- The edge attribute (`%23`): the two gathered rows' product on an edge, 1 on a self loop. -/
def ea (a1 a2 : IA S640000) (a4 : FA S500x128) (a5 : FA S640000x128) : FA S690000x128 :=
  concatenate S690000x128 0 [⟨S640000x128, mulf (relg a1 a4) (edgeg a2 a5)⟩, ⟨S50000x128, onesM⟩]
    concatenates_S640000x128_S50000x128_S690000x128_d0

/-- A negative node index wraps once by 50000 (`%37`, `%44`, `%53`); `bcast690 k` is the constant `k` over the 690000
    entries. -/
def wrapT (v : IA S690000) : IA S690000 := select (cmpi .slt v (bcast690 0#32)) (addi v (bcast690 50000#32)) v
  where bcast690 (k : BitVec 32) : IA S690000 := broadcastInDim S690000 ![] bcast_S_S690000 (constantI S_ 32 k)
/-- An index array as a column of index vectors of length 1 (`%26`, `%38`, `%60`, …). -/
def colT (v : IA S690000) : IA S690000x1 := broadcastInDim S690000x1 ![0] bcast_S690000_S690000x1_0 v

def zerosV : FA S50000 := broadcastInDim S50000 ![] bcast_S_S50000 (constant S_ .f32 0x00000000#32)
def onesV : FA S50000 := broadcastInDim S50000 ![] bcast_S_S50000 (constant S_ .f32 0x3F800000#32)
def onesT : FA S690000 := broadcastInDim S690000 ![] bcast_S_S690000 (constant S_ .f32 0x3F800000#32)
def zerosM : FA S50000x128 := broadcastInDim S50000x128 ![] bcast_S_S50000x128 (constant S_ .f32 0x00000000#32)

/-- How many of the 690000 entries of `v` name each node (`%27`, `%64`): ones scatter-added into zeros. -/
def countR (v : IA S690000) : FA S50000 :=
  Host.scatterAdd scatter_S50000_S690000x1_S690000_n_0_0_1 zerosV (colT v) onesT

/-- The source degree to the power −1/2 where it is positive, else 0 (`%32`: a comparison, a power, and the
    inlined three-operation selection — a conversion that is the identity, a broadcast, a select). -/
def dinvR (a0 : IA S2x640000) : FA S50000 :=
  select (cmpf .ogt (countR (srcR a0)) zerosV)
    (Host.powf (countR (srcR a0)) (broadcastInDim S50000 ![] bcast_S_S50000 (constant S_ .f32 0xBF000000#32)))
    (broadcastInDim S50000 ![] bcast_S_S50000 (id (constant S_ .f32 0x00000000#32)))

/-- A per-node vector read at the (wrapped) node of each of the 690000 entries (`%39`, `%46`). -/
def atNodeR (d : FA S50000) (v : IA S690000) : FA S690000 :=
  Host.gather gather_S50000_S690000x1_S690000_n_0_n_n_0_1_1 d (colT (wrapT v))

/-- Per entry, the inverse root degree at its source times that at its destination, along the features (`%57`). -/
def normR (a0 : IA S2x640000) : FA S690000x128 :=
  broadcastInDim S690000x128 ![0, 1] bcast_S690000x1_S690000x128_0_1
    (broadcastInDim S690000x1 ![0] bcast_S690000_S690000x1_0
      (mulf (atNodeR (dinvR a0) (srcR a0)) (atNodeR (dinvR a0) (dstR a0))))

/-- The node features read at each entry's (wrapped) source (`%55`). -/
def xsrcR (a0 : IA S2x640000) (x : FA S50000x128) : FA S690000x128 :=
  Host.gather gather_S50000x128_S690000x1_S690000x128_1_0_n_n_0_1_1128 x (colT (wrapT (srcR a0)))

/-- The messages scatter-added at their destinations into zeros (`%61`). -/
def aggR (a0 : IA S2x640000) (msg : FA S690000x128) : FA S50000x128 :=
  Host.scatterAdd scatter_S50000x128_S690000x1_S690000x128_1_0_0_1 zerosM (colT (dstR a0)) msg

/-- The destination count clamped below by 1, along the features (`%68`). -/
def cntcolR (a0 : IA S2x640000) : FA S50000x128 :=
  broadcastInDim S50000x128 ![0, 1] bcast_S50000x1_S50000x128_0_1
    (broadcastInDim S50000x1 ![0] bcast_S50000_S50000x1_0 (maximumf (countR (dstR a0)) onesV))

/-- One convolution (`%69`, `%115`, `%162`): the messages `(x at source · edge attribute) · normalisation`, summed at
    the destinations and divided by the clamped count. -/
def conv (a0 : IA S2x640000) (EA : FA S690000x128) (x : FA S50000x128) : FA S50000x128 :=
  Host.divf (aggR a0 (mulf (mulf (xsrcR a0 x) EA) (normR a0))) (cntcolR a0)

/-- The maximum with 0 (`%116`). -/
def relu (x : FA S50000x128) : FA S50000x128 :=
  maximumf x (broadcastInDim S50000x128 ![] bcast_S_S50000x128 (constant S_ .f32 0x00000000#32))

/-- The reference's result: three convolutions over the same graph and edge attribute, a relu after the second. -/
def out (a0 : IA S2x640000) (a1 a2 : IA S640000) (a3 : FA S50000x128) (a4 : FA S500x128) (a5 : FA S640000x128) :
    FA S50000x128 :=
  conv a0 (ea a1 a2 a4 a5) (relu (conv a0 (ea a1 a2 a4 a5) (conv a0 (ea a1 a2 a4 a5) a3)))

end Cert.ReferenceIdeal.RSpec

end
-- ==== Proof.LibConcatCongr.lean ====
/-
  A concatenation of two parts depends on the parts' values only — as a CONGRUENCE rule.

  A two-part concatenation `concatenate t ax [⟨s₁, a⟩, ⟨s₂, b⟩] h` carries a side condition `h` whose statement
  mentions the list of parts (through the parts' shapes), so a simplification's automatic congruence does not descend
  into the list, and rewrite rules never reach the operands `a`, `b` standing inside it. Declared a congruence rule
  where it is needed (`attribute [local congr] Idealize.ShloMosaic.concatenate_pair_congr`), this lemma makes the
  simplification rewrite the two operands like any other argument: reading a list of host operations back as one
  composed term then also rewrites what a concatenation joins, instead of leaving the operands as unread buffer
  contents after a prefix of the operations.
-/
import Idealize.ShloMosaic.Lib.Pipeline.Value

noncomputable section

namespace Idealize.ShloMosaic

/-- A concatenation of two parts depends on the parts' values only: equal first parts and equal second parts give
    equal concatenations, the side condition (which speaks of the parts' shapes alone) being the same. -/
theorem concatenate_pair_congr {α : Type} {t : Shape} {ax : Fin t.rank} {s₁ s₂ : Shape}
    {a a' : s₁.Idx → α} {b b' : s₂.Idx → α} (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

end Idealize.ShloMosaic

end
-- ==== Proof.RefCut.lean ====
/-
  The reference's operation list cut into four consecutive windows.

  What a list of host operations leaves in a buffer is a fold over the list (`StableHlo.after`), and the fold over a
  concatenation is the fold over the second part from what the first part leaves (`after_append`). The reference's 218
  operations are cut here, as literal lists, into a prelude (the index arrays with their self loops, and the edge
  attribute: through `%23`) and the three convolutions (`%24 … %69`; `%70 … %116`, the relu included;
  `%117 … %162`); the whole list is their concatenation by computation. Each window is then read back on its own, over
  an arbitrary valuation of the buffers, by sibling modules.
-/
import proofs.«155152_j37271726194960_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The fold over a concatenation: the second part runs from what the first part leaves. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

variable {F : FTy → Type} [FloatOps F]

/-- The prelude: operations 1 – 29, through the edge attribute `%23`. -/
abbrev pre : List (HloOp τ sig (Elt F)) :=
  [ nullary main_c (constantI S_ 32 0#32),
    unary main_c main_v0 (broadcastInDim S640000 ![] bcast_S_S640000 : (⟨S_, .i32⟩ : BufTy).Contents (Elt F) → (⟨S640000, .i32⟩ : BufTy).Contents (Elt F)),
    binary main_arg1 main_v0 main_v1 (cmpi .slt : (⟨S640000, .i32⟩ : BufTy).Contents (Elt F) → (⟨S640000, .i32⟩ : BufTy).Contents (Elt F) → (⟨S640000, .i1⟩ : BufTy).Contents (Elt F)),
    nullary main_c_0 (constantI S_ 32 500#32),
    unary main_c_0 main_v2 (broadcastInDim S640000 ![] bcast_S_S640000 : (⟨S_, .i32⟩ : BufTy).Contents (Elt F) → (⟨S640000, .i32⟩ : BufTy).Contents (Elt F)),
    binary main_arg1 main_v2 main_v3 (addi : (⟨S640000, .i32⟩ : BufTy).Contents (Elt F) → (⟨S640000, .i32⟩ : BufTy).Contents (Elt F) → (⟨S640000, .i32⟩ : BufTy).Contents (Elt F)),
    ternary main_v1 main_v3 main_arg1 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v4 main_v5 (broadcastInDim S640000x1 ![0] bcast_S640000_S640000x1_0 : (⟨S640000, .i32⟩ : BufTy).Contents (Elt F) → (⟨S640000x1, .i32⟩ : BufTy).Contents (Elt F)),
    binary main_arg4 main_v5 main_v6 ((fun x i => Host.gather gather_S500x128_S640000x1_S640000x128_1_0_n_n_0_1_1128 x i) : (⟨S500x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v7 (broadcastInDim S640000 ![] bcast_S_S640000 : (⟨S_, .i32⟩ : BufTy).Contents (Elt F) → (⟨S640000, .i32⟩ : BufTy).Contents (Elt F)),
    binary main_arg2 main_v7 main_v8 (cmpi .slt : (⟨S640000, .i32⟩ : BufTy).Contents (Elt F) → (⟨S640000, .i32⟩ : BufTy).Contents (Elt F) → (⟨S640000, .i1⟩ : BufTy).Contents (Elt F)),
    nullary main_c_2 (constantI S_ 32 640000#32),
    unary main_c_2 main_v9 (broadcastInDim S640000 ![] bcast_S_S640000 : (⟨S_, .i32⟩ : BufTy).Contents (Elt F) → (⟨S640000, .i32⟩ : BufTy).Contents (Elt F)),
    binary main_arg2 main_v9 main_v10 (addi : (⟨S640000, .i32⟩ : BufTy).Contents (Elt F) → (⟨S640000, .i32⟩ : BufTy).Contents (Elt F) → (⟨S640000, .i32⟩ : BufTy).Contents (Elt F)),
    ternary main_v8 main_v10 main_arg2 main_v11 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v11 main_v12 (broadcastInDim S640000x1 ![0] bcast_S640000_S640000x1_0 : (⟨S640000, .i32⟩ : BufTy).Contents (Elt F) → (⟨S640000x1, .i32⟩ : BufTy).Contents (Elt F)),
    binary main_arg5 main_v12 main_v13 ((fun x i => Host.gather gather_S640000x128_S640000x1_S640000x128_1_0_n_n_0_1_1128 x i) : (⟨S640000x128, .f32⟩ : BufTy).Contents (Elt F) → (⟨S640000x1, .i32⟩ : BufTy).Contents (Elt F) → (⟨S640000x128, .f32⟩ : BufTy).Contents (Elt F)),
    binary main_v6 main_v13 main_v14 (mulf : (⟨S640000x128, .f32⟩ : BufTy).Contents (Elt F) → (⟨S640000x128, .f32⟩ : BufTy).Contents (Elt F) → (⟨S640000x128, .f32⟩ : BufTy).Contents (Elt F)),
    nullary main_v15 (iotaInDim S50000 32 0),
    unary main_arg0 main_v16 ((extractStridedSlice S1x640000 ![0, 0] · slices_S2x640000_S1x640000_0_0) : (⟨S2x640000, .i32⟩ : BufTy).Contents (Elt F) → (⟨S1x640000, .i32⟩ : BufTy).Contents (Elt F)),
    reshape main_v16 main_v17 rfl shapeCasts_S1x640000_S640000,
    binary main_v17 main_v15 main_v18 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    unary main_arg0 main_v19 ((extractStridedSlice S1x640000 ![1, 0] · slices_S2x640000_S1x640000_1_0) : (⟨S2x640000, .i32⟩ : BufTy).Contents (Elt F) → (⟨S1x640000, .i32⟩ : BufTy).Contents (Elt F)),
    reshape main_v19 main_v20 rfl shapeCasts_S1x640000_S640000,
    binary main_v20 main_v15 main_v21 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    nullary main_cst (constant S_ .f32 0x3F800000#32),
    unary main_cst main_v22 (broadcastInDim S50000x128 ![] bcast_S_S50000x128 : (⟨S_, .f32⟩ : BufTy).Contents (Elt F) → (⟨S50000x128, .f32⟩ : BufTy).Contents (Elt F)),
    binary main_v14 main_v22 main_v23 ((fun a b => concatenate S690000x128 0 [⟨S640000x128, a⟩, ⟨S50000x128, b⟩] concatenates_S640000x128_S50000x128_S690000x128_d0) : (⟨S640000x128, .f32⟩ : BufTy).Contents (Elt F) → (⟨S50000x128, .f32⟩ : BufTy).Contents (Elt F) → (⟨S690000x128, .f32⟩ : BufTy).Contents (Elt F)) ]

/-- The first convolution: operations 30 – 91, `%24 … %69`. -/
abbrev c1 : List (HloOp τ sig (Elt F)) :=
  [ nullary main_cst_3 (constant S_ .f32 0x3F800000#32),
    unary main_cst_3 main_v24 (broadcastInDim S690000 ![] bcast_S_S690000 : (⟨S_, .f32⟩ : BufTy).Contents (Elt F) → (⟨S690000, .f32⟩ : BufTy).Contents (Elt F)),
    nullary main_cst_4 (constant S_ .f32 0x00000000#32),
    unary main_cst_4 main_v25 (broadcastInDim S50000 ![] bcast_S_S50000 : (⟨S_, .f32⟩ : BufTy).Contents (Elt F) → (⟨S50000, .f32⟩ : BufTy).Contents (Elt F)),
    unary main_v18 main_v26 (broadcastInDim S690000x1 ![0] bcast_S690000_S690000x1_0 : (⟨S690000, .i32⟩ : BufTy).Contents (Elt F) → (⟨S690000x1, .i32⟩ : BufTy).Contents (Elt F)),
    ternary main_v25 main_v26 main_v24 main_v27 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    nullary main_cst_5 (constant S_ .f32 0x00000000#32),
    unary main_cst_5 main_v28 (broadcastInDim S50000 ![] bcast_S_S50000 : (⟨S_, .f32⟩ : BufTy).Contents (Elt F) → (⟨S50000, .f32⟩ : BufTy).Contents (Elt F)),
    binary main_v27 main_v28 main_v29 (cmpf .ogt : (⟨S50000, .f32⟩ : BufTy).Contents (Elt F) → (⟨S50000, .f32⟩ : BufTy).Contents (Elt F) → (⟨S50000, .i1⟩ : BufTy).Contents (Elt F)),
    nullary main_cst_6 (constant S_ .f32 0xBF000000#32),
    unary main_cst_6 main_v30 (broadcastInDim S50000 ![] bcast_S_S50000 : (⟨S_, .f32⟩ : BufTy).Contents (Elt F) → (⟨S50000, .f32⟩ : BufTy).Contents (Elt F)),
    binary main_v27 main_v30 main_v31 (Host.powf : (⟨S50000, .f32⟩ : BufTy).Contents (Elt F) → (⟨S50000, .f32⟩ : BufTy).Contents (Elt F) → (⟨S50000, .f32⟩ : BufTy).Contents (Elt F)),
    nullary main_cst_7 (constant S_ .f32 0x00000000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v29) (TRef.of (T := ⟨S50000, .f32⟩) main_v31) (TRef.of (T := ⟨S50000, .f32⟩) main_call0_v1) (TRef.of (T := ⟨S50000, .f32⟩) main_v32) select,
    nullary main_c_8 (constantI S_ 32 0#32),
    unary main_c_8 main_v33 (broadcastInDim S690000 ![] bcast_S_S690000 : (⟨S_, .i32⟩ : BufTy).Contents (Elt F) → (⟨S690000, .i32⟩ : BufTy).Contents (Elt F)),
    binary main_v18 main_v33 main_v34 (cmpi .slt : (⟨S690000, .i32⟩ : BufTy).Contents (Elt F) → (⟨S690000, .i32⟩ : BufTy).Contents (Elt F) → (⟨S690000, .i1⟩ : BufTy).Contents (Elt F)),
    nullary main_c_9 (constantI S_ 32 50000#32),
    unary main_c_9 main_v35 (broadcastInDim S690000 ![] bcast_S_S690000 : (⟨S_, .i32⟩ : BufTy).Contents (Elt F) → (⟨S690000, .i32⟩ : BufTy).Contents (Elt F)),
    binary main_v18 main_v35 main_v36 (addi : (⟨S690000, .i32⟩ : BufTy).Contents (Elt F) → (⟨S690000, .i32⟩ : BufTy).Contents (Elt F) → (⟨S690000, .i32⟩ : BufTy).Contents (Elt F)),
    ternary main_v34 main_v36 main_v18 main_v37 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v37 main_v38 (broadcastInDim S690000x1 ![0] bcast_S690000_S690000x1_0 : (⟨S690000, .i32⟩ : BufTy).Contents (Elt F) → (⟨S690000x1, .i32⟩ : BufTy).Contents (Elt F)),
    binary main_v32 main_v38 main_v39 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    nullary main_c_10 (constantI S_ 32 0#32),
    unary main_c_10 main_v40 (broadcastInDim S690000 ![] bcast_S_S690000 : (⟨S_, .i32⟩ : BufTy).Contents (Elt F) → (⟨S690000, .i32⟩ : BufTy).Contents (Elt F)),
    binary main_v21 main_v40 main_v41 (cmpi .slt : (⟨S690000, .i32⟩ : BufTy).Contents (Elt F) → (⟨S690000, .i32⟩ : BufTy).Contents (Elt F) → (⟨S690000, .i1⟩ : BufTy).Contents (Elt F)),
    nullary main_c_11 (constantI S_ 32 50000#32),
    unary main_c_11 main_v42 (broadcastInDim S690000 ![] bcast_S_S690000 : (⟨S_, .i32⟩ : BufTy).Contents (Elt F) → (⟨S690000, .i32⟩ : BufTy).Contents (Elt F)),
    binary main_v21 main_v42 main_v43 (addi : (⟨S690000, .i32⟩ : BufTy).Contents (Elt F) → (⟨S690000, .i32⟩ : BufTy).Contents (Elt F) → (⟨S690000, .i32⟩ : BufTy).Contents (Elt F)),
    ternary main_v41 main_v43 main_v21 main_v44 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v44 main_v45 (broadcastInDim S690000x1 ![0] bcast_S690000_S690000x1_0 : (⟨S690000, .i32⟩ : BufTy).Contents (Elt F) → (⟨S690000x1, .i32⟩ : BufTy).Contents (Elt F)),
    binary main_v32 main_v45 main_v46 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    binary main_v39 main_v46 main_v47 (mulf : (⟨S690000, .f32⟩ : BufTy).Contents (Elt F) → (⟨S690000, .f32⟩ : BufTy).Contents (Elt F) → (⟨S690000, .f32⟩ : BufTy).Contents (Elt F)),
    unary main_v47 main_v48 (broadcastInDim S690000x1 ![0] bcast_S690000_S690000x1_0 : (⟨S690000, .f32⟩ : BufTy).Contents (Elt F) → (⟨S690000x1, .f32⟩ : BufTy).Contents (Elt F)),
    nullary main_c_12 (constantI S_ 32 0#32),
    unary main_c_12 main_v49 (broadcastInDim S690000 ![] bcast_S_S690000 : (⟨S_, .i32⟩ : BufTy).Contents (Elt F) → (⟨S690000, .i32⟩ : BufTy).Contents (Elt F)),
    binary main_v18 main_v49 main_v50 (cmpi .slt : (⟨S690000, .i32⟩ : BufTy).Contents (Elt F) → (⟨S690000, .i32⟩ : BufTy).Contents (Elt F) → (⟨S690000, .i1⟩ : BufTy).Contents (Elt F)),
    nullary main_c_13 (constantI S_ 32 50000#32),
    unary main_c_13 main_v51 (broadcastInDim S690000 ![] bcast_S_S690000 : (⟨S_, .i32⟩ : BufTy).Contents (Elt F) → (⟨S690000, .i32⟩ : BufTy).Contents (Elt F)),
    binary main_v18 main_v51 main_v52 (addi : (⟨S690000, .i32⟩ : BufTy).Contents (Elt F) → (⟨S690000, .i32⟩ : BufTy).Contents (Elt F) → (⟨S690000, .i32⟩ : BufTy).Contents (Elt F)),
    ternary main_v50 main_v52 main_v18 main_v53 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v53 main_v54 (broadcastInDim S690000x1 ![0] bcast_S690000_S690000x1_0 : (⟨S690000, .i32⟩ : BufTy).Contents (Elt F) → (⟨S690000x1, .i32⟩ : BufTy).Contents (Elt F)),
    binary main_arg3 main_v54 main_v55 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    binary main_v55 main_v23 main_v56 (mulf : (⟨S690000x128, .f32⟩ : BufTy).Contents (Elt F) → (⟨S690000x128, .f32⟩ : BufTy).Contents (Elt F) → (⟨S690000x128, .f32⟩ : BufTy).Contents (Elt F)),
    unary main_v48 main_v57 (broadcastInDim S690000x128 ![0, 1] bcast_S690000x1_S690000x128_0_1 : (⟨S690000x1, .f32⟩ : BufTy).Contents (Elt F) → (⟨S690000x128, .f32⟩ : BufTy).Contents (Elt F)),
    binary main_v56 main_v57 main_v58 (mulf : (⟨S690000x128, .f32⟩ : BufTy).Contents (Elt F) → (⟨S690000x128, .f32⟩ : BufTy).Contents (Elt F) → (⟨S690000x128, .f32⟩ : BufTy).Contents (Elt F)),
    nullary main_cst_14 (constant S_ .f32 0x00000000#32),
    unary main_cst_14 main_v59 (broadcastInDim S50000x128 ![] bcast_S_S50000x128 : (⟨S_, .f32⟩ : BufTy).Contents (Elt F) → (⟨S50000x128, .f32⟩ : BufTy).Contents (Elt F)),
    unary main_v21 main_v60 (broadcastInDim S690000x1 ![0] bcast_S690000_S690000x1_0 : (⟨S690000, .i32⟩ : BufTy).Contents (Elt F) → (⟨S690000x1, .i32⟩ : BufTy).Contents (Elt F)),
    ternary main_v59 main_v60 main_v58 main_v61 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    nullary main_cst_15 (constant S_ .f32 0x00000000#32),
    unary main_cst_15 main_v62 (broadcastInDim S50000 ![] bcast_S_S50000 : (⟨S_, .f32⟩ : BufTy).Contents (Elt F) → (⟨S50000, .f32⟩ : BufTy).Contents (Elt F)),
    unary main_v21 main_v63 (broadcastInDim S690000x1 ![0] bcast_S690000_S690000x1_0 : (⟨S690000, .i32⟩ : BufTy).Contents (Elt F) → (⟨S690000x1, .i32⟩ : BufTy).Contents (Elt F)),
    ternary main_v62 main_v63 main_v24 main_v64 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    nullary main_cst_16 (constant S_ .f32 0x3F800000#32),
    unary main_cst_16 main_v65 (broadcastInDim S50000 ![] bcast_S_S50000 : (⟨S_, .f32⟩ : BufTy).Contents (Elt F) → (⟨S50000, .f32⟩ : BufTy).Contents (Elt F)),
    binary main_v64 main_v65 main_v66 (maximumf : (⟨S50000, .f32⟩ : BufTy).Contents (Elt F) → (⟨S50000, .f32⟩ : BufTy).Contents (Elt F) → (⟨S50000, .f32⟩ : BufTy).Contents (Elt F)),
    unary main_v66 main_v67 (broadcastInDim S50000x1 ![0] bcast_S50000_S50000x1_0 : (⟨S50000, .f32⟩ : BufTy).Contents (Elt F) → (⟨S50000x1, .f32⟩ : BufTy).Contents (Elt F)),
    unary main_v67 main_v68 (broadcastInDim S50000x128 ![0, 1] bcast_S50000x1_S50000x128_0_1 : (⟨S50000x1, .f32⟩ : BufTy).Contents (Elt F) → (⟨S50000x128, .f32⟩ : BufTy).Contents (Elt F)),
    binary main_v61 main_v68 main_v69 (Host.divf : (⟨S50000x128, .f32⟩ : BufTy).Contents (Elt F) → (⟨S50000x128, .f32⟩ : BufTy).Contents (Elt F) → (⟨S50000x128, .f32⟩ : BufTy).Contents (Elt F)) ]

/-- The second convolution and the relu after it: operations 92 – 156, `%70 … %116`. -/
abbrev c2 : List (HloOp τ sig (Elt F)) :=
  [ nullary main_cst_17 (constant S_ .f32 0x3F800000#32),
    unary main_cst_17 main_v70 (broadcastInDim S690000 ![] bcast_S_S690000 : (⟨S_, .f32⟩ : BufTy).Contents (Elt F) → (⟨S690000, .f32⟩ : BufTy).Contents (Elt F)),
    nullary main_cst_18 (constant S_ .f32 0x00000000#32),
    unary main_cst_18 main_v71 (broadcastInDim S50000 ![] bcast_S_S50000 : (⟨S_, .f32⟩ : BufTy).Contents (Elt F) → (⟨S50000, .f32⟩ : BufTy).Contents (Elt F)),
    unary main_v18 main_v72 (broadcastInDim S690000x1 ![0] bcast_S690000_S690000x1_0 : (⟨S690000, .i32⟩ : BufTy).Contents (Elt F) → (⟨S690000x1, .i32⟩ : BufTy).Contents (Elt F)),
    ternary main_v71 main_v72 main_v70 main_v73 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    nullary main_cst_19 (constant S_ .f32 0x00000000#32),
    unary main_cst_19 main_v74 (broadcastInDim S50000 ![] bcast_S_S50000 : (⟨S_, .f32⟩ : BufTy).Contents (Elt F) → (⟨S50000, .f32⟩ : BufTy).Contents (Elt F)),
    binary main_v73 main_v74 main_v75 (cmpf .ogt : (⟨S50000, .f32⟩ : BufTy).Contents (Elt F) → (⟨S50000, .f32⟩ : BufTy).Contents (Elt F) → (⟨S50000, .i1⟩ : BufTy).Contents (Elt F)),
    nullary main_cst_20 (constant S_ .f32 0xBF000000#32),
    unary main_cst_20 main_v76 (broadcastInDim S50000 ![] bcast_S_S50000 : (⟨S_, .f32⟩ : BufTy).Contents (Elt F) → (⟨S50000, .f32⟩ : BufTy).Contents (Elt F)),
    binary main_v73 main_v76 main_v77 (Host.powf : (⟨S50000, .f32⟩ : BufTy).Contents (Elt F) → (⟨S50000, .f32⟩ : BufTy).Contents (Elt F) → (⟨S50000, .f32⟩ : BufTy).Contents (Elt F)),
    nullary main_cst_21 (constant S_ .f32 0x00000000#32),
    TRef.unary (TRef.of (T := ⟨S_, .f32⟩) main_cst_21) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v75) (TRef.of (T := ⟨S50000, .f32⟩) main_v77) (TRef.of (T := ⟨S50000, .f32⟩) main_call1_v1) (TRef.of (T := ⟨S50000, .f32⟩) main_v78) select,
    nullary main_c_22 (constantI S_ 32 0#32),
    unary main_c_22 main_v79 (broadcastInDim S690000 ![] bcast_S_S690000 : (⟨S_, .i32⟩ : BufTy).Contents (Elt F) → (⟨S690000, .i32⟩ : BufTy).Contents (Elt F)),
    binary main_v18 main_v79 main_v80 (cmpi .slt : (⟨S690000, .i32⟩ : BufTy).Contents (Elt F) → (⟨S690000, .i32⟩ : BufTy).Contents (Elt F) → (⟨S690000, .i1⟩ : BufTy).Contents (Elt F)),
    nullary main_c_23 (constantI S_ 32 50000#32),
    unary main_c_23 main_v81 (broadcastInDim S690000 ![] bcast_S_S690000 : (⟨S_, .i32⟩ : BufTy).Contents (Elt F) → (⟨S690000, .i32⟩ : BufTy).Contents (Elt F)),
    binary main_v18 main_v81 main_v82 (addi : (⟨S690000, .i32⟩ : BufTy).Contents (Elt F) → (⟨S690000, .i32⟩ : BufTy).Contents (Elt F) → (⟨S690000, .i32⟩ : BufTy).Contents (Elt F)),
    ternary main_v80 main_v82 main_v18 main_v83 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v83 main_v84 (broadcastInDim S690000x1 ![0] bcast_S690000_S690000x1_0 : (⟨S690000, .i32⟩ : BufTy).Contents (Elt F) → (⟨S690000x1, .i32⟩ : BufTy).Contents (Elt F)),
    binary main_v78 main_v84 main_v85 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    nullary main_c_24 (constantI S_ 32 0#32),
    unary main_c_24 main_v86 (broadcastInDim S690000 ![] bcast_S_S690000 : (⟨S_, .i32⟩ : BufTy).Contents (Elt F) → (⟨S690000, .i32⟩ : BufTy).Contents (Elt F)),
    binary main_v21 main_v86 main_v87 (cmpi .slt : (⟨S690000, .i32⟩ : BufTy).Contents (Elt F) → (⟨S690000, .i32⟩ : BufTy).Contents (Elt F) → (⟨S690000, .i1⟩ : BufTy).Contents (Elt F)),
    nullary main_c_25 (constantI S_ 32 50000#32),
    unary main_c_25 main_v88 (broadcastInDim S690000 ![] bcast_S_S690000 : (⟨S_, .i32⟩ : BufTy).Contents (Elt F) → (⟨S690000, .i32⟩ : BufTy).Contents (Elt F)),
    binary main_v21 main_v88 main_v89 (addi : (⟨S690000, .i32⟩ : BufTy).Contents (Elt F) → (⟨S690000, .i32⟩ : BufTy).Contents (Elt F) → (⟨S690000, .i32⟩ : BufTy).Contents (Elt F)),
    ternary main_v87 main_v89 main_v21 main_v90 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v90 main_v91 (broadcastInDim S690000x1 ![0] bcast_S690000_S690000x1_0 : (⟨S690000, .i32⟩ : BufTy).Contents (Elt F) → (⟨S690000x1, .i32⟩ : BufTy).Contents (Elt F)),
    binary main_v78 main_v91 main_v92 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    binary main_v85 main_v92 main_v93 (mulf : (⟨S690000, .f32⟩ : BufTy).Contents (Elt F) → (⟨S690000, .f32⟩ : BufTy).Contents (Elt F) → (⟨S690000, .f32⟩ : BufTy).Contents (Elt F)),
    unary main_v93 main_v94 (broadcastInDim S690000x1 ![0] bcast_S690000_S690000x1_0 : (⟨S690000, .f32⟩ : BufTy).Contents (Elt F) → (⟨S690000x1, .f32⟩ : BufTy).Contents (Elt F)),
    nullary main_c_26 (constantI S_ 32 0#32),
    unary main_c_26 main_v95 (broadcastInDim S690000 ![] bcast_S_S690000 : (⟨S_, .i32⟩ : BufTy).Contents (Elt F) → (⟨S690000, .i32⟩ : BufTy).Contents (Elt F)),
    binary main_v18 main_v95 main_v96 (cmpi .slt : (⟨S690000, .i32⟩ : BufTy).Contents (Elt F) → (⟨S690000, .i32⟩ : BufTy).Contents (Elt F) → (⟨S690000, .i1⟩ : BufTy).Contents (Elt F)),
    nullary main_c_27 (constantI S_ 32 50000#32),
    unary main_c_27 main_v97 (broadcastInDim S690000 ![] bcast_S_S690000 : (⟨S_, .i32⟩ : BufTy).Contents (Elt F) → (⟨S690000, .i32⟩ : BufTy).Contents (Elt F)),
    binary main_v18 main_v97 main_v98 (addi : (⟨S690000, .i32⟩ : BufTy).Contents (Elt F) → (⟨S690000, .i32⟩ : BufTy).Contents (Elt F) → (⟨S690000, .i32⟩ : BufTy).Contents (Elt F)),
    ternary main_v96 main_v98 main_v18 main_v99 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v99 main_v100 (broadcastInDim S690000x1 ![0] bcast_S690000_S690000x1_0 : (⟨S690000, .i32⟩ : BufTy).Contents (Elt F) → (⟨S690000x1, .i32⟩ : BufTy).Contents (Elt F)),
    binary main_v69 main_v100 main_v101 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    binary main_v101 main_v23 main_v102 (mulf : (⟨S690000x128, .f32⟩ : BufTy).Contents (Elt F) → (⟨S690000x128, .f32⟩ : BufTy).Contents (Elt F) → (⟨S690000x128, .f32⟩ : BufTy).Contents (Elt F)),
    unary main_v94 main_v103 (broadcastInDim S690000x128 ![0, 1] bcast_S690000x1_S690000x128_0_1 : (⟨S690000x1, .f32⟩ : BufTy).Contents (Elt F) → (⟨S690000x128, .f32⟩ : BufTy).Contents (Elt F)),
    binary main_v102 main_v103 main_v104 (mulf : (⟨S690000x128, .f32⟩ : BufTy).Contents (Elt F) → (⟨S690000x128, .f32⟩ : BufTy).Contents (Elt F) → (⟨S690000x128, .f32⟩ : BufTy).Contents (Elt F)),
    nullary main_cst_28 (constant S_ .f32 0x00000000#32),
    unary main_cst_28 main_v105 (broadcastInDim S50000x128 ![] bcast_S_S50000x128 : (⟨S_, .f32⟩ : BufTy).Contents (Elt F) → (⟨S50000x128, .f32⟩ : BufTy).Contents (Elt F)),
    unary main_v21 main_v106 (broadcastInDim S690000x1 ![0] bcast_S690000_S690000x1_0 : (⟨S690000, .i32⟩ : BufTy).Contents (Elt F) → (⟨S690000x1, .i32⟩ : BufTy).Contents (Elt F)),
    ternary main_v105 main_v106 main_v104 main_v107 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    nullary main_cst_29 (constant S_ .f32 0x00000000#32),
    unary main_cst_29 main_v108 (broadcastInDim S50000 ![] bcast_S_S50000 : (⟨S_, .f32⟩ : BufTy).Contents (Elt F) → (⟨S50000, .f32⟩ : BufTy).Contents (Elt F)),
    unary main_v21 main_v109 (broadcastInDim S690000x1 ![0] bcast_S690000_S690000x1_0 : (⟨S690000, .i32⟩ : BufTy).Contents (Elt F) → (⟨S690000x1, .i32⟩ : BufTy).Contents (Elt F)),
    ternary main_v108 main_v109 main_v70 main_v110 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    nullary main_cst_30 (constant S_ .f32 0x3F800000#32),
    unary main_cst_30 main_v111 (broadcastInDim S50000 ![] bcast_S_S50000 : (⟨S_, .f32⟩ : BufTy).Contents (Elt F) → (⟨S50000, .f32⟩ : BufTy).Contents (Elt F)),
    binary main_v110 main_v111 main_v112 (maximumf : (⟨S50000, .f32⟩ : BufTy).Contents (Elt F) → (⟨S50000, .f32⟩ : BufTy).Contents (Elt F) → (⟨S50000, .f32⟩ : BufTy).Contents (Elt F)),
    unary main_v112 main_v113 (broadcastInDim S50000x1 ![0] bcast_S50000_S50000x1_0 : (⟨S50000, .f32⟩ : BufTy).Contents (Elt F) → (⟨S50000x1, .f32⟩ : BufTy).Contents (Elt F)),
    unary main_v113 main_v114 (broadcastInDim S50000x128 ![0, 1] bcast_S50000x1_S50000x128_0_1 : (⟨S50000x1, .f32⟩ : BufTy).Contents (Elt F) → (⟨S50000x128, .f32⟩ : BufTy).Contents (Elt F)),
    binary main_v107 main_v114 main_v115 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v115) (TRef.of (T := ⟨S50000x128, .f32⟩) main_call2_v0) (TRef.of (T := ⟨S50000x128, .f32⟩) main_v116) maximumf ]

/-- The third convolution: operations 157 – 218, `%117 … %162`. -/
abbrev c3 : List (HloOp τ sig (Elt F)) :=
  [ nullary main_cst_31 (constant S_ .f32 0x3F800000#32),
    unary main_cst_31 main_v117 (broadcastInDim S690000 ![] bcast_S_S690000 : (⟨S_, .f32⟩ : BufTy).Contents (Elt F) → (⟨S690000, .f32⟩ : BufTy).Contents (Elt F)),
    nullary main_cst_32 (constant S_ .f32 0x00000000#32),
    unary main_cst_32 main_v118 (broadcastInDim S50000 ![] bcast_S_S50000 : (⟨S_, .f32⟩ : BufTy).Contents (Elt F) → (⟨S50000, .f32⟩ : BufTy).Contents (Elt F)),
    unary main_v18 main_v119 (broadcastInDim S690000x1 ![0] bcast_S690000_S690000x1_0 : (⟨S690000, .i32⟩ : BufTy).Contents (Elt F) → (⟨S690000x1, .i32⟩ : BufTy).Contents (Elt F)),
    ternary main_v118 main_v119 main_v117 main_v120 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    nullary main_cst_33 (constant S_ .f32 0x00000000#32),
    unary main_cst_33 main_v121 (broadcastInDim S50000 ![] bcast_S_S50000 : (⟨S_, .f32⟩ : BufTy).Contents (Elt F) → (⟨S50000, .f32⟩ : BufTy).Contents (Elt F)),
    binary main_v120 main_v121 main_v122 (cmpf .ogt : (⟨S50000, .f32⟩ : BufTy).Contents (Elt F) → (⟨S50000, .f32⟩ : BufTy).Contents (Elt F) → (⟨S50000, .i1⟩ : BufTy).Contents (Elt F)),
    nullary main_cst_34 (constant S_ .f32 0xBF000000#32),
    unary main_cst_34 main_v123 (broadcastInDim S50000 ![] bcast_S_S50000 : (⟨S_, .f32⟩ : BufTy).Contents (Elt F) → (⟨S50000, .f32⟩ : BufTy).Contents (Elt F)),
    binary main_v120 main_v123 main_v124 (Host.powf : (⟨S50000, .f32⟩ : BufTy).Contents (Elt F) → (⟨S50000, .f32⟩ : BufTy).Contents (Elt F) → (⟨S50000, .f32⟩ : BufTy).Contents (Elt F)),
    nullary main_cst_35 (constant S_ .f32 0x00000000#32),
    TRef.unary (TRef.of (T := ⟨S_, .f32⟩) main_cst_35) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v122) (TRef.of (T := ⟨S50000, .f32⟩) main_v124) (TRef.of (T := ⟨S50000, .f32⟩) main_call3_v1) (TRef.of (T := ⟨S50000, .f32⟩) main_v125) select,
    nullary main_c_36 (constantI S_ 32 0#32),
    unary main_c_36 main_v126 (broadcastInDim S690000 ![] bcast_S_S690000 : (⟨S_, .i32⟩ : BufTy).Contents (Elt F) → (⟨S690000, .i32⟩ : BufTy).Contents (Elt F)),
    binary main_v18 main_v126 main_v127 (cmpi .slt : (⟨S690000, .i32⟩ : BufTy).Contents (Elt F) → (⟨S690000, .i32⟩ : BufTy).Contents (Elt F) → (⟨S690000, .i1⟩ : BufTy).Contents (Elt F)),
    nullary main_c_37 (constantI S_ 32 50000#32),
    unary main_c_37 main_v128 (broadcastInDim S690000 ![] bcast_S_S690000 : (⟨S_, .i32⟩ : BufTy).Contents (Elt F) → (⟨S690000, .i32⟩ : BufTy).Contents (Elt F)),
    binary main_v18 main_v128 main_v129 (addi : (⟨S690000, .i32⟩ : BufTy).Contents (Elt F) → (⟨S690000, .i32⟩ : BufTy).Contents (Elt F) → (⟨S690000, .i32⟩ : BufTy).Contents (Elt F)),
    ternary main_v127 main_v129 main_v18 main_v130 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v130 main_v131 (broadcastInDim S690000x1 ![0] bcast_S690000_S690000x1_0 : (⟨S690000, .i32⟩ : BufTy).Contents (Elt F) → (⟨S690000x1, .i32⟩ : BufTy).Contents (Elt F)),
    binary main_v125 main_v131 main_v132 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    nullary main_c_38 (constantI S_ 32 0#32),
    unary main_c_38 main_v133 (broadcastInDim S690000 ![] bcast_S_S690000 : (⟨S_, .i32⟩ : BufTy).Contents (Elt F) → (⟨S690000, .i32⟩ : BufTy).Contents (Elt F)),
    binary main_v21 main_v133 main_v134 (cmpi .slt : (⟨S690000, .i32⟩ : BufTy).Contents (Elt F) → (⟨S690000, .i32⟩ : BufTy).Contents (Elt F) → (⟨S690000, .i1⟩ : BufTy).Contents (Elt F)),
    nullary main_c_39 (constantI S_ 32 50000#32),
    unary main_c_39 main_v135 (broadcastInDim S690000 ![] bcast_S_S690000 : (⟨S_, .i32⟩ : BufTy).Contents (Elt F) → (⟨S690000, .i32⟩ : BufTy).Contents (Elt F)),
    binary main_v21 main_v135 main_v136 (addi : (⟨S690000, .i32⟩ : BufTy).Contents (Elt F) → (⟨S690000, .i32⟩ : BufTy).Contents (Elt F) → (⟨S690000, .i32⟩ : BufTy).Contents (Elt F)),
    ternary main_v134 main_v136 main_v21 main_v137 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v137 main_v138 (broadcastInDim S690000x1 ![0] bcast_S690000_S690000x1_0 : (⟨S690000, .i32⟩ : BufTy).Contents (Elt F) → (⟨S690000x1, .i32⟩ : BufTy).Contents (Elt F)),
    binary main_v125 main_v138 main_v139 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    binary main_v132 main_v139 main_v140 (mulf : (⟨S690000, .f32⟩ : BufTy).Contents (Elt F) → (⟨S690000, .f32⟩ : BufTy).Contents (Elt F) → (⟨S690000, .f32⟩ : BufTy).Contents (Elt F)),
    unary main_v140 main_v141 (broadcastInDim S690000x1 ![0] bcast_S690000_S690000x1_0 : (⟨S690000, .f32⟩ : BufTy).Contents (Elt F) → (⟨S690000x1, .f32⟩ : BufTy).Contents (Elt F)),
    nullary main_c_40 (constantI S_ 32 0#32),
    unary main_c_40 main_v142 (broadcastInDim S690000 ![] bcast_S_S690000 : (⟨S_, .i32⟩ : BufTy).Contents (Elt F) → (⟨S690000, .i32⟩ : BufTy).Contents (Elt F)),
    binary main_v18 main_v142 main_v143 (cmpi .slt : (⟨S690000, .i32⟩ : BufTy).Contents (Elt F) → (⟨S690000, .i32⟩ : BufTy).Contents (Elt F) → (⟨S690000, .i1⟩ : BufTy).Contents (Elt F)),
    nullary main_c_41 (constantI S_ 32 50000#32),
    unary main_c_41 main_v144 (broadcastInDim S690000 ![] bcast_S_S690000 : (⟨S_, .i32⟩ : BufTy).Contents (Elt F) → (⟨S690000, .i32⟩ : BufTy).Contents (Elt F)),
    binary main_v18 main_v144 main_v145 (addi : (⟨S690000, .i32⟩ : BufTy).Contents (Elt F) → (⟨S690000, .i32⟩ : BufTy).Contents (Elt F) → (⟨S690000, .i32⟩ : BufTy).Contents (Elt F)),
    ternary main_v143 main_v145 main_v18 main_v146 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v146 main_v147 (broadcastInDim S690000x1 ![0] bcast_S690000_S690000x1_0 : (⟨S690000, .i32⟩ : BufTy).Contents (Elt F) → (⟨S690000x1, .i32⟩ : BufTy).Contents (Elt F)),
    binary main_v116 main_v147 main_v148 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    binary main_v148 main_v23 main_v149 (mulf : (⟨S690000x128, .f32⟩ : BufTy).Contents (Elt F) → (⟨S690000x128, .f32⟩ : BufTy).Contents (Elt F) → (⟨S690000x128, .f32⟩ : BufTy).Contents (Elt F)),
    unary main_v141 main_v150 (broadcastInDim S690000x128 ![0, 1] bcast_S690000x1_S690000x128_0_1 : (⟨S690000x1, .f32⟩ : BufTy).Contents (Elt F) → (⟨S690000x128, .f32⟩ : BufTy).Contents (Elt F)),
    binary main_v149 main_v150 main_v151 (mulf : (⟨S690000x128, .f32⟩ : BufTy).Contents (Elt F) → (⟨S690000x128, .f32⟩ : BufTy).Contents (Elt F) → (⟨S690000x128, .f32⟩ : BufTy).Contents (Elt F)),
    nullary main_cst_42 (constant S_ .f32 0x00000000#32),
    unary main_cst_42 main_v152 (broadcastInDim S50000x128 ![] bcast_S_S50000x128 : (⟨S_, .f32⟩ : BufTy).Contents (Elt F) → (⟨S50000x128, .f32⟩ : BufTy).Contents (Elt F)),
    unary main_v21 main_v153 (broadcastInDim S690000x1 ![0] bcast_S690000_S690000x1_0 : (⟨S690000, .i32⟩ : BufTy).Contents (Elt F) → (⟨S690000x1, .i32⟩ : BufTy).Contents (Elt F)),
    ternary main_v152 main_v153 main_v151 main_v154 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    nullary main_cst_43 (constant S_ .f32 0x00000000#32),
    unary main_cst_43 main_v155 (broadcastInDim S50000 ![] bcast_S_S50000 : (⟨S_, .f32⟩ : BufTy).Contents (Elt F) → (⟨S50000, .f32⟩ : BufTy).Contents (Elt F)),
    unary main_v21 main_v156 (broadcastInDim S690000x1 ![0] bcast_S690000_S690000x1_0 : (⟨S690000, .i32⟩ : BufTy).Contents (Elt F) → (⟨S690000x1, .i32⟩ : BufTy).Contents (Elt F)),
    ternary main_v155 main_v156 main_v117 main_v157 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    nullary main_cst_44 (constant S_ .f32 0x3F800000#32),
    unary main_cst_44 main_v158 (broadcastInDim S50000 ![] bcast_S_S50000 : (⟨S_, .f32⟩ : BufTy).Contents (Elt F) → (⟨S50000, .f32⟩ : BufTy).Contents (Elt F)),
    binary main_v157 main_v158 main_v159 (maximumf : (⟨S50000, .f32⟩ : BufTy).Contents (Elt F) → (⟨S50000, .f32⟩ : BufTy).Contents (Elt F) → (⟨S50000, .f32⟩ : BufTy).Contents (Elt F)),
    unary main_v159 main_v160 (broadcastInDim S50000x1 ![0] bcast_S50000_S50000x1_0 : (⟨S50000, .f32⟩ : BufTy).Contents (Elt F) → (⟨S50000x1, .f32⟩ : BufTy).Contents (Elt F)),
    unary main_v160 main_v161 (broadcastInDim S50000x128 ![0, 1] bcast_S50000x1_S50000x128_0_1 : (⟨S50000x1, .f32⟩ : BufTy).Contents (Elt F) → (⟨S50000x128, .f32⟩ : BufTy).Contents (Elt F)),
    binary main_v154 main_v161 main_v162 (Host.divf : (⟨S50000x128, .f32⟩ : BufTy).Contents (Elt F) → (⟨S50000x128, .f32⟩ : BufTy).Contents (Elt F) → (⟨S50000x128, .f32⟩ : BufTy).Contents (Elt F)) ]

set_option maxRecDepth 8192 in
/-- The operation list is the four windows, in order. -/
theorem ops_eq : (RefRun.ops : List (HloOp τ sig (Elt F))) = pre ++ (c1 ++ (c2 ++ c3)) := rfl

end Cert.ReferenceIdeal.RefValue

end
-- ==== Proof.RefPre.lean ====
/-
  The prelude of the reference read back: what its first 29 operations leave, from ANY valuation `W` of the buffers,
  in the three buffers the convolutions read — the source and destination index arrays with their self loops
  (`%18`, `%21`) and the edge attribute (`%23`) — as the specification's functions of the argument buffers' contents
  in `W`; and that the node-feature argument is left as it was.
-/
import proofs.«155152_j37271726194960_1_alg».proof.Proof.RefCut
import proofs.«155152_j37271726194960_1_alg».proof.Proof.RSpec
import proofs.«155152_j37271726194960_1_alg».proof.Proof.LibConcatCongr

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local congr] Idealize.ShloMosaic.concatenate_pair_congr

variable (W : Valuation τ sig (Elt Ideal))

theorem pre_v18 : StableHlo.after (pre (F := Ideal)) W (Proc.devRef .tc main_v18) = RSpec.srcR (W (Proc.devRef .tc main_arg0)) := by
  after_results_simp
  rfl

theorem pre_v21 : StableHlo.after (pre (F := Ideal)) W (Proc.devRef .tc main_v21) = RSpec.dstR (W (Proc.devRef .tc main_arg0)) := by
  after_results_simp
  rfl

theorem pre_v23 : StableHlo.after (pre (F := Ideal)) W (Proc.devRef .tc main_v23)
    = RSpec.ea (W (Proc.devRef .tc main_arg1)) (W (Proc.devRef .tc main_arg2)) (W (Proc.devRef .tc main_arg4)) (W (Proc.devRef .tc main_arg5)) := by
  after_results_simp
  rfl

theorem pre_arg3 : StableHlo.after (pre (F := Ideal)) W (Proc.devRef .tc main_arg3) = W (Proc.devRef .tc main_arg3) := by
  after_results_simp

end Cert.ReferenceIdeal.RefValue

end
-- ==== Proof.RefC1.lean ====
/-
  The first convolution of the reference read back: from ANY valuation `W` of the buffers that holds the two index
  arrays with their self loops in `%18`, `%21` and an edge attribute in `%23`, operations 30 – 91 leave in `%69` the
  specification's convolution of the node-feature argument, and leave `%18`, `%21`, `%23` as they were.
-/
import proofs.«155152_j37271726194960_1_alg».proof.Proof.RefCut
import proofs.«155152_j37271726194960_1_alg».proof.Proof.RSpec
import proofs.«155152_j37271726194960_1_alg».proof.Proof.LibConcatCongr

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local congr] Idealize.ShloMosaic.concatenate_pair_congr

variable (a0 : RSpec.IA S2x640000) (EA : RSpec.FA S690000x128) (W : Valuation τ sig (Elt Ideal))

set_option maxRecDepth 8192 in
theorem c1_v69 (h18 : W (Proc.devRef .tc main_v18) = RSpec.srcR a0) (h21 : W (Proc.devRef .tc main_v21) = RSpec.dstR a0)
    (h23 : W (Proc.devRef .tc main_v23) = EA) :
    StableHlo.after (c1 (F := Ideal)) W (Proc.devRef .tc main_v69) = RSpec.conv a0 EA (W (Proc.devRef .tc main_arg3)) := by
  after_results_simp
  simp only [h18, h21, h23, TRef.ofBuf, TRef.toBuf, cast_eq]
  rfl

theorem c1_v18 : StableHlo.after (c1 (F := Ideal)) W (Proc.devRef .tc main_v18) = W (Proc.devRef .tc main_v18) := by
  after_results_simp
theorem c1_v21 : StableHlo.after (c1 (F := Ideal)) W (Proc.devRef .tc main_v21) = W (Proc.devRef .tc main_v21) := by
  after_results_simp
theorem c1_v23 : StableHlo.after (c1 (F := Ideal)) W (Proc.devRef .tc main_v23) = W (Proc.devRef .tc main_v23) := by
  after_results_simp

end Cert.ReferenceIdeal.RefValue

end
-- ==== Proof.RefC2.lean ====
/-
  The second convolution of the reference and the relu after it read back: from ANY valuation `W` of the buffers that
  holds the two index arrays with their self loops in `%18`, `%21` and an edge attribute in `%23`, operations 92 – 156
  leave in `%116` the specification's relu of its convolution of what `%69` holds, and leave `%18`, `%21`, `%23` as
  they were.
-/
import proofs.«155152_j37271726194960_1_alg».proof.Proof.RefCut
import proofs.«155152_j37271726194960_1_alg».proof.Proof.RSpec
import proofs.«155152_j37271726194960_1_alg».proof.Proof.LibConcatCongr

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local congr] Idealize.ShloMosaic.concatenate_pair_congr

variable (a0 : RSpec.IA S2x640000) (EA : RSpec.FA S690000x128) (W : Valuation τ sig (Elt Ideal))

set_option maxRecDepth 8192 in
theorem c2_v116 (h18 : W (Proc.devRef .tc main_v18) = RSpec.srcR a0) (h21 : W (Proc.devRef .tc main_v21) = RSpec.dstR a0)
    (h23 : W (Proc.devRef .tc main_v23) = EA) :
    StableHlo.after (c2 (F := Ideal)) W (Proc.devRef .tc main_v116)
      = RSpec.relu (RSpec.conv a0 EA (W (Proc.devRef .tc main_v69))) := by
  after_results_simp
  simp only [h18, h21, h23, TRef.ofBuf, TRef.toBuf, cast_eq]
  rfl

theorem c2_v18 : StableHlo.after (c2 (F := Ideal)) W (Proc.devRef .tc main_v18) = W (Proc.devRef .tc main_v18) := by
  after_results_simp
theorem c2_v21 : StableHlo.after (c2 (F := Ideal)) W (Proc.devRef .tc main_v21) = W (Proc.devRef .tc main_v21) := by
  after_results_simp
theorem c2_v23 : StableHlo.after (c2 (F := Ideal)) W (Proc.devRef .tc main_v23) = W (Proc.devRef .tc main_v23) := by
  after_results_simp

end Cert.ReferenceIdeal.RefValue

end
-- ==== Proof.RefC3.lean ====
/-
  The third convolution of the reference read back: from ANY valuation `W` of the buffers that holds the two index
  arrays with their self loops in `%18`, `%21` and an edge attribute in `%23`, operations 157 – 218 leave in the result
  buffer `%162` the specification's convolution of what `%116` holds.
-/
import proofs.«155152_j37271726194960_1_alg».proof.Proof.RefCut
import proofs.«155152_j37271726194960_1_alg».proof.Proof.RSpec
import proofs.«155152_j37271726194960_1_alg».proof.Proof.LibConcatCongr

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local congr] Idealize.ShloMosaic.concatenate_pair_congr

variable (a0 : RSpec.IA S2x640000) (EA : RSpec.FA S690000x128) (W : Valuation τ sig (Elt Ideal))

set_option maxRecDepth 8192 in
theorem c3_v162 (h18 : W (Proc.devRef .tc main_v18) = RSpec.srcR a0) (h21 : W (Proc.devRef .tc main_v21) = RSpec.dstR a0)
    (h23 : W (Proc.devRef .tc main_v23) = EA) :
    StableHlo.after (c3 (F := Ideal)) W (Proc.devRef .tc main_v162) = RSpec.conv a0 EA (W (Proc.devRef .tc main_v116)) := by
  after_results_simp
  simp only [h18, h21, h23, TRef.ofBuf, TRef.toBuf, cast_eq]
  rfl

end Cert.ReferenceIdeal.RefValue

end
-- ==== Proof.RefValue.lean ====
/-
  The reference program's run, stated by the specification's function.

  The operation list is its four windows in order (`ops_eq`), and the fold over a concatenation runs the second part
  from what the first leaves (`after_append`). The prelude leaves the two index arrays with their self loops and the
  edge attribute as the specification's functions of the arguments; no later window writes those three buffers; and
  each convolution window, from any valuation holding them, leaves the specification's convolution of its input
  buffer. Chained: the result buffer holds `RSpec.out` of the six argument buffers' contents (`out_eq`), whence the
  run's statement with the result read (`run_spec`).
-/
import proofs.«155152_j37271726194960_1_alg».proof.Proof.RefRun
import proofs.«155152_j37271726194960_1_alg».proof.Proof.RSpec
import proofs.«155152_j37271726194960_1_alg».proof.Proof.LibConcatCongr
import proofs.«155152_j37271726194960_1_alg».proof.Proof.RefCut
import proofs.«155152_j37271726194960_1_alg».proof.Proof.RefPre
import proofs.«155152_j37271726194960_1_alg».proof.Proof.RefC1
import proofs.«155152_j37271726194960_1_alg».proof.Proof.RefC2
import proofs.«155152_j37271726194960_1_alg».proof.Proof.RefC3

noncomputable section

namespace Cert.ReferenceIdeal.RefValue

open Cert.ReferenceIdeal Cert.ReferenceIdeal.Gen Idealize.ShloMosaic Idealize.ShloMosaic.TcCoe Idealize.SL.Sem Idealize.ShloMosaic.StableHlo

/-- What the reference's 218 operations leave in the result buffer, from any valuation `V` of the buffers: the
    specification's function of the six argument buffers' contents in `V`. -/
theorem out_eq (V : Valuation τ sig (Elt Ideal)) :
    StableHlo.after (RefRun.ops (F := Ideal)) V (Proc.devRef .tc main_v162)
      = RSpec.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq, after_append, after_append, after_append]
  -- the three shared buffers after the prelude, and still after the first and the second convolution
  have p18 := pre_v18 V
  have p21 := pre_v21 V
  have p23 := pre_v23 V
  have q18 := (c1_v18 (StableHlo.after pre V)).trans p18
  have q21 := (c1_v21 (StableHlo.after pre V)).trans p21
  have q23 := (c1_v23 (StableHlo.after pre V)).trans p23
  have r18 := (c2_v18 (StableHlo.after c1 (StableHlo.after pre V))).trans q18
  have r21 := (c2_v21 (StableHlo.after c1 (StableHlo.after pre V))).trans q21
  have r23 := (c2_v23 (StableHlo.after c1 (StableHlo.after pre V))).trans q23
  -- the convolutions, last to first, then the node features the prelude leaves alone
  rw [c3_v162 _ _ _ r18 r21 r23, c2_v116 _ _ _ q18 q21 q23, c1_v69 _ _ _ p18 p21 p23, pre_arg3]
  rfl

/-- On every device, from any memory with zero counters: every weakly fair execution of the reference terminates with
    the result buffer at the specification's function of the argument buffers' launch contents, and the arguments
    unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v162)
        = RSpec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out_eq (launchContents m c)), (h c).2⟩) (RefRun.run m ρ)

end Cert.ReferenceIdeal.RefValue

end
-- ==== Proof.LibLoopGather.lean ====
/-
  GATHERS OVER AN INDEX LIST WITH ONE SELF LOOP PER NODE APPENDED.

  A graph has `N` nodes and `E` edges, and an index vector `v` of `E` 32-bit words names a node per edge. Appending
  one self loop per node gives the `T = E + N` entries `v ++ [0, 1, …, N − 1]`: the two-part concatenation, along the
  one axis, of `v` and the iota of extent `N`. This file says that a gather over the `T` entries SPLITS into the same
  gather over the `E` edge entries and the identity on the `N` loop entries:

  * `gatherVec_apply` / `gatherRow_apply`: a gather of entries (of rows) of an operand at a one-column array of start
    indices, read at an index, is the operand at the start index read signed and clamped into `[0, N − 1]`;
  * `bcastCol_apply` / `bcastRows_apply`: a vector laid out as one column, and a column repeated along the rows, read
    at an index;
  * `wrapNeg_apply`, `wrapWord_ofNat`: the wrap of negative indices (`K` is added to a negative entry) at an index, and that
    it leaves the word of a natural number below `2 ^ 31` alone;
  * `concat1_left` / `concat1_right`, `concat2_left` / `concat2_right`: a two-part concatenation of vectors (of
    matrices, along the rows) read at an index of either part;
  * `gatherVec_withLoops` / `gatherRow_withLoops`: a gather at the wrapped indices `v ++ [0, …, N − 1]` is the gather at
    the wrapped `v` followed by the operand itself — loop entry `l` reads the operand at `l`.

  Every statement is over any extents `E`, `N`, `T`, `C` (the concatenation's side condition carries `T = E + N`), over
  literal shapes and indices built from coordinates, so that it applies to a printed operation by unification.
-/
import Idealize.ShloMosaic.Lib.Pipeline.Value
import Idealize.ShloMosaic.Lib.ValueIdx
import Idealize.ShloMosaic.Lib.IdealHost
import Idealize.ShloMosaic.PureOps.Ideal

noncomputable section

namespace LoopConcat

open Idealize.ShloMosaic Idealize.ShloMosaic.ValueIdx

variable {α : Type}

/-! ## The two gathers' dimension numbers -/

/-- The dimension numbers of a gather of ENTRIES of a vector `[N]` at start indices `[T, 1]` (one index per row), with
    result `[T]`: no offset axis, the operand's one axis collapsed, slice size one. Their conditions `wf` are a
    hypothesis, so that a record printed over literal extents is this one by unfolding. -/
abbrev vecGatherDims (N T : ℕ) (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The dimension numbers of a gather of ROWS of a matrix `[N, C]` at start indices `[T, 1]`, with result `[T, C]`:
    the result's second axis is the offset axis, the operand's first axis is collapsed, a slice is one whole row. -/
abbrev rowGatherDims (N T C : ℕ) (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-! ## Layout operations read at an index -/

/-- A vector laid out as one column reads, at `(e, 0)`, the vector at `e`. -/
theorem bcastCol_apply {E : ℕ} (wc : (⟨1, ![E]⟩ : Shape).BroadcastsInDim ⟨2, ![E, 1]⟩ ![0])
    (p : (⟨1, ![E]⟩ : Shape).Idx → α) (e : Fin E) :
    broadcastInDim ⟨2, ![E, 1]⟩ ![0] wc p (ix2 e 0) = p (ix1 e) := by
  refine broadcastInDim_apply _ wc p (ix2 e 0) (ix1 e) fun a => ?_
  match a with
  | ⟨0, _⟩ =>
    show e.val = if E = 1 then 0 else e.val
    split
    · have := e.isLt; omega
    · rfl

/-- A column repeated along the rows reads, at `(e, k)`, the column at `(e, 0)`. -/
theorem bcastRows_apply {E C : ℕ} (wr : (⟨2, ![E, 1]⟩ : Shape).BroadcastsInDim ⟨2, ![E, C]⟩ ![0, 1])
    (q : (⟨2, ![E, 1]⟩ : Shape).Idx → α) (e : Fin E) (k : Fin C) :
    broadcastInDim ⟨2, ![E, C]⟩ ![0, 1] wr q (ix2 e k) = q (ix2 e 0) := by
  refine broadcastInDim_apply _ wr q (ix2 e k) (ix2 e 0) fun a => ?_
  match a with
  | ⟨0, _⟩ =>
    show e.val = if E = 1 then 0 else e.val
    split
    · have := e.isLt; omega
    · rfl
  | ⟨1, _⟩ => rfl

/-! ## The two gathers read at an index -/

/-- A gather of entries read at `e`, for ANY one-column array of start indices: the operand at the start index
    `idx (e, 0)`, read signed and clamped into `[0, N − 1]`. -/
theorem gatherVec_apply_col {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecGatherDims N T wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N T wf).start (ix1 e) idx 0 + (vecGatherDims N T wf).batchCoord (ix1 e) 0
    + (vecGatherDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N T wf).startIndexMap from List.mem_singleton.mpr rfl)]
  have hsi : (vecGatherDims N T wf).siIdx (ix1 e) ⟨List.idxOf (0 : Fin 1) (vecGatherDims N T wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE GATHER OF ENTRIES READ AT `e`: the operand at the start index `v e`, read signed and clamped into
    `[0, N − 1]`. -/
theorem gatherVec_apply {N T : ℕ} (hN : 0 < N)
    (wf : GatherDims.WF ⟨1, ![N]⟩ ⟨2, ![T, 1]⟩ ⟨1, ![T]⟩ [] [0] [] [0] [] 1 ![1])
    (wc : (⟨1, ![T]⟩ : Shape).BroadcastsInDim ⟨2, ![T, 1]⟩ ![0])
    (x : (⟨1, ![N]⟩ : Shape).Idx → α) (v : IVec ⟨1, ![T]⟩ 32) (e : Fin T) :
    Host.gather (vecGatherDims N T wf) x (broadcastInDim ⟨2, ![T, 1]⟩ ![0] wc v) (ix1 e)
      = x (ix1 ⟨min (v (ix1 e)).toInt.toNat (N - 1), by omega⟩) := by
  rw [gatherVec_apply_col hN]
  exact congrArg (fun z : BitVec 32 => x (ix1 ⟨min z.toInt.toNat (N - 1), by omega⟩)) (bcastCol_apply wc v e)

/-- A gather of rows read at `(e, k)`, for ANY one-column array of start indices: the operand's row at the start index
    `idx (e, 0)`, read signed and clamped into `[0, N − 1]`, at column `k`. -/
theorem gatherRow_apply_col {N T C w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (k : Fin C) :
    Host.gather (rowGatherDims N T C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N T C wf).start (ix2 e k) idx 0 + (rowGatherDims N T C wf).batchCoord (ix2 e k) 0
      + (rowGatherDims N T C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N T C wf).startIndexMap from List.mem_singleton.mpr rfl)]
    have hsi : (rowGatherDims N T C wf).siIdx (ix2 e k) ⟨List.idxOf (0 : Fin 2) (rowGatherDims N T C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N T C wf).start (ix2 e k) idx 1 + (rowGatherDims N T C wf).batchCoord (ix2 e k) 1
      + (rowGatherDims N T C wf).offCoord (ix2 e k) 1 = k.val
    have h10 : (1 : Fin 2) ∉ [(0 : Fin 2)] := by decide
    have h1 : (1 : Fin 2) ∉ (rowGatherDims N T C wf).startIndexMap := h10
    have hk : (1 : Fin 2) ∈ (rowGatherDims N T C wf).sKept :=
      (GatherDims.mem_sKept _ _).mpr ⟨h10, List.not_mem_nil⟩
    rw [GatherDims.batchCoord_eq_zero _ _ _ List.not_mem_nil]
    unfold GatherDims.start GatherDims.offCoord
    rw [dif_neg h1, dif_pos hk]
    simp only [Nat.zero_add, Nat.add_zero]
    rfl

/-- THE GATHER OF ROWS READ AT `(e, k)`: the operand's row at the start index `v e`, read signed and clamped into
    `[0, N − 1]`, at column `k`. -/
theorem gatherRow_apply {N T C : ℕ} (hN : 0 < N)
    (wf : GatherDims.WF ⟨2, ![N, C]⟩ ⟨2, ![T, 1]⟩ ⟨2, ![T, C]⟩ [1] [0] [] [0] [] 1 ![1, C])
    (wc : (⟨1, ![T]⟩ : Shape).BroadcastsInDim ⟨2, ![T, 1]⟩ ![0])
    (x : (⟨2, ![N, C]⟩ : Shape).Idx → α) (v : IVec ⟨1, ![T]⟩ 32) (e : Fin T) (k : Fin C) :
    Host.gather (rowGatherDims N T C wf) x (broadcastInDim ⟨2, ![T, 1]⟩ ![0] wc v) (ix2 e k)
      = x (ix2 ⟨min (v (ix1 e)).toInt.toNat (N - 1), by omega⟩ k) := by
  rw [gatherRow_apply_col hN]
  exact congrArg (fun z : BitVec 32 => x (ix2 ⟨min z.toInt.toNat (N - 1), by omega⟩ k)) (bcastCol_apply wc v e)

/-! ## The extents of a two-part concatenation -/

/-- A vector of `T` entries that is a vector of `E` entries followed by one of `N` entries has `T = E + N`. -/
theorem extent_concat1 {E N T : ℕ} (h1 : Shape.Concatenates [(⟨1, ![E]⟩ : Shape), ⟨1, ![N]⟩] ⟨1, ![T]⟩ 0) :
    E + N = T := by
  have e := h1.2.2
  simp only [List.map, List.sum_cons, List.sum_nil] at e
  rw [dif_pos trivial, dif_pos trivial] at e
  exact e

/-- A matrix of `T` rows that is a matrix of `E` rows above one of `N` rows has `T = E + N`. -/
theorem extent_concat2 {E N T C : ℕ}
    (h2 : Shape.Concatenates [(⟨2, ![E, C]⟩ : Shape), ⟨2, ![N, C]⟩] ⟨2, ![T, C]⟩ 0) : E + N = T := by
  have e := h2.2.2
  simp only [List.map, List.sum_cons, List.sum_nil] at e
  rw [dif_pos trivial, dif_pos trivial] at e
  exact e

/-! ## A two-part concatenation along the first axis, read at an index built from coordinates -/

/-- A vector of `E` entries followed by one of `N` entries reads, at a position below `E`, the first vector there. -/
theorem concat1_left {E N T : ℕ} (h1 : Shape.Concatenates [(⟨1, ![E]⟩ : Shape), ⟨1, ![N]⟩] ⟨1, ![T]⟩ 0)
    (a : (⟨1, ![E]⟩ : Shape).Idx → α) (b : (⟨1, ![N]⟩ : Shape).Idx → α) (e : Fin T) (he : e.val < E) :
    concatenate ⟨1, ![T]⟩ 0 [⟨⟨1, ![E]⟩, a⟩, ⟨⟨1, ![N]⟩, b⟩] h1 (ix1 e) = a (ix1 ⟨e.val, he⟩) :=
  concatenate_pair_apply_left 0 a b h1 (ix1 e) rfl (ix1 ⟨e.val, he⟩) fun c => by
    match c with
    | ⟨0, _⟩ => rfl

/-- … and, at a position `e` at or past `E`, the second vector at `e − E`. -/
theorem concat1_right {E N T : ℕ} (h1 : Shape.Concatenates [(⟨1, ![E]⟩ : Shape), ⟨1, ![N]⟩] ⟨1, ![T]⟩ 0)
    (a : (⟨1, ![E]⟩ : Shape).Idx → α) (b : (⟨1, ![N]⟩ : Shape).Idx → α) (e : Fin T) (he : E ≤ e.val) :
    concatenate ⟨1, ![T]⟩ 0 [⟨⟨1, ![E]⟩, a⟩, ⟨⟨1, ![N]⟩, b⟩] h1 (ix1 e)
      = b (ix1 ⟨e.val - E, by have := extent_concat1 h1; have := e.isLt; omega⟩) :=
  concatenate_pair_apply_right 0 a b h1 (ix1 e) rfl rfl (ix1 ⟨e.val - E, _⟩)
    (fun c hc => absurd (Subsingleton.elim _ _) hc) (by show e.val - E + E = e.val; omega)

/-- A matrix of `E` rows above one of `N` rows reads, at a row below `E`, the first matrix there. -/
theorem concat2_left {E N T C : ℕ}
    (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (e : Fin T) (k : Fin C)
    (he : e.val < E) :
    concatenate ⟨2, ![T, C]⟩ 0 [⟨⟨2, ![E, C]⟩, a⟩, ⟨⟨2, ![N, C]⟩, b⟩] h2 (ix2 e k) = a (ix2 ⟨e.val, he⟩ k) :=
  concatenate_pair_apply_left 0 a b h2 (ix2 e k) rfl (ix2 ⟨e.val, he⟩ k) fun c => by
    match c with
    | ⟨0, _⟩ => rfl
    | ⟨1, _⟩ => rfl

/-- … and, at a row `e` at or past `E`, the second matrix at row `e − E`. -/
theorem concat2_right {E N T C : ℕ}
    (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (e : Fin T) (k : Fin C)
    (he : E ≤ e.val) :
    concatenate ⟨2, ![T, C]⟩ 0 [⟨⟨2, ![E, C]⟩, a⟩, ⟨⟨2, ![N, C]⟩, b⟩] h2 (ix2 e k)
      = b (ix2 ⟨e.val - E, by have := extent_concat2 h2; have := e.isLt; omega⟩ k) :=
  concatenate_pair_apply_right 0 a b h2 (ix2 e k) rfl rfl (ix2 ⟨e.val - E, _⟩ k)
    (fun c => by
      match c with
      | ⟨0, _⟩ => exact fun hc => absurd rfl hc
      | ⟨1, _⟩ => exact fun _ => rfl)
    (by show e.val - E + E = e.val; omega)

/-! ## The wrap of negative indices -/

/-- The wrap of negative indices a gather's index vector goes through first: an entry that is negative as a signed
    word gets `K` (the operand's extent) added, the others are kept. -/
abbrev wrapNeg {s : Shape} (w0 : (⟨0, ![]⟩ : Shape).BroadcastsInDim s ![]) (K : BitVec 32) (v : IVec s 32) : IVec s 32 :=
  select (cmpi .slt v (broadcastInDim s ![] w0 (constantI ⟨0, ![]⟩ 32 0#32)))
    (addi v (broadcastInDim s ![] w0 (constantI ⟨0, ![]⟩ 32 K))) v

/-- The wrap on one word. -/
def wrapWord (K z : BitVec 32) : BitVec 32 := Scalar.select (IntOp.cmpi .slt z 0#32) (IntOp.addi z K) z

/-- The wrap at an index is the wrap of the entry there. -/
theorem wrapNeg_apply {s : Shape} (w0 : (⟨0, ![]⟩ : Shape).BroadcastsInDim s ![]) (K : BitVec 32) (v : IVec s 32)
    (i : s.Idx) : wrapNeg w0 K v i = wrapWord K (v i) := rfl

/-- The word of a natural number below `2 ^ 31` reads, signed, that number. -/
theorem ofNat_toInt_of_lt {l : ℕ} (h : l < 2 ^ 31) : (BitVec.ofNat 32 l).toInt = (l : Int) := by
  have h1 : (BitVec.ofNat 32 l).toNat = l := by
    rw [BitVec.toNat_ofNat]; exact Nat.mod_eq_of_lt (by omega)
  rw [BitVec.toInt_eq_toNat_cond, h1]
  split
  · rfl
  · omega

/-- The word of a natural number below `2 ^ 31` is not negative, so the wrap leaves it alone. -/
theorem wrapWord_ofNat {l : ℕ} (h : l < 2 ^ 31) (K : BitVec 32) : wrapWord K (BitVec.ofNat 32 l) = BitVec.ofNat 32 l := by
  have hs : (BitVec.ofNat 32 l).slt 0#32 = false := by
    rw [BitVec.slt, ofNat_toInt_of_lt h]; simp
  unfold wrapWord IntOp.cmpi
  simp only [hs]
  rfl

/-- The wrapped index list `v ++ [0, …, N − 1]` at an edge entry is the wrapped `v` there. -/
theorem wrapNeg_withLoops_left {E N T : ℕ} (h1 : Shape.Concatenates [(⟨1, ![E]⟩ : Shape), ⟨1, ![N]⟩] ⟨1, ![T]⟩ 0)
    (w0T : (⟨0, ![]⟩ : Shape).BroadcastsInDim ⟨1, ![T]⟩ ![]) (w0E : (⟨0, ![]⟩ : Shape).BroadcastsInDim ⟨1, ![E]⟩ ![])
    (K : BitVec 32) (v : IVec ⟨1, ![E]⟩ 32) (e : Fin T) (he : e.val < E) :
    wrapNeg w0T K (concatenate ⟨1, ![T]⟩ 0 [⟨⟨1, ![E]⟩, v⟩, ⟨⟨1, ![N]⟩, iotaInDim ⟨1, ![N]⟩ 32 0⟩] h1) (ix1 e)
      = wrapNeg w0E K v (ix1 ⟨e.val, he⟩) := by
  rw [wrapNeg_apply, wrapNeg_apply, concat1_left h1 _ _ e he]

/-- The wrapped index list `v ++ [0, …, N − 1]` at loop entry `E + l`, read signed and clamped into `[0, N − 1]`,
    is `l`: the word of `l < N < 2 ^ 31` is not negative, and `l ≤ N − 1`. -/
theorem wrapNeg_withLoops_right {E N T : ℕ} (hN : N < 2 ^ 31)
    (h1 : Shape.Concatenates [(⟨1, ![E]⟩ : Shape), ⟨1, ![N]⟩] ⟨1, ![T]⟩ 0)
    (w0T : (⟨0, ![]⟩ : Shape).BroadcastsInDim ⟨1, ![T]⟩ ![])
    (K : BitVec 32) (v : IVec ⟨1, ![E]⟩ 32) (e : Fin T) (he : E ≤ e.val) :
    min (wrapNeg w0T K (concatenate ⟨1, ![T]⟩ 0 [⟨⟨1, ![E]⟩, v⟩, ⟨⟨1, ![N]⟩, iotaInDim ⟨1, ![N]⟩ 32 0⟩] h1)
      (ix1 e)).toInt.toNat (N - 1) = e.val - E := by
  have hT := extent_concat1 h1
  have hl : e.val - E < N := by have := e.isLt; omega
  rw [wrapNeg_apply, concat1_right h1 _ _ e he]
  show min (wrapWord K (BitVec.ofNat 32 (e.val - E))).toInt.toNat (N - 1) = e.val - E
  rw [wrapWord_ofNat (by omega), ofNat_toInt_of_lt (by omega), Int.toNat_natCast]
  omega

/-! ## Gathers over the index list with the self loops appended -/

/-- A GATHER OF ENTRIES at the wrapped index list `v ++ [0, …, N − 1]` is the gather at the wrapped `v` followed by the
    operand itself: loop entry `l` reads the operand at `l`. -/
theorem gatherVec_withLoops {E N T : ℕ}
    (wfT : GatherDims.WF ⟨1, ![N]⟩ ⟨2, ![T, 1]⟩ ⟨1, ![T]⟩ [] [0] [] [0] [] 1 ![1])
    (wcT : (⟨1, ![T]⟩ : Shape).BroadcastsInDim ⟨2, ![T, 1]⟩ ![0])
    (w0T : (⟨0, ![]⟩ : Shape).BroadcastsInDim ⟨1, ![T]⟩ ![])
    (wfE : GatherDims.WF ⟨1, ![N]⟩ ⟨2, ![E, 1]⟩ ⟨1, ![E]⟩ [] [0] [] [0] [] 1 ![1])
    (wcE : (⟨1, ![E]⟩ : Shape).BroadcastsInDim ⟨2, ![E, 1]⟩ ![0])
    (w0E : (⟨0, ![]⟩ : Shape).BroadcastsInDim ⟨1, ![E]⟩ ![])
    (h1 : Shape.Concatenates [(⟨1, ![E]⟩ : Shape), ⟨1, ![N]⟩] ⟨1, ![T]⟩ 0)
    (hN : N < 2 ^ 31) (hN0 : 0 < N)
    (x : (⟨1, ![N]⟩ : Shape).Idx → α) (v : IVec ⟨1, ![E]⟩ 32) (K : BitVec 32) :
    Host.gather (vecGatherDims N T wfT) x (broadcastInDim ⟨2, ![T, 1]⟩ ![0] wcT
        (wrapNeg w0T K (concatenate ⟨1, ![T]⟩ 0 [⟨⟨1, ![E]⟩, v⟩, ⟨⟨1, ![N]⟩, iotaInDim ⟨1, ![N]⟩ 32 0⟩] h1)))
      = concatenate ⟨1, ![T]⟩ 0
          [⟨⟨1, ![E]⟩, Host.gather (vecGatherDims N E wfE) x (broadcastInDim ⟨2, ![E, 1]⟩ ![0] wcE (wrapNeg w0E K v))⟩,
            ⟨⟨1, ![N]⟩, x⟩] h1 := by
  funext j
  obtain ⟨e, rfl⟩ : ∃ e : Fin T, j = ix1 e := ⟨j 0, eq_ix1 j⟩
  refine (gatherVec_apply hN0 wfT wcT x _ e).trans ?_
  by_cases he : e.val < E
  · refine Eq.trans ?_ (concat1_left h1 _ x e he).symm
    refine Eq.trans ?_ (gatherVec_apply hN0 wfE wcE x _ ⟨e.val, he⟩).symm
    exact congrArg (fun z : BitVec 32 => x (ix1 ⟨min z.toInt.toNat (N - 1), by omega⟩))
      (wrapNeg_withLoops_left h1 w0T w0E K v e he)
  · have he' : E ≤ e.val := Nat.le_of_not_lt he
    refine Eq.trans ?_ (concat1_right h1 _ x e he').symm
    exact congrArg x (congrArg (ix1 (n := N)) (Fin.ext (wrapNeg_withLoops_right hN h1 w0T K v e he')))

/-- A GATHER OF ROWS at the wrapped index list `v ++ [0, …, N − 1]` is the gather at the wrapped `v` above the operand
    itself: loop entry `l` reads the operand's row `l`. -/
theorem gatherRow_withLoops {E N T C : ℕ}
    (wfT : GatherDims.WF ⟨2, ![N, C]⟩ ⟨2, ![T, 1]⟩ ⟨2, ![T, C]⟩ [1] [0] [] [0] [] 1 ![1, C])
    (wcT : (⟨1, ![T]⟩ : Shape).BroadcastsInDim ⟨2, ![T, 1]⟩ ![0])
    (w0T : (⟨0, ![]⟩ : Shape).BroadcastsInDim ⟨1, ![T]⟩ ![])
    (wfE : GatherDims.WF ⟨2, ![N, C]⟩ ⟨2, ![E, 1]⟩ ⟨2, ![E, C]⟩ [1] [0] [] [0] [] 1 ![1, C])
    (wcE : (⟨1, ![E]⟩ : Shape).BroadcastsInDim ⟨2, ![E, 1]⟩ ![0])
    (w0E : (⟨0, ![]⟩ : Shape).BroadcastsInDim ⟨1, ![E]⟩ ![])
    (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0)
    (hN : N < 2 ^ 31) (hN0 : 0 < N)
    (x : (⟨2, ![N, C]⟩ : Shape).Idx → α) (v : IVec ⟨1, ![E]⟩ 32) (K : BitVec 32) :
    Host.gather (rowGatherDims N T C wfT) x (broadcastInDim ⟨2, ![T, 1]⟩ ![0] wcT
        (wrapNeg w0T K (concatenate ⟨1, ![T]⟩ 0 [⟨⟨1, ![E]⟩, v⟩, ⟨⟨1, ![N]⟩, iotaInDim ⟨1, ![N]⟩ 32 0⟩] h1)))
      = concatenate ⟨2, ![T, C]⟩ 0
          [⟨⟨2, ![E, C]⟩, Host.gather (rowGatherDims N E C wfE) x (broadcastInDim ⟨2, ![E, 1]⟩ ![0] wcE (wrapNeg w0E K v))⟩,
            ⟨⟨2, ![N, C]⟩, x⟩] h2 := by
  funext j
  obtain ⟨e, k, rfl⟩ : ∃ (e : Fin T) (k : Fin C), j = ix2 e k := ⟨j 0, j 1, eq_ix2 j⟩
  refine (gatherRow_apply hN0 wfT wcT x _ e k).trans ?_
  by_cases he : e.val < E
  · refine Eq.trans ?_ (concat2_left h2 _ x e k he).symm
    refine Eq.trans ?_ (gatherRow_apply hN0 wfE wcE x _ ⟨e.val, he⟩ k).symm
    exact congrArg (fun z : BitVec 32 => x (ix2 ⟨min z.toInt.toNat (N - 1), by omega⟩ k))
      (wrapNeg_withLoops_left h1 w0T w0E K v e he)
  · have he' : E ≤ e.val := Nat.le_of_not_lt he
    refine Eq.trans ?_ (concat2_right h2 _ x e k he').symm
    exact congrArg x (congrArg (fun r : Fin N => ix2 r k) (Fin.ext (wrapNeg_withLoops_right hN h1 w0T K v e he')))

end LoopConcat

end
-- ==== Proof.LibLoopScatter.lean ====
/-
  THE ACCUMULATING SCATTER, READ AT AN INDEX, AND SPLIT OVER AN INDEX LIST WITH ONE SELF LOOP PER NODE APPENDED.

  A graph has N nodes and E edges; an index vector v names a node per edge. The accumulating float scatter of updates
  u along v into an array x0 of node values (a segment sum: entry i receives every u e with v e = i) is, over the
  extended reals, x0 i plus the finite sum of the updates whose index is i. The start index is read SIGNED and is NOT
  clamped: an update whose index is negative or at least N lands nowhere and is dropped.

  Appending one self loop per node — the T = E + N entries v ++ [0, 1, …, N − 1], the updates u1 ++ u2 — adds to entry
  i exactly the loop update u2 i: the scatter over the T entries is the scatter over the E entries, plus u2 pointwise.

  Everything is stated for any extents, over literal shapes and indices built from their coordinates, so that it applies
  to a printed operation by unification.
-/
import Idealize.ShloMosaic.Lib.Pipeline.Value
import Idealize.ShloMosaic.Lib.ValueIdx
import Idealize.ShloMosaic.Lib.IdealHost
import Idealize.ShloMosaic.PureOps.Ideal

noncomputable section

open scoped BigOperators

namespace LoopConcat

open Idealize.ShloMosaic Idealize.ShloMosaic.ValueIdx

/-! ## The dimension numbers -/

/-- The dimension numbers of a scatter of a vector of `T` updates into a vector of `N` entries along a one-column array
    of `T` start indices: no window axis, the operand's one axis inserted and named by the start index. -/
abbrev vecScatterDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

/-- The dimension numbers of a scatter of `T` rows of `C` updates into `N` rows along a one-column array of `T` start
    indices: the updates' second axis is the window, the operand's first axis is inserted and named by the start index. -/
abbrev rowScatterDims (N T C : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

/-! ## A one-column index array read at a row -/

/-- A vector laid out as one column reads, at row `e`, the vector's entry `e`. -/
theorem column_apply {α : Type} {T : ℕ} (wc : (⟨1, ![T]⟩ : Shape).BroadcastsInDim ⟨2, ![T, 1]⟩ ![0])
    (v : (⟨1, ![T]⟩ : Shape).Idx → α) (e : Fin T) (z : Fin 1) :
    broadcastInDim ⟨2, ![T, 1]⟩ ![0] wc v (ix2 e z) = v (ix1 e) := by
  refine broadcastInDim_apply ![0] wc v (ix2 e z) (ix1 e) fun a => ?_
  match a with
  | ⟨0, _⟩ =>
    show e.val = if T = 1 then 0 else e.val
    split
    · have := e.isLt; omega
    · rfl

/-! ## Where an update lands -/

section Vec
variable {N T : ℕ} (wf : ScatterDims.WF ⟨1, ![N]⟩ ⟨2, ![T, 1]⟩ ⟨1, ![T]⟩ [] [0] [0] 1)
  (wc : (⟨1, ![T]⟩ : Shape).BroadcastsInDim ⟨2, ![T, 1]⟩ ![0])

/-- The start of update `e` on the operand's axis is the index vector's entry `e`, read signed. -/
theorem start_vec (v : IVec ⟨1, ![T]⟩ 32) (e : Fin T) :
    (vecScatterDims N T wf).start (ix1 e) (broadcastInDim ⟨2, ![T, 1]⟩ ![0] wc v) 0 = (v (ix1 e)).toInt := by
  unfold ScatterDims.start
  rw [dif_pos (show (0 : Fin 1) ∈ (vecScatterDims N T wf).scatterDimsToOperandDims from List.mem_singleton.mpr rfl)]
  have hsi : (vecScatterDims N T wf).siIdx (ix1 e)
      ⟨List.idxOf (0 : Fin 1) (vecScatterDims N T wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi, column_apply]

/-- A vector update has no window coordinate. -/
theorem window_vec (e : Fin T) : (vecScatterDims N T wf).window (ix1 e) 0 = 0 := by
  unfold ScatterDims.window
  have h0 : (0 : Fin 1) ∉ (vecScatterDims N T wf).sKept :=
    show (0 : Fin 1) ∉ ((List.finRange 1).filter (· ∉ [(0 : Fin 1)])) by decide
  exact dif_neg h0

/-- WHERE A VECTOR UPDATE LANDS: update `e` lands on entry `i` exactly when the index vector's entry `e`, read signed,
    is `i`. -/
theorem resultIdx?_vec (v : IVec ⟨1, ![T]⟩ 32) (e : Fin T) (i : Fin N) :
    (vecScatterDims N T wf).resultIdx? (ix1 e) (broadcastInDim ⟨2, ![T, 1]⟩ ![0] wc v) = some (ix1 i)
      ↔ (v (ix1 e)).toInt = (i.val : ℤ) := by
  have hs := start_vec wf wc v e
  have hw := window_vec (N := N) wf e
  unfold ScatterDims.resultIdx?
  split
  · next h =>
    rw [Option.some.injEq]
    constructor
    · intro hEq
      have h0 := h 0
      have := congrArg (fun f : (⟨1, ![N]⟩ : Shape).Idx => (f 0).val) hEq
      simp only [hs, hw] at this h0
      show (v (ix1 e)).toInt = (i.val : ℤ)
      change ((v (ix1 e)).toInt + ((0 : ℕ) : ℤ)).toNat = i.val at this
      omega
    · intro hEq
      funext a
      obtain rfl : a = 0 := Subsingleton.elim _ _
      refine Fin.ext ?_
      show ((vecScatterDims N T wf).start (ix1 e) (broadcastInDim ⟨2, ![T, 1]⟩ ![0] wc v) 0
        + ((vecScatterDims N T wf).window (ix1 e) 0 : ℕ)).toNat = i.val
      rw [hs, hw, hEq]; omega
  · next h =>
    constructor
    · intro hEq; exact absurd hEq (by simp)
    · intro hEq
      exfalso; apply h
      intro a
      obtain rfl : a = 0 := Subsingleton.elim _ _
      rw [hs, hw, hEq]
      have : i.val < N := i.isLt
      show 0 ≤ (i.val : ℤ) + ((0 : ℕ) : ℤ) ∧ (i.val : ℤ) + ((0 : ℕ) : ℤ) < ((N : ℕ) : ℤ)
      omega

end Vec

section Row
variable {N T C : ℕ} (wf : ScatterDims.WF ⟨2, ![N, C]⟩ ⟨2, ![T, 1]⟩ ⟨2, ![T, C]⟩ [1] [0] [0] 1)
  (wc : (⟨1, ![T]⟩ : Shape).BroadcastsInDim ⟨2, ![T, 1]⟩ ![0])

/-- The start of row update `(e, k)` on the operand's row axis is the index vector's entry `e`, read signed … -/
theorem start_row0 (v : IVec ⟨1, ![T]⟩ 32) (e : Fin T) (k : Fin C) :
    (rowScatterDims N T C wf).start (ix2 e k) (broadcastInDim ⟨2, ![T, 1]⟩ ![0] wc v) 0 = (v (ix1 e)).toInt := by
  unfold ScatterDims.start
  rw [dif_pos (show (0 : Fin 2) ∈ (rowScatterDims N T C wf).scatterDimsToOperandDims from List.mem_singleton.mpr rfl)]
  have hsi : (rowScatterDims N T C wf).siIdx (ix2 e k)
      ⟨List.idxOf (0 : Fin 2) (rowScatterDims N T C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi, column_apply]

/-- … and on the column axis, which the start index does not name, it is `0`. -/
theorem start_row1 (v : IVec ⟨1, ![T]⟩ 32) (e : Fin T) (k : Fin C) :
    (rowScatterDims N T C wf).start (ix2 e k) (broadcastInDim ⟨2, ![T, 1]⟩ ![0] wc v) 1 = 0 := by
  unfold ScatterDims.start
  have h1 : (1 : Fin 2) ∉ (rowScatterDims N T C wf).scatterDimsToOperandDims :=
    show (1 : Fin 2) ∉ [(0 : Fin 2)] by decide
  exact dif_neg h1

/-- A row update has no window coordinate on the (inserted) row axis … -/
theorem window_row0 (e : Fin T) (k : Fin C) : (rowScatterDims N T C wf).window (ix2 e k) 0 = 0 := by
  unfold ScatterDims.window
  have h0 : (0 : Fin 2) ∉ (rowScatterDims N T C wf).sKept :=
    show (0 : Fin 2) ∉ ((List.finRange 2).filter (· ∉ [(0 : Fin 2)])) by decide
  exact dif_neg h0

/-- … and its column as the window coordinate on the column axis. -/
theorem window_row1 (e : Fin T) (k : Fin C) : (rowScatterDims N T C wf).window (ix2 e k) 1 = k.val := by
  unfold ScatterDims.window
  have h1 : (1 : Fin 2) ∈ (rowScatterDims N T C wf).sKept :=
    show (1 : Fin 2) ∈ ((List.finRange 2).filter (· ∉ [(0 : Fin 2)])) by decide
  rw [dif_pos h1]
  rfl

/-- WHERE A ROW UPDATE LANDS: update `(e, k)` lands on entry `(i, k')` exactly when the index vector's entry `e`, read
    signed, is `i`, and the columns agree. -/
theorem resultIdx?_row (v : IVec ⟨1, ![T]⟩ 32) (e : Fin T) (k k' : Fin C) (i : Fin N) :
    (rowScatterDims N T C wf).resultIdx? (ix2 e k) (broadcastInDim ⟨2, ![T, 1]⟩ ![0] wc v) = some (ix2 i k')
      ↔ (v (ix1 e)).toInt = (i.val : ℤ) ∧ k = k' := by
  have hs0 := start_row0 wf wc v e k
  have hs1 := start_row1 wf wc v e k
  have hw0 := window_row0 (N := N) wf e k
  have hw1 := window_row1 (N := N) wf e k
  unfold ScatterDims.resultIdx?
  split
  · next h =>
    rw [Option.some.injEq]
    constructor
    · intro hEq
      have h0 := h 0
      have e0 := congrArg (fun f : (⟨2, ![N, C]⟩ : Shape).Idx => (f 0).val) hEq
      have e1 := congrArg (fun f : (⟨2, ![N, C]⟩ : Shape).Idx => (f 1).val) hEq
      simp only [hs0, hw0] at e0 h0
      simp only [hs1, hw1] at e1
      change ((v (ix1 e)).toInt + ((0 : ℕ) : ℤ)).toNat = i.val at e0
      change ((0 : ℤ) + ((k.val : ℕ) : ℤ)).toNat = k'.val at e1
      refine ⟨?_, Fin.ext ?_⟩
      · show (v (ix1 e)).toInt = (i.val : ℤ)
        omega
      · omega
    · rintro ⟨hEq, rfl⟩
      funext a
      refine Fin.ext ?_
      match a with
      | ⟨0, _⟩ =>
        show ((rowScatterDims N T C wf).start (ix2 e k) (broadcastInDim ⟨2, ![T, 1]⟩ ![0] wc v) 0
          + ((rowScatterDims N T C wf).window (ix2 e k) 0 : ℕ)).toNat = i.val
        rw [hs0, hw0, hEq]; omega
      | ⟨1, _⟩ =>
        show ((rowScatterDims N T C wf).start (ix2 e k) (broadcastInDim ⟨2, ![T, 1]⟩ ![0] wc v) 1
          + ((rowScatterDims N T C wf).window (ix2 e k) 1 : ℕ)).toNat = k.val
        rw [hs1, hw1]; omega
  · next h =>
    constructor
    · intro hEq; exact absurd hEq (by simp)
    · rintro ⟨hEq, rfl⟩
      exfalso; apply h
      intro a
      match a with
      | ⟨0, _⟩ =>
        show 0 ≤ (rowScatterDims N T C wf).start (ix2 e k) (broadcastInDim ⟨2, ![T, 1]⟩ ![0] wc v) 0
            + ((rowScatterDims N T C wf).window (ix2 e k) 0 : ℕ)
          ∧ (rowScatterDims N T C wf).start (ix2 e k) (broadcastInDim ⟨2, ![T, 1]⟩ ![0] wc v) 0
            + ((rowScatterDims N T C wf).window (ix2 e k) 0 : ℕ) < ((N : ℕ) : ℤ)
        rw [hs0, hw0, hEq]
        have : i.val < N := i.isLt
        omega
      | ⟨1, _⟩ =>
        show 0 ≤ (rowScatterDims N T C wf).start (ix2 e k) (broadcastInDim ⟨2, ![T, 1]⟩ ![0] wc v) 1
            + ((rowScatterDims N T C wf).window (ix2 e k) 1 : ℕ)
          ∧ (rowScatterDims N T C wf).start (ix2 e k) (broadcastInDim ⟨2, ![T, 1]⟩ ![0] wc v) 1
            + ((rowScatterDims N T C wf).window (ix2 e k) 1 : ℕ) < ((C : ℕ) : ℤ)
        rw [hs1, hw1]
        have : k.val < C := k.isLt
        omega

end Row

/-! ## The accumulating scatter read at an index -/

/-- A rank-1 index set is its one coordinate's range. -/
def idxEquiv1 {n : ℕ} : (⟨1, ![n]⟩ : Shape).Idx ≃ Fin n where
  toFun j := j 0
  invFun e := ix1 e
  left_inv j := (eq_ix1 j).symm
  right_inv _ := rfl

section VecSum
variable {N T : ℕ} (wf : ScatterDims.WF ⟨1, ![N]⟩ ⟨2, ![T, 1]⟩ ⟨1, ![T]⟩ [] [0] [0] 1)
  (wc : (⟨1, ![T]⟩ : Shape).BroadcastsInDim ⟨2, ![T, 1]⟩ ![0])

/-- THE VECTOR SCATTER-ADD AT ENTRY `i`: the operand's entry plus the sum of the updates whose index, read signed,
    is `i`. -/
theorem scatterAddVec_apply (x0 : FVec Ideal ⟨1, ![N]⟩ .f32) (v : IVec ⟨1, ![T]⟩ 32) (u : FVec Ideal ⟨1, ![T]⟩ .f32)
    (i : Fin N) :
    Host.scatterAdd (vecScatterDims N T wf) x0 (broadcastInDim ⟨2, ![T, 1]⟩ ![0] wc v) u (ix1 i)
      = x0 (ix1 i) + ∑ e ∈ Finset.univ.filter (fun e : Fin T => (v (ix1 e)).toInt = (i.val : ℤ)), u (ix1 e) := by
  show x0 (ix1 i) + ∑ j ∈ Finset.univ.filter (fun j : (⟨1, ![T]⟩ : Shape).Idx =>
      (vecScatterDims N T wf).resultIdx? j (broadcastInDim ⟨2, ![T, 1]⟩ ![0] wc v) = some (ix1 i)), u j = _
  refine congrArg (x0 (ix1 i) + ·) ?_
  refine Finset.sum_equiv idxEquiv1 (fun j => ?_) (fun j _ => ?_)
  · obtain ⟨e, rfl⟩ : ∃ e : Fin T, j = ix1 e := ⟨j 0, eq_ix1 j⟩
    simp only [Finset.mem_filter, Finset.mem_univ, true_and]
    exact resultIdx?_vec wf wc v e i
  · obtain ⟨e, rfl⟩ : ∃ e : Fin T, j = ix1 e := ⟨j 0, eq_ix1 j⟩
    rfl

/-- A vector scatter-add of nonnegative updates into nonnegative entries has nonnegative entries. -/
theorem scatterAddVec_nonneg (x0 : FVec Ideal ⟨1, ![N]⟩ .f32) (v : IVec ⟨1, ![T]⟩ 32) (u : FVec Ideal ⟨1, ![T]⟩ .f32)
    (hx : ∀ i, 0 ≤ x0 i) (hu : ∀ e, 0 ≤ u e) (i : Fin N) :
    0 ≤ Host.scatterAdd (vecScatterDims N T wf) x0 (broadcastInDim ⟨2, ![T, 1]⟩ ![0] wc v) u (ix1 i) := by
  rw [scatterAddVec_apply]
  exact add_nonneg (hx _) (Finset.sum_nonneg fun e _ => hu _)

end VecSum

section RowSum
variable {N T C : ℕ} (wf : ScatterDims.WF ⟨2, ![N, C]⟩ ⟨2, ![T, 1]⟩ ⟨2, ![T, C]⟩ [1] [0] [0] 1)
  (wc : (⟨1, ![T]⟩ : Shape).BroadcastsInDim ⟨2, ![T, 1]⟩ ![0])

/-- THE ROW SCATTER-ADD AT ENTRY `(i, k)`: the operand's entry plus the sum, over the rows whose index, read signed, is
    `i`, of the update's entry in column `k`. -/
theorem scatterAddRow_apply (x0 : FVec Ideal ⟨2, ![N, C]⟩ .f32) (v : IVec ⟨1, ![T]⟩ 32)
    (u : FVec Ideal ⟨2, ![T, C]⟩ .f32) (i : Fin N) (k : Fin C) :
    Host.scatterAdd (rowScatterDims N T C wf) x0 (broadcastInDim ⟨2, ![T, 1]⟩ ![0] wc v) u (ix2 i k)
      = x0 (ix2 i k) + ∑ e ∈ Finset.univ.filter (fun e : Fin T => (v (ix1 e)).toInt = (i.val : ℤ)), u (ix2 e k) := by
  show x0 (ix2 i k) + ∑ j ∈ Finset.univ.filter (fun j : (⟨2, ![T, C]⟩ : Shape).Idx =>
      (rowScatterDims N T C wf).resultIdx? j (broadcastInDim ⟨2, ![T, 1]⟩ ![0] wc v) = some (ix2 i k)), u j = _
  refine congrArg (x0 (ix2 i k) + ·) ?_
  refine Finset.sum_nbij' (fun j => j 0) (fun e => ix2 e k) (fun j hj => ?_) (fun e he => ?_) (fun j hj => ?_)
    (fun e _ => rfl) (fun j hj => ?_)
  · obtain ⟨e, k', rfl⟩ : ∃ (e : Fin T) (k' : Fin C), j = ix2 e k' := ⟨j 0, j 1, eq_ix2 j⟩
    exact Finset.mem_filter.2 ⟨Finset.mem_univ _, ((resultIdx?_row wf wc v e k' k i).1 (Finset.mem_filter.1 hj).2).1⟩
  · exact Finset.mem_filter.2 ⟨Finset.mem_univ _, (resultIdx?_row wf wc v e k k i).2 ⟨(Finset.mem_filter.1 he).2, rfl⟩⟩
  · obtain ⟨e, k', rfl⟩ : ∃ (e : Fin T) (k' : Fin C), j = ix2 e k' := ⟨j 0, j 1, eq_ix2 j⟩
    obtain rfl := ((resultIdx?_row wf wc v e k' k i).1 (Finset.mem_filter.1 hj).2).2
    rfl
  · obtain ⟨e, k', rfl⟩ : ∃ (e : Fin T) (k' : Fin C), j = ix2 e k' := ⟨j 0, j 1, eq_ix2 j⟩
    obtain rfl := ((resultIdx?_row wf wc v e k' k i).1 (Finset.mem_filter.1 hj).2).2
    rfl

end RowSum

/-! ## An index list with one self loop per node appended -/

/-- A sum over the `T = E + N` positions that satisfy `P` is the sum over the first `E` of them plus the sum over the
    last `N`. -/
theorem sum_filter_split {M : Type*} [AddCommMonoid M] {E N T : ℕ} (hT : E + N = T) (P : Fin T → Prop)
    [DecidablePred P] (f : Fin T → M) :
    ∑ e ∈ Finset.univ.filter P, f e
      = ∑ e ∈ (Finset.univ : Finset (Fin E)).filter (fun e => P ⟨e.val, by have := e.isLt; omega⟩),
          f ⟨e.val, by have := e.isLt; omega⟩
        + ∑ l ∈ (Finset.univ : Finset (Fin N)).filter (fun l => P ⟨E + l.val, by have := l.isLt; omega⟩),
          f ⟨E + l.val, by have := l.isLt; omega⟩ := by
  subst hT
  rw [Finset.sum_filter, Fin.sum_univ_add, Finset.sum_filter, Finset.sum_filter]
  rfl

/-- A nonnegative number below `2 ^ 31`, written as a 32-bit word and read back signed, is itself. -/
theorem toInt_ofNat_of_lt {l : ℕ} (hl : l < 2 ^ 31) : (BitVec.ofNat 32 l).toInt = (l : ℤ) := by
  rw [BitVec.toInt_eq_toNat_cond, BitVec.toNat_ofNat]
  have : l % 2 ^ 32 = l := Nat.mod_eq_of_lt (by omega)
  rw [this, if_pos (by omega)]

section ConcatRead
variable {α : Type} {E N T : ℕ}

/-- A two-part concatenation of vectors reads its first part at the first `E` positions … -/
theorem concat_vec_left (h1 : Shape.Concatenates [(⟨1, ![E]⟩ : Shape), ⟨1, ![N]⟩] ⟨1, ![T]⟩ 0)
    (a : (⟨1, ![E]⟩ : Shape).Idx → α) (b : (⟨1, ![N]⟩ : Shape).Idx → α) (e : Fin E) (he : e.val < T) :
    concatenate ⟨1, ![T]⟩ 0 [⟨⟨1, ![E]⟩, a⟩, ⟨⟨1, ![N]⟩, b⟩] h1 (ix1 ⟨e.val, he⟩) = a (ix1 e) := by
  refine concatenate_pair_apply_left 0 a b h1 (ix1 ⟨e.val, he⟩) rfl (ix1 e) fun c => ?_
  match c with
  | ⟨0, _⟩ => rfl

/-- … and its second part at the last `N`. -/
theorem concat_vec_right (h1 : Shape.Concatenates [(⟨1, ![E]⟩ : Shape), ⟨1, ![N]⟩] ⟨1, ![T]⟩ 0)
    (a : (⟨1, ![E]⟩ : Shape).Idx → α) (b : (⟨1, ![N]⟩ : Shape).Idx → α) (l : Fin N) (hl : E + l.val < T) :
    concatenate ⟨1, ![T]⟩ 0 [⟨⟨1, ![E]⟩, a⟩, ⟨⟨1, ![N]⟩, b⟩] h1 (ix1 ⟨E + l.val, hl⟩) = b (ix1 l) := by
  refine concatenate_pair_apply_right 0 a b h1 (ix1 ⟨E + l.val, hl⟩) rfl rfl (ix1 l)
    (fun c hc => absurd (Subsingleton.elim _ _) hc) ?_
  show l.val + E = E + l.val
  omega

variable {C : ℕ}

/-- A two-part concatenation of row blocks reads its first part at the first `E` rows … -/
theorem concat_row_left (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (e : Fin E) (he : e.val < T) (k : Fin C) :
    concatenate ⟨2, ![T, C]⟩ 0 [⟨⟨2, ![E, C]⟩, a⟩, ⟨⟨2, ![N, C]⟩, b⟩] h2 (ix2 ⟨e.val, he⟩ k) = a (ix2 e k) := by
  refine concatenate_pair_apply_left 0 a b h2 (ix2 ⟨e.val, he⟩ k) rfl (ix2 e k) fun c => ?_
  match c with
  | ⟨0, _⟩ => rfl
  | ⟨1, _⟩ => rfl

/-- … and its second part at the last `N`. -/
theorem concat_row_right (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (l : Fin N) (hl : E + l.val < T)
    (k : Fin C) :
    concatenate ⟨2, ![T, C]⟩ 0 [⟨⟨2, ![E, C]⟩, a⟩, ⟨⟨2, ![N, C]⟩, b⟩] h2 (ix2 ⟨E + l.val, hl⟩ k) = b (ix2 l k) := by
  refine concatenate_pair_apply_right 0 a b h2 (ix2 ⟨E + l.val, hl⟩ k) rfl rfl (ix2 l k) (fun c hc => ?_) ?_
  · match c with
    | ⟨0, _⟩ => exact absurd rfl hc
    | ⟨1, _⟩ => rfl
  · show l.val + E = E + l.val
    omega

/-- The extents of a two-part concatenation of vectors add up. -/
theorem concat_vec_extent (h1 : Shape.Concatenates [(⟨1, ![E]⟩ : Shape), ⟨1, ![N]⟩] ⟨1, ![T]⟩ 0) : E + N = T := by
  have h := h1.2.2
  simpa using h

end ConcatRead

/-- Among the loop positions `0, …, N − 1` (`N` below `2 ^ 31`), written as 32-bit words and read back signed, exactly
    position `i` reads `i`: a sum over the loop positions that read `i` is its one term. -/
theorem sum_loops {M : Type*} [AddCommMonoid M] {N : ℕ} (hN : N < 2 ^ 31) (i : Fin N) (g : Fin N → M) :
    ∑ l ∈ (Finset.univ : Finset (Fin N)).filter (fun l => (BitVec.ofNat 32 l.val).toInt = (i.val : ℤ)), g l = g i := by
  rw [Finset.sum_filter, Finset.sum_eq_single i]
  · rw [if_pos (toInt_ofNat_of_lt (by have := i.isLt; omega))]
  · intro l _ hl
    rw [if_neg]
    rw [toInt_ofNat_of_lt (by have := l.isLt; omega)]
    intro h
    exact hl (Fin.ext (by exact_mod_cast h))
  · intro h; exact absurd (Finset.mem_univ _) h

section WithLoops
variable {E N T : ℕ}

/-- THE VECTOR SCATTER-ADD OVER AN INDEX LIST WITH THE SELF LOOPS APPENDED is the scatter-add over the list itself, plus
    the loop updates pointwise: loop `i` lands on entry `i` and nowhere else. -/
theorem scatterAddVec_withLoops
    (wfT : ScatterDims.WF ⟨1, ![N]⟩ ⟨2, ![T, 1]⟩ ⟨1, ![T]⟩ [] [0] [0] 1)
    (wcT : (⟨1, ![T]⟩ : Shape).BroadcastsInDim ⟨2, ![T, 1]⟩ ![0])
    (wfE : ScatterDims.WF ⟨1, ![N]⟩ ⟨2, ![E, 1]⟩ ⟨1, ![E]⟩ [] [0] [0] 1)
    (wcE : (⟨1, ![E]⟩ : Shape).BroadcastsInDim ⟨2, ![E, 1]⟩ ![0])
    (h1 : Shape.Concatenates [(⟨1, ![E]⟩ : Shape), ⟨1, ![N]⟩] ⟨1, ![T]⟩ 0) (hN : N < 2 ^ 31)
    (x0 : FVec Ideal ⟨1, ![N]⟩ .f32) (v : IVec ⟨1, ![E]⟩ 32) (u1 : FVec Ideal ⟨1, ![E]⟩ .f32)
    (u2 : FVec Ideal ⟨1, ![N]⟩ .f32) :
    Host.scatterAdd (vecScatterDims N T wfT) x0
        (broadcastInDim ⟨2, ![T, 1]⟩ ![0] wcT
          (concatenate ⟨1, ![T]⟩ 0 [⟨⟨1, ![E]⟩, v⟩, ⟨⟨1, ![N]⟩, iotaInDim ⟨1, ![N]⟩ 32 0⟩] h1))
        (concatenate ⟨1, ![T]⟩ 0 [⟨⟨1, ![E]⟩, u1⟩, ⟨⟨1, ![N]⟩, u2⟩] h1)
      = addf (Host.scatterAdd (vecScatterDims N E wfE) x0 (broadcastInDim ⟨2, ![E, 1]⟩ ![0] wcE v) u1) u2 := by
  have hT := concat_vec_extent h1
  funext j
  obtain ⟨i, rfl⟩ : ∃ i : Fin N, j = ix1 i := ⟨j 0, eq_ix1 j⟩
  rw [addf_apply, scatterAddVec_apply, scatterAddVec_apply, add_assoc]
  refine congrArg (x0 (ix1 i) + ·) ?_
  refine (sum_filter_split hT _ _).trans ?_
  refine congrArg₂ (· + ·) ?_ ?_
  · refine Finset.sum_congr (Finset.filter_congr fun e _ => ?_) fun e _ => ?_
    · show (concatenate ⟨1, ![T]⟩ 0 [⟨⟨1, ![E]⟩, v⟩, ⟨⟨1, ![N]⟩, iotaInDim ⟨1, ![N]⟩ 32 0⟩] h1
          (ix1 ⟨e.val, _⟩)).toInt = _ ↔ _
      rw [concat_vec_left]
    · exact concat_vec_left h1 u1 u2 e _
  · refine Eq.trans ?_ (sum_loops hN i fun l => u2 (ix1 l))
    refine Finset.sum_congr (Finset.filter_congr fun l _ => ?_) fun l _ => ?_
    · show (concatenate ⟨1, ![T]⟩ 0 [⟨⟨1, ![E]⟩, v⟩, ⟨⟨1, ![N]⟩, iotaInDim ⟨1, ![N]⟩ 32 0⟩] h1
          (ix1 ⟨E + l.val, _⟩)).toInt = _ ↔ _
      rw [concat_vec_right]
      exact Iff.rfl
    · exact concat_vec_right h1 u1 u2 l _

/-- THE ROW SCATTER-ADD OVER AN INDEX LIST WITH THE SELF LOOPS APPENDED is the scatter-add over the list itself, plus
    the loop rows pointwise: loop row `i` lands on row `i` and nowhere else. -/
theorem scatterAddRow_withLoops {C : ℕ}
    (wfT : ScatterDims.WF ⟨2, ![N, C]⟩ ⟨2, ![T, 1]⟩ ⟨2, ![T, C]⟩ [1] [0] [0] 1)
    (wcT : (⟨1, ![T]⟩ : Shape).BroadcastsInDim ⟨2, ![T, 1]⟩ ![0])
    (wfE : ScatterDims.WF ⟨2, ![N, C]⟩ ⟨2, ![E, 1]⟩ ⟨2, ![E, C]⟩ [1] [0] [0] 1)
    (wcE : (⟨1, ![E]⟩ : Shape).BroadcastsInDim ⟨2, ![E, 1]⟩ ![0])
    (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0) (hN : N < 2 ^ 31)
    (x0 : FVec Ideal ⟨2, ![N, C]⟩ .f32) (v : IVec ⟨1, ![E]⟩ 32) (u1 : FVec Ideal ⟨2, ![E, C]⟩ .f32)
    (u2 : FVec Ideal ⟨2, ![N, C]⟩ .f32) :
    Host.scatterAdd (rowScatterDims N T C wfT) x0
        (broadcastInDim ⟨2, ![T, 1]⟩ ![0] wcT
          (concatenate ⟨1, ![T]⟩ 0 [⟨⟨1, ![E]⟩, v⟩, ⟨⟨1, ![N]⟩, iotaInDim ⟨1, ![N]⟩ 32 0⟩] h1))
        (concatenate ⟨2, ![T, C]⟩ 0 [⟨⟨2, ![E, C]⟩, u1⟩, ⟨⟨2, ![N, C]⟩, u2⟩] h2)
      = addf (Host.scatterAdd (rowScatterDims N E C wfE) x0 (broadcastInDim ⟨2, ![E, 1]⟩ ![0] wcE v) u1) u2 := by
  have hT := concat_vec_extent h1
  funext j
  obtain ⟨i, k, rfl⟩ : ∃ (i : Fin N) (k : Fin C), j = ix2 i k := ⟨j 0, j 1, eq_ix2 j⟩
  rw [addf_apply, scatterAddRow_apply, scatterAddRow_apply, add_assoc]
  refine congrArg (x0 (ix2 i k) + ·) ?_
  refine (sum_filter_split hT _ _).trans ?_
  refine congrArg₂ (· + ·) ?_ ?_
  · refine Finset.sum_congr (Finset.filter_congr fun e _ => ?_) fun e _ => ?_
    · show (concatenate ⟨1, ![T]⟩ 0 [⟨⟨1, ![E]⟩, v⟩, ⟨⟨1, ![N]⟩, iotaInDim ⟨1, ![N]⟩ 32 0⟩] h1
          (ix1 ⟨e.val, _⟩)).toInt = _ ↔ _
      rw [concat_vec_left]
    · exact concat_row_left h2 u1 u2 e _ k
  · refine Eq.trans ?_ (sum_loops hN i fun l => u2 (ix2 l k))
    refine Finset.sum_congr (Finset.filter_congr fun l _ => ?_) fun l _ => ?_
    · show (concatenate ⟨1, ![T]⟩ 0 [⟨⟨1, ![E]⟩, v⟩, ⟨⟨1, ![N]⟩, iotaInDim ⟨1, ![N]⟩ 32 0⟩] h1
          (ix1 ⟨E + l.val, _⟩)).toInt = _ ↔ _
      rw [concat_vec_right]
      exact Iff.rfl
    · exact concat_row_right h2 u1 u2 l _ k

end WithLoops

end LoopConcat

end
-- ==== Proof.LibLoopLayout.lean ====
/-
  POINTWISE PRODUCTS AND BROADCASTS OVER A LIST WITH ONE SELF LOOP PER NODE APPENDED.

  A graph has `N` nodes and `E` edges; appending one self loop per node to a per-edge vector gives `T = E + N` entries,
  the two-part concatenation of the `E` edge entries and the `N` loop entries (of `E` and `N` rows of width `C`, for a
  per-edge matrix). This file says that the layout and pointwise operations over the `T` entries SPLIT into the same
  operation over each part:

  * `mulf_concat1` / `mulf_concat2`: a product of two concatenations is the concatenation of the products;
  * `spread_concat`: a concatenated vector laid out as a column and repeated along the rows is the concatenation of
    the two parts each repeated along its rows;
  * `splat_concat`: a scalar broadcast to `T` entries is the concatenation of its broadcasts to `E` and to `N`.

  Every statement is over any extents `E`, `N`, `T`, `C` (the concatenation's side condition carries `T = E + N`), over
  literal shapes, so that it applies to a printed operation by unification. Each is proved index by index: an index
  is split into its coordinates, and the first coordinate falls in the edge part or in the loop part.
-/
import proofs.«155152_j37271726194960_1_alg».proof.Proof.LibLoopGather

noncomputable section

namespace LoopConcat

open Idealize.ShloMosaic Idealize.ShloMosaic.ValueIdx

variable {α : Type}

/-! ## Pointwise products of concatenations -/

/-- A product of two concatenated vectors is the concatenation of the products of the parts. -/
theorem mulf_concat1 {E N T : ℕ} (h1 : Shape.Concatenates [(⟨1, ![E]⟩ : Shape), ⟨1, ![N]⟩] ⟨1, ![T]⟩ 0)
    (a a' : FVec Ideal ⟨1, ![E]⟩ .f32) (b b' : FVec Ideal ⟨1, ![N]⟩ .f32) :
    mulf (concatenate ⟨1, ![T]⟩ 0 [⟨⟨1, ![E]⟩, a⟩, ⟨⟨1, ![N]⟩, b⟩] h1)
        (concatenate ⟨1, ![T]⟩ 0 [⟨⟨1, ![E]⟩, a'⟩, ⟨⟨1, ![N]⟩, b'⟩] h1)
      = concatenate ⟨1, ![T]⟩ 0 [⟨⟨1, ![E]⟩, mulf a a'⟩, ⟨⟨1, ![N]⟩, mulf b b'⟩] h1 := by
  funext j
  obtain ⟨e, rfl⟩ : ∃ e : Fin T, j = ix1 e := ⟨j 0, eq_ix1 j⟩
  rw [mulf_apply]
  by_cases he : e.val < E
  · rw [concat1_left h1 a b e he, concat1_left h1 a' b' e he, concat1_left h1 (mulf a a') (mulf b b') e he]
    rfl
  · have he' : E ≤ e.val := Nat.le_of_not_lt he
    rw [concat1_right h1 a b e he', concat1_right h1 a' b' e he', concat1_right h1 (mulf a a') (mulf b b') e he']
    rfl

/-- A product of two concatenated matrices is the concatenation of the products of the parts. -/
theorem mulf_concat2 {E N T C : ℕ}
    (h2 : Shape.Concatenates [(⟨2, ![E, C]⟩ : Shape), ⟨2, ![N, C]⟩] ⟨2, ![T, C]⟩ 0)
    (a a' : FVec Ideal ⟨2, ![E, C]⟩ .f32) (b b' : FVec Ideal ⟨2, ![N, C]⟩ .f32) :
    mulf (concatenate ⟨2, ![T, C]⟩ 0 [⟨⟨2, ![E, C]⟩, a⟩, ⟨⟨2, ![N, C]⟩, b⟩] h2)
        (concatenate ⟨2, ![T, C]⟩ 0 [⟨⟨2, ![E, C]⟩, a'⟩, ⟨⟨2, ![N, C]⟩, b'⟩] h2)
      = concatenate ⟨2, ![T, C]⟩ 0 [⟨⟨2, ![E, C]⟩, mulf a a'⟩, ⟨⟨2, ![N, C]⟩, mulf b b'⟩] h2 := by
  funext j
  obtain ⟨e, k, rfl⟩ : ∃ (e : Fin T) (k : Fin C), j = ix2 e k := ⟨j 0, j 1, eq_ix2 j⟩
  rw [mulf_apply]
  by_cases he : e.val < E
  · rw [concat2_left h2 a b e k he, concat2_left h2 a' b' e k he, concat2_left h2 (mulf a a') (mulf b b') e k he]
    rfl
  · have he' : E ≤ e.val := Nat.le_of_not_lt he
    rw [concat2_right h2 a b e k he', concat2_right h2 a' b' e k he',
      concat2_right h2 (mulf a a') (mulf b b') e k he']
    rfl

/-! ## Broadcasts of concatenations -/

/-- A concatenated vector laid out as one column and repeated along the rows is the concatenation of the two parts,
    each entry repeated along its row. -/
theorem spread_concat {E N T C : ℕ} (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0)
    (wcT : (⟨1, ![T]⟩ : Shape).BroadcastsInDim ⟨2, ![T, 1]⟩ ![0])
    (wr : (⟨2, ![T, 1]⟩ : Shape).BroadcastsInDim ⟨2, ![T, C]⟩ ![0, 1])
    (p : (⟨1, ![E]⟩ : Shape).Idx → α) (q : (⟨1, ![N]⟩ : Shape).Idx → α) :
    broadcastInDim ⟨2, ![T, C]⟩ ![0, 1] wr (broadcastInDim ⟨2, ![T, 1]⟩ ![0] wcT
        (concatenate ⟨1, ![T]⟩ 0 [⟨⟨1, ![E]⟩, p⟩, ⟨⟨1, ![N]⟩, q⟩] h1))
      = concatenate ⟨2, ![T, C]⟩ 0
          [⟨⟨2, ![E, C]⟩, fun j => p (ix1 (j 0))⟩, ⟨⟨2, ![N, C]⟩, fun j => q (ix1 (j 0))⟩] h2 := by
  funext j
  obtain ⟨e, k, rfl⟩ : ∃ (e : Fin T) (k : Fin C), j = ix2 e k := ⟨j 0, j 1, eq_ix2 j⟩
  rw [bcastRows_apply wr _ e k, bcastCol_apply wcT _ e]
  by_cases he : e.val < E
  · rw [concat1_left h1 p q e he, concat2_left h2 _ _ e k he]
    rfl
  · have he' : E ≤ e.val := Nat.le_of_not_lt he
    rw [concat1_right h1 p q e he', concat2_right h2 _ _ e k he']
    rfl

/-- A scalar broadcast to `T` entries is the concatenation of its broadcasts to `E` and to `N` entries. -/
theorem splat_concat {E N T : ℕ} (h1 : Shape.Concatenates [(⟨1, ![E]⟩ : Shape), ⟨1, ![N]⟩] ⟨1, ![T]⟩ 0)
    (w0T : (⟨0, ![]⟩ : Shape).BroadcastsInDim ⟨1, ![T]⟩ ![]) (w0E : (⟨0, ![]⟩ : Shape).BroadcastsInDim ⟨1, ![E]⟩ ![])
    (w0N : (⟨0, ![]⟩ : Shape).BroadcastsInDim ⟨1, ![N]⟩ ![]) (c : (⟨0, ![]⟩ : Shape).Idx → α) :
    broadcastInDim ⟨1, ![T]⟩ ![] w0T c
      = concatenate ⟨1, ![T]⟩ 0
          [⟨⟨1, ![E]⟩, broadcastInDim ⟨1, ![E]⟩ ![] w0E c⟩, ⟨⟨1, ![N]⟩, broadcastInDim ⟨1, ![N]⟩ ![] w0N c⟩] h1 := by
  funext j
  obtain ⟨e, rfl⟩ : ∃ e : Fin T, j = ix1 e := ⟨j 0, eq_ix1 j⟩
  rw [broadcastInDim_scalar_apply]
  by_cases he : e.val < E
  · rw [concat1_left h1 _ _ e he, broadcastInDim_scalar_apply]
  · have he' : E ≤ e.val := Nat.le_of_not_lt he
    rw [concat1_right h1 _ _ e he', broadcastInDim_scalar_apply]

end LoopConcat

end
-- ==== Proof.Bridge.lean ====
/-
  The kernel's function of the six argument arrays IS the reference's.

  The reference runs every node's self loop as one more edge: its index lists are the E = 640000 edges followed by
  0, 1, …, N-1 (N = 50000), its edge attribute the edges' attribute followed by rows of ones.  Everything it computes
  over the T = E + N entries splits into the same thing over the E edges and a term for the loops:
    · a count of the entries naming node i is the count over the edges, plus one;
    · so both programs have one degree vector deg ≥ 1, and the reference's guard "deg > 0" always holds, and its
      clamp "max (cnt, 1)" never acts;
    · a per-node array read at the entries' nodes is that array read at the edges' nodes, followed by the array itself;
    · the normalisation dinv(src)·dinv(dst) is the edges' normalisation followed by dinv i · dinv i;
    · the messages summed at their targets are the edges' messages summed at their targets, plus the loop's message
      x i · 1 · (dinv i · dinv i) at node i.
  What is left is the grouping of one product: (x · ea) · norm  against  x · (ea · norm).  Sums are only split and
  regrouped and products only regrouped, which is sound on the extended reals with no finiteness assumed.
-/
import proofs.«155152_j37271726194960_1_alg».proof.Proof.KSpec
import proofs.«155152_j37271726194960_1_alg».proof.Proof.RSpec
import proofs.«155152_j37271726194960_1_alg».proof.Proof.LibLoopGather
import proofs.«155152_j37271726194960_1_alg».proof.Proof.LibLoopScatter
import proofs.«155152_j37271726194960_1_alg».proof.Proof.LibLoopLayout
import proofs.«155152_j37271726194960_1_alg».proof.Proof.Gen.KernelIdeal
import proofs.«155152_j37271726194960_1_alg».proof.Proof.Gen.ReferenceIdeal
import Idealize.ShloMosaic.Lib.IdealHost
import Idealize.ShloMosaic.PureOps.Ideal.Laws

noncomputable section

namespace Cert.Bridge

open Idealize.ShloMosaic Idealize.ShloMosaic.ValueIdx LoopConcat

abbrev sE : Shape := ⟨1, ![640000]⟩
abbrev sN : Shape := ⟨1, ![50000]⟩
abbrev sT : Shape := ⟨1, ![690000]⟩
abbrev sEC : Shape := ⟨2, ![640000, 128]⟩
abbrev sNC : Shape := ⟨2, ![50000, 128]⟩
abbrev sTC : Shape := ⟨2, ![690000, 128]⟩
abbrev sA0 : Shape := ⟨2, ![2, 640000]⟩
abbrev sRel : Shape := ⟨2, ![500, 128]⟩

/-- The two-part splits of the T entries and of the T rows. -/
theorem h1 : Shape.Concatenates [sE, sN] sT 0 := Cert.ReferenceIdeal.Facts₀.concatenates_S640000_S50000_S690000_d0
theorem h2 : Shape.Concatenates [sEC, sNC] sTC 0 := Cert.ReferenceIdeal.Facts₀.concatenates_S640000x128_S50000x128_S690000x128_d0

/-! ## What the two programs spell alike -/

theorem src_eq (a0 : IVec sA0 32) : Cert.KernelIdeal.KSpec.src a0 = Cert.ReferenceIdeal.RSpec.src0 a0 := rfl
theorem dst_eq (a0 : IVec sA0 32) : Cert.KernelIdeal.KSpec.dst a0 = Cert.ReferenceIdeal.RSpec.dst0 a0 := rfl
theorem relg_eq (a1 : IVec sE 32) (a4 : FVec Ideal sRel .f32) : Cert.KernelIdeal.KSpec.relg a1 a4 = Cert.ReferenceIdeal.RSpec.relg a1 a4 := rfl
theorem edgeg_eq (a2 : IVec sE 32) (a5 : FVec Ideal sEC .f32) : Cert.KernelIdeal.KSpec.edgeg a2 a5 = Cert.ReferenceIdeal.RSpec.edgeg a2 a5 := rfl

/-! ## Counting -/

/-- Ones over the T entries are ones over the edges followed by ones over the loops. -/
theorem onesT_split : Cert.ReferenceIdeal.RSpec.onesT = concatenate sT 0 [⟨sE, Cert.KernelIdeal.KSpec.onesE⟩, ⟨sN, Cert.KernelIdeal.KSpec.onesV⟩] h1 :=
  splat_concat (E := 640000) (N := 50000) (T := 690000) h1 _ _ _ _

/-- The entries naming a node are the edges naming it and its own loop. -/
theorem count_eq (v : IVec sE 32) : Cert.ReferenceIdeal.RSpec.countR (Cert.ReferenceIdeal.RSpec.withLoops v) = Cert.KernelIdeal.KSpec.count1 v := by
  unfold Cert.ReferenceIdeal.RSpec.countR
  rw [onesT_split]
  exact scatterAddVec_withLoops (E := 640000) (N := 50000) (T := 690000) _ _ _ _ h1 (by norm_num) _ v _ _

/-- Every count is at least one. -/
theorem one_le_count (v : IVec sE 32) (i : Fin 50000) : 1 ≤ Cert.KernelIdeal.KSpec.count1 v (ix1 i) := by
  have h0 : 0 ≤ Host.scatterAdd Cert.KernelIdeal.scatter_S50000_S640000x1_S640000_n_0_0_1 Cert.KernelIdeal.KSpec.zerosV (Cert.KernelIdeal.KSpec.col v) Cert.KernelIdeal.KSpec.onesE (ix1 i) :=
    scatterAddVec_nonneg (N := 50000) (T := 640000) _ _ Cert.KernelIdeal.KSpec.zerosV v Cert.KernelIdeal.KSpec.onesE
      (fun j => by show (0 : EReal) ≤ Ideal.ofBits .f32 0x00000000#32; rw [Ideal.ofBits_zero_f32])
      (fun e => by show (0 : EReal) ≤ Ideal.ofBits .f32 0x3F800000#32; rw [Ideal.ofBits_one_f32]; exact zero_le_one) i
  show 1 ≤ Host.scatterAdd Cert.KernelIdeal.scatter_S50000_S640000x1_S640000_n_0_0_1 Cert.KernelIdeal.KSpec.zerosV (Cert.KernelIdeal.KSpec.col v) Cert.KernelIdeal.KSpec.onesE (ix1 i)
      + Ideal.ofBits .f32 0x3F800000#32
  rw [Ideal.ofBits_one_f32]
  exact le_add_of_nonneg_left h0

/-- A strict comparison that holds reads as the word one. -/
theorem cmp_gt_one (A B : FVec Ideal sN .f32) (j : sN.Idx) (h : B j < A j) : cmpf .ogt A B j = 1#1 := by
  show BitVec.ofBool (decide (B j < A j)) = 1#1
  rw [decide_eq_true h]; rfl

theorem zerosV_apply (j : sN.Idx) : Cert.ReferenceIdeal.RSpec.zerosV j = 0 := by
  show Ideal.ofBits .f32 0x00000000#32 = 0
  exact Ideal.ofBits_zero_f32

/-- So the reference's guarded inverse root degree is the kernel's unguarded one. -/
theorem dinv_eq (a0 : IVec sA0 32) : Cert.ReferenceIdeal.RSpec.dinvR a0 = Cert.KernelIdeal.KSpec.dinv a0 := by
  unfold Cert.ReferenceIdeal.RSpec.dinvR Cert.ReferenceIdeal.RSpec.srcR
  rw [count_eq]
  funext j
  obtain ⟨i, rfl⟩ : ∃ i : Fin 50000, j = ix1 i := ⟨j 0, eq_ix1 j⟩
  have hp : (0 : EReal) < Cert.KernelIdeal.KSpec.count1 (Cert.ReferenceIdeal.RSpec.src0 a0) (ix1 i) := lt_of_lt_of_le zero_lt_one (one_le_count _ i)
  have hc : cmpf .ogt (Cert.KernelIdeal.KSpec.count1 (Cert.ReferenceIdeal.RSpec.src0 a0)) Cert.ReferenceIdeal.RSpec.zerosV (ix1 i) = 1#1 :=
    cmp_gt_one _ _ _ (by rw [zerosV_apply]; exact hp)
  rw [select_apply, hc, select_one]
  rfl

/-! ## Reading per-node arrays at the entries -/

theorem atNode_split (d : FVec Ideal sN .f32) (v : IVec sE 32) :
    Cert.ReferenceIdeal.RSpec.atNodeR d (Cert.ReferenceIdeal.RSpec.withLoops v) = concatenate sT 0 [⟨sE, Cert.KernelIdeal.KSpec.atNode d v⟩, ⟨sN, d⟩] h1 :=
  gatherVec_withLoops (E := 640000) (N := 50000) (T := 690000) _ _ _ _ _ _ h1 (by norm_num) (by norm_num) d v 50000#32

/-- The normalisation over the entries: the edges' dinv(src)·dinv(dst), then dinv·dinv for the loops, along the rows. -/
theorem norm_split (a0 : IVec sA0 32) :
    Cert.ReferenceIdeal.RSpec.normR a0 = concatenate sTC 0
      [⟨sEC, fun j => mulf (Cert.KernelIdeal.KSpec.atNode (Cert.KernelIdeal.KSpec.dinv a0) (Cert.KernelIdeal.KSpec.src a0)) (Cert.KernelIdeal.KSpec.atNode (Cert.KernelIdeal.KSpec.dinv a0) (Cert.KernelIdeal.KSpec.dst a0)) (ix1 (j 0))⟩,
       ⟨sNC, fun j => mulf (Cert.KernelIdeal.KSpec.dinv a0) (Cert.KernelIdeal.KSpec.dinv a0) (ix1 (j 0))⟩] h2 := by
  unfold Cert.ReferenceIdeal.RSpec.normR Cert.ReferenceIdeal.RSpec.srcR Cert.ReferenceIdeal.RSpec.dstR
  rw [dinv_eq, atNode_split, atNode_split, mulf_concat1]
  exact spread_concat (E := 640000) (N := 50000) (T := 690000) (C := 128) h1 h2 _ _ _ _

theorem xsrc_split (a0 : IVec sA0 32) (x : FVec Ideal sNC .f32) :
    Cert.ReferenceIdeal.RSpec.xsrcR a0 x = concatenate sTC 0 [⟨sEC, Cert.KernelIdeal.KSpec.xsrc a0 x⟩, ⟨sNC, x⟩] h2 :=
  gatherRow_withLoops (E := 640000) (N := 50000) (T := 690000) (C := 128) _ _ _ _ _ _ h1 h2 (by norm_num) (by norm_num) x (Cert.ReferenceIdeal.RSpec.src0 a0) 50000#32

/-! ## One layer -/

/-- The last step of a layer at one entry, over any arrays: a quotient of a sum whose second term and whose divisor are
    given entrywise. -/
theorem fin_point (A X M Q : FVec Ideal sNC .f32) (nl cn : FVec Ideal ⟨2, ![50000, 1]⟩ .f32) (i : Fin 50000) (k : Fin 128)
    (hM : M (ix2 i k) = X (ix2 i k) * nl (ix2 i 0)) (hQ : Q (ix2 i k) = cn (ix2 i 0)) :
    Host.divf (addf A M) Q (ix2 i k) = Cert.KernelIdeal.KSpec.fin A X nl cn (ix2 i k) := by
  show Ideal.div (A (ix2 i k) + M (ix2 i k)) (Q (ix2 i k)) = Ideal.div (A (ix2 i k) + X (ix2 i k) * nl (ix2 i 0)) (cn (ix2 i 0))
  rw [hM, hQ]

/-- The reference's convolution is the kernel's layer. -/
theorem conv_eq (a0 : IVec sA0 32) (a1 a2 : IVec sE 32) (a4 : FVec Ideal sRel .f32) (a5 : FVec Ideal sEC .f32) (x : FVec Ideal sNC .f32) :
    Cert.ReferenceIdeal.RSpec.conv a0 (Cert.ReferenceIdeal.RSpec.ea a1 a2 a4 a5) x = Cert.KernelIdeal.KSpec.layer a0 (Cert.KernelIdeal.KSpec.w a0 a1 a2 a4 a5) x := by
  unfold Cert.ReferenceIdeal.RSpec.conv Cert.ReferenceIdeal.RSpec.ea Cert.ReferenceIdeal.RSpec.aggR Cert.ReferenceIdeal.RSpec.dstR
  rw [xsrc_split, norm_split, mulf_concat2, mulf_concat2]
  refine (congrArg (fun t => Host.divf t (Cert.ReferenceIdeal.RSpec.cntcolR a0))
    (scatterAddRow_withLoops (E := 640000) (N := 50000) (T := 690000) (C := 128)
      Cert.ReferenceIdeal.Facts₀.scatter_S50000x128_S690000x1_S690000x128_1_0_0_1_wf Cert.ReferenceIdeal.Facts₀.bcast_S690000_S690000x1_0
      Cert.KernelIdeal.Facts₀.scatter_S50000x128_S640000x1_S640000x128_1_0_0_1_wf Cert.KernelIdeal.Facts₀.bcast_S640000_S640000x1_0
      h1 h2 (by norm_num) Cert.ReferenceIdeal.RSpec.zerosM (Cert.ReferenceIdeal.RSpec.dst0 a0) _ _)).trans ?_
  -- the edges' messages, in the kernel's grouping
  have hM : (mulf (mulf (Cert.KernelIdeal.KSpec.xsrc a0 x) (mulf (Cert.ReferenceIdeal.RSpec.relg a1 a4) (Cert.ReferenceIdeal.RSpec.edgeg a2 a5)))
        (fun j => mulf (Cert.KernelIdeal.KSpec.atNode (Cert.KernelIdeal.KSpec.dinv a0) (Cert.KernelIdeal.KSpec.src a0)) (Cert.KernelIdeal.KSpec.atNode (Cert.KernelIdeal.KSpec.dinv a0) (Cert.KernelIdeal.KSpec.dst a0)) (ix1 (j 0))) : FVec Ideal sEC .f32)
      = Cert.KernelIdeal.KSpec.mul2 (Cert.KernelIdeal.KSpec.xsrc a0 x) (Cert.KernelIdeal.KSpec.w a0 a1 a2 a4 a5) := by
    funext j
    obtain ⟨e, k, rfl⟩ : ∃ (e : Fin 640000) (k : Fin 128), j = ix2 e k := ⟨j 0, j 1, eq_ix2 j⟩
    show Cert.KernelIdeal.KSpec.xsrc a0 x (ix2 e k) * (Cert.ReferenceIdeal.RSpec.relg a1 a4 (ix2 e k) * Cert.ReferenceIdeal.RSpec.edgeg a2 a5 (ix2 e k))
        * mulf (Cert.KernelIdeal.KSpec.atNode (Cert.KernelIdeal.KSpec.dinv a0) (Cert.KernelIdeal.KSpec.src a0)) (Cert.KernelIdeal.KSpec.atNode (Cert.KernelIdeal.KSpec.dinv a0) (Cert.KernelIdeal.KSpec.dst a0)) (ix1 e)
      = Cert.KernelIdeal.KSpec.xsrc a0 x (ix2 e k) * (Cert.KernelIdeal.KSpec.relg a1 a4 (ix2 e k) * Cert.KernelIdeal.KSpec.edgeg a2 a5 (ix2 e k) * Cert.KernelIdeal.KSpec.normcol a0 (ix2 e 0))
    rw [show Cert.KernelIdeal.KSpec.normcol a0 (ix2 e 0) = mulf (Cert.KernelIdeal.KSpec.atNode (Cert.KernelIdeal.KSpec.dinv a0) (Cert.KernelIdeal.KSpec.src a0)) (Cert.KernelIdeal.KSpec.atNode (Cert.KernelIdeal.KSpec.dinv a0) (Cert.KernelIdeal.KSpec.dst a0)) (ix1 e) from
      bcastCol_apply _ _ e]
    rw [relg_eq, edgeg_eq, mul_assoc]
  rw [hM]
  funext j
  obtain ⟨i, k, rfl⟩ : ∃ (i : Fin 50000) (k : Fin 128), j = ix2 i k := ⟨j 0, j 1, eq_ix2 j⟩
  -- the loop's message, the count's clamp, and the two columns, at (i, k)
  have hL : mulf (mulf x Cert.ReferenceIdeal.RSpec.onesM) (fun j => mulf (Cert.KernelIdeal.KSpec.dinv a0) (Cert.KernelIdeal.KSpec.dinv a0) (ix1 (j 0))) (ix2 i k)
      = x (ix2 i k) * Cert.KernelIdeal.KSpec.nlcol a0 (ix2 i 0) := by
    show x (ix2 i k) * Ideal.ofBits .f32 0x3F800000#32 * mulf (Cert.KernelIdeal.KSpec.dinv a0) (Cert.KernelIdeal.KSpec.dinv a0) (ix1 i) = _
    rw [Ideal.ofBits_one_f32, mul_one,
      show Cert.KernelIdeal.KSpec.nlcol a0 (ix2 i 0) = mulf (Cert.KernelIdeal.KSpec.dinv a0) (Cert.KernelIdeal.KSpec.dinv a0) (ix1 i) from bcastCol_apply _ _ i]
  have hC : Cert.ReferenceIdeal.RSpec.cntcolR a0 (ix2 i k) = Cert.KernelIdeal.KSpec.cntcol a0 (ix2 i 0) := by
    unfold Cert.ReferenceIdeal.RSpec.cntcolR Cert.ReferenceIdeal.RSpec.dstR
    rw [count_eq, bcastRows_apply, bcastCol_apply,
      show Cert.KernelIdeal.KSpec.cntcol a0 (ix2 i 0) = Cert.KernelIdeal.KSpec.cnt a0 (ix1 i) from bcastCol_apply _ _ i]
    show max (Cert.KernelIdeal.KSpec.count1 (Cert.ReferenceIdeal.RSpec.dst0 a0) (ix1 i)) (Ideal.ofBits .f32 0x3F800000#32) = Cert.KernelIdeal.KSpec.count1 (Cert.KernelIdeal.KSpec.dst a0) (ix1 i)
    rw [Ideal.ofBits_one_f32]
    exact max_eq_left (one_le_count _ i)
  exact fin_point _ _ _ _ _ _ i k hL hC

/-- The reference's clip of a layer is the kernel's clipped layer. -/
theorem relu_eq (a0 : IVec sA0 32) (W : FVec Ideal sEC .f32) (x : FVec Ideal sNC .f32) :
    Cert.ReferenceIdeal.RSpec.relu (Cert.KernelIdeal.KSpec.layer a0 W x) = Cert.KernelIdeal.KSpec.layerRelu a0 W x := rfl

/-! ## The three layers -/

/-- The kernel's result is the reference's, as functions of the six argument arrays. -/
theorem out_eq (a0 : IVec sA0 32) (a1 a2 : IVec sE 32) (a3 : FVec Ideal sNC .f32) (a4 : FVec Ideal sRel .f32) (a5 : FVec Ideal sEC .f32) :
    Cert.KernelIdeal.KSpec.out a0 a1 a2 a3 a4 a5 = Cert.ReferenceIdeal.RSpec.out a0 a1 a2 a3 a4 a5 := by
  unfold Cert.KernelIdeal.KSpec.out Cert.ReferenceIdeal.RSpec.out
  rw [conv_eq, conv_eq, conv_eq, relu_eq]

end Cert.Bridge

end
-- ==== Proof.lean ====
/-
  The certificate of the message-passing kernel against its jnp reference, over the extended reals.

  A graph of n = 50000 nodes and E = 640000 edges; three rounds of  x ↦ (Σ_{e : dst e = i} x(src e) · w(e) + x(i) · dinv(i)²) / cnt(i)
  with w(e) = rel(e) · edge(e) · dinv(src e) · dinv(dst e), deg and cnt counting each node's self loop, the middle round
  clipped below at zero.  The kernel computes w once, treats the self loops in closed form, and runs the products and the
  final quotient in seven launched regions between host gathers and scatters; the reference appends the n self loops to
  the edge list and recomputes everything per round on E + n entries.

  · The three frames: the two kernel programs' are the generated ones; the reference's is its run with the result dropped.
  · The idealization rewrote nothing, so its conjunct is trivial.
  · The value: the kernel's run leaves the result at the last segment boundary's contents (KRun), which read back
    through the seven regions' closed forms (KReg0 … KReg6) and the host stretches are the function KSpec.out of the
    arguments (KChain); the reference's run read back is RSpec.out (RefValue); and the two functions are one (Bridge):
    sums over the E + n entries split into the edges' part and the loops' part, products are regrouped, the reference's
    guard deg > 0 and clamp max(cnt, 1) never act because both counts are at least one.
-/
import proofs.«155152_j37271726194960_1_alg».proof.Defs
import proofs.«155152_j37271726194960_1_alg».proof.Proof.Gen.Kernel
import proofs.«155152_j37271726194960_1_alg».proof.Proof.Gen.Kernel.Skeleton
import proofs.«155152_j37271726194960_1_alg».proof.Proof.Gen.Kernel.Launch
import proofs.«155152_j37271726194960_1_alg».proof.Proof.Gen.Kernel.Points
import proofs.«155152_j37271726194960_1_alg».proof.Proof.Gen.Kernel.Frame
import proofs.«155152_j37271726194960_1_alg».proof.Proof.Gen.KernelIdeal
import proofs.«155152_j37271726194960_1_alg».proof.Proof.Gen.KernelIdeal.Skeleton
import proofs.«155152_j37271726194960_1_alg».proof.Proof.Gen.KernelIdeal.Launch
import proofs.«155152_j37271726194960_1_alg».proof.Proof.Gen.KernelIdeal.Points
import proofs.«155152_j37271726194960_1_alg».proof.Proof.Gen.KernelIdeal.Frame
import proofs.«155152_j37271726194960_1_alg».proof.Proof.Gen.ReferenceIdeal
import proofs.«155152_j37271726194960_1_alg».proof.Proof.Gen.Pre_finite_inputs
import proofs.«155152_j37271726194960_1_alg».proof.Proof.KRun
import proofs.«155152_j37271726194960_1_alg».proof.Proof.KChain
import proofs.«155152_j37271726194960_1_alg».proof.Proof.RefRun
import proofs.«155152_j37271726194960_1_alg».proof.Proof.RefValue
import proofs.«155152_j37271726194960_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs, from memories agreeing on the arguments, end with the one function of the arguments. -/
theorem algebraic : Cert.algebraic_KernelIdeal_ReferenceIdeal := by
  intro m ρ m' ρ' _ hagree
  refine ⟨fun c => Cert.KernelIdeal.KSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KChain.result_eq m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.RefValue.run_spec m' ρ')
    rw [(hagree c).1, (hagree c).2.1, (hagree c).2.2.1, (hagree c).2.2.2.1, (hagree c).2.2.2.2.1, (hagree c).2.2.2.2.2]
    exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
